-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v106)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v106) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S150002x128 : Shape := ⟨2, ![150002, 128]⟩
abbrev S600000 : Shape := ⟨1, ![600000]⟩
abbrev S150002x1 : Shape := ⟨2, ![150002, 1]⟩
abbrev S6x600000 : Shape := ⟨2, ![6, 600000]⟩
abbrev S_ : Shape := ⟨0, ![]⟩

class Facts : Prop where
  bcast_S_S150002x128 : S_.BroadcastsInDim S150002x128 (![] : Fin 0 → Fin S150002x128.rank)
  reducesTo_S150002x128_S_d0_1 : S150002x128.ReducesTo [0, 1] S_
  h_S_ : 0 < S_.numel
  bcast_S_S600000 : S_.BroadcastsInDim S600000 (![] : Fin 0 → Fin S600000.rank)
  reducesTo_S600000_S_d0 : S600000.ReducesTo [0] S_
  bcast_S_S150002x1 : S_.BroadcastsInDim S150002x1 (![] : Fin 0 → Fin S150002x1.rank)
  reducesTo_S150002x1_S_d0_1 : S150002x1.ReducesTo [0, 1] S_

variable [Facts]

def fn_part2 {F : FTy → Type} [FloatOps F] (main_arg5 : IVec S600000 32) (main_v28 : IVec S_ 1) (main_v33 : IVec S600000 1) : IVec S_ 1 :=
  let main_c_12 : IVec S_ 1 := constantI S_ 1 1#1
  let main_v34 : IVec S_ 1 := (fun x v => Host.reduce IntOp.andi x v reducesTo_S600000_S_d0 h_S_) main_v33 main_c_12
  let main_v35 : IVec S_ 1 := andi main_v28 main_v34
  let main_c_13 : IVec S_ 32 := constantI S_ 32 0#32
  let main_v36 : IVec S600000 32 := broadcastInDim S600000 ![] bcast_S_S600000 main_c_13
  let main_v37 : IVec S600000 1 := cmpi .sge main_arg5 main_v36
  let main_c_14 : IVec S_ 32 := constantI S_ 32 150002#32
  let main_v38 : IVec S600000 32 := broadcastInDim S600000 ![] bcast_S_S600000 main_c_14
  let main_v39 : IVec S600000 1 := cmpi .slt main_arg5 main_v38
  let main_v40 : IVec S600000 1 := andi main_v37 main_v39
  let main_c_15 : IVec S_ 1 := constantI S_ 1 1#1
  let main_v41 : IVec S_ 1 := (fun x v => Host.reduce IntOp.andi x v reducesTo_S600000_S_d0 h_S_) main_v40 main_c_15
  let main_v42 : IVec S_ 1 := andi main_v35 main_v41
  main_v42

def fn_part1 {F : FTy → Type} [FloatOps F] (main_arg2 : IVec S600000 32) (main_arg5 : IVec S600000 32) (main_arg8 : FVec F S150002x1 .f32) (main_arg9 : FVec F S150002x1 .f32) (main_v13 : IVec S_ 1) (main_v16 : IVec S150002x1 1) : IVec S_ 1 :=
  let main_c_5 : IVec S_ 1 := constantI S_ 1 1#1
  let main_v17 : IVec S_ 1 := (fun x v => Host.reduce IntOp.andi x v reducesTo_S150002x1_S_d0_1 h_S_) main_v16 main_c_5
  let main_v18 : IVec S_ 1 := andi main_v13 main_v17
  let main_v19 : FVec F S150002x1 .f32 := Host.absf main_arg8
  let main_cst_6 : FVec F S_ .f32 := constant S_ .f32 0x7F800000#32
  let main_v20 : FVec F S150002x1 .f32 := broadcastInDim S150002x1 ![] bcast_S_S150002x1 main_cst_6
  let main_v21 : IVec S150002x1 1 := cmpf .olt main_v19 main_v20
  let main_c_7 : IVec S_ 1 := constantI S_ 1 1#1
  let main_v22 : IVec S_ 1 := (fun x v => Host.reduce IntOp.andi x v reducesTo_S150002x1_S_d0_1 h_S_) main_v21 main_c_7
  let main_v23 : IVec S_ 1 := andi main_v18 main_v22
  let main_v24 : FVec F S150002x1 .f32 := Host.absf main_arg9
  let main_cst_8 : FVec F S_ .f32 := constant S_ .f32 0x7F800000#32
  let main_v25 : FVec F S150002x1 .f32 := broadcastInDim S150002x1 ![] bcast_S_S150002x1 main_cst_8
  let main_v26 : IVec S150002x1 1 := cmpf .olt main_v24 main_v25
  let main_c_9 : IVec S_ 1 := constantI S_ 1 1#1
  let main_v27 : IVec S_ 1 := (fun x v => Host.reduce IntOp.andi x v reducesTo_S150002x1_S_d0_1 h_S_) main_v26 main_c_9
  let main_v28 : IVec S_ 1 := andi main_v23 main_v27
  let main_c_10 : IVec S_ 32 := constantI S_ 32 0#32
  let main_v29 : IVec S600000 32 := broadcastInDim S600000 ![] bcast_S_S600000 main_c_10
  let main_v30 : IVec S600000 1 := cmpi .sge main_arg2 main_v29
  let main_c_11 : IVec S_ 32 := constantI S_ 32 150002#32
  let main_v31 : IVec S600000 32 := broadcastInDim S600000 ![] bcast_S_S600000 main_c_11
  let main_v32 : IVec S600000 1 := cmpi .slt main_arg2 main_v31
  let main_v33 : IVec S600000 1 := andi main_v30 main_v32
  fn_part2 (F := F) main_arg5 main_v28 main_v33

def fn {F : FTy → Type} [FloatOps F] (main_arg0 : FVec F S150002x128 .f32) (main_arg1 : IVec S600000 32) (main_arg2 : IVec S600000 32) (main_arg3 : FVec F S600000 .f32) (main_arg4 : IVec S600000 32) (main_arg5 : IVec S600000 32) (main_arg6 : FVec F S600000 .f32) (main_arg7 : FVec F S150002x1 .f32) (main_arg8 : FVec F S150002x1 .f32) (main_arg9 : FVec F S150002x1 .f32) (main_arg10 : IVec S6x600000 1) : IVec S_ 1 :=
  let main_v0 : FVec F S150002x128 .f32 := Host.absf main_arg0
  let main_cst : FVec F S_ .f32 := constant S_ .f32 0x7F800000#32
  let main_v1 : FVec F S150002x128 .f32 := broadcastInDim S150002x128 ![] bcast_S_S150002x128 main_cst
  let main_v2 : IVec S150002x128 1 := cmpf .olt main_v0 main_v1
  let main_c : IVec S_ 1 := constantI S_ 1 1#1
  let main_v3 : IVec S_ 1 := (fun x v => Host.reduce IntOp.andi x v reducesTo_S150002x128_S_d0_1 h_S_) main_v2 main_c
  let main_v4 : FVec F S600000 .f32 := Host.absf main_arg3
  let main_cst_0 : FVec F S_ .f32 := constant S_ .f32 0x7F800000#32
  let main_v5 : FVec F S600000 .f32 := broadcastInDim S600000 ![] bcast_S_S600000 main_cst_0
  let main_v6 : IVec S600000 1 := cmpf .olt main_v4 main_v5
  let main_c_1 : IVec S_ 1 := constantI S_ 1 1#1
  let main_v7 : IVec S_ 1 := (fun x v => Host.reduce IntOp.andi x v reducesTo_S600000_S_d0 h_S_) main_v6 main_c_1
  let main_v8 : IVec S_ 1 := andi main_v3 main_v7
  let main_v9 : FVec F S600000 .f32 := Host.absf main_arg6
  let main_cst_2 : FVec F S_ .f32 := constant S_ .f32 0x7F800000#32
  let main_v10 : FVec F S600000 .f32 := broadcastInDim S600000 ![] bcast_S_S600000 main_cst_2
  let main_v11 : IVec S600000 1 := cmpf .olt main_v9 main_v10
  let main_c_3 : IVec S_ 1 := constantI S_ 1 1#1
  let main_v12 : IVec S_ 1 := (fun x v => Host.reduce IntOp.andi x v reducesTo_S600000_S_d0 h_S_) main_v11 main_c_3
  let main_v13 : IVec S_ 1 := andi main_v8 main_v12
  let main_v14 : FVec F S150002x1 .f32 := Host.absf main_arg7
  let main_cst_4 : FVec F S_ .f32 := constant S_ .f32 0x7F800000#32
  let main_v15 : FVec F S150002x1 .f32 := broadcastInDim S150002x1 ![] bcast_S_S150002x1 main_cst_4
  let main_v16 : IVec S150002x1 1 := cmpf .olt main_v14 main_v15
  fn_part1 (F := F) main_arg2 main_arg5 main_arg8 main_arg9 main_v13 main_v16
-- ==== Kernel.lean ====
abbrev S150002x128 : Shape := ⟨2, ![150002, 128]⟩
abbrev S600000 : Shape := ⟨1, ![600000]⟩
abbrev S150002x1 : Shape := ⟨2, ![150002, 1]⟩
abbrev S6x600000 : Shape := ⟨2, ![6, 600000]⟩
abbrev S_ : Shape := ⟨0, ![]⟩
abbrev S151552x128 : Shape := ⟨2, ![151552, 128]⟩
abbrev S151552x1 : Shape := ⟨2, ![151552, 1]⟩
abbrev S2x600000 : Shape := ⟨2, ![2, 600000]⟩
abbrev S1x600000 : Shape := ⟨2, ![1, 600000]⟩
abbrev S600000x1 : Shape := ⟨2, ![600000, 1]⟩
abbrev S600000x128 : Shape := ⟨2, ![600000, 128]⟩
abbrev S6000x128 : Shape := ⟨2, ![6000, 128]⟩
abbrev S6000x1 : Shape := ⟨2, ![6000, 1]⟩
abbrev S4096x128 : Shape := ⟨2, ![4096, 128]⟩
abbrev S4096x1 : Shape := ⟨2, ![4096, 1]⟩
abbrev S4096 : Shape := ⟨1, ![4096]⟩

abbrev nBuf : Space → Nat
  | .hbm => 144
  | .vmem => 92
  | .smem => 0
  | _ => 0

abbrev hbmTy0_0 (i : Nat) : BufTy := match i % 128 with
  | 0 => ⟨S150002x128, .f32⟩
  | 1 => ⟨S600000, .i32⟩
  | 2 => ⟨S600000, .i32⟩
  | 3 => ⟨S600000, .f32⟩
  | 4 => ⟨S600000, .i32⟩
  | 5 => ⟨S600000, .i32⟩
  | 6 => ⟨S600000, .f32⟩
  | 7 => ⟨S150002x1, .f32⟩
  | 8 => ⟨S150002x1, .f32⟩
  | 9 => ⟨S150002x1, .f32⟩
  | 10 => ⟨S6x600000, .i1⟩
  | 11 => ⟨S_, .i32⟩
  | 12 => ⟨S_, .f32⟩
  | 13 => ⟨S151552x128, .f32⟩
  | 14 => ⟨S_, .i32⟩
  | 15 => ⟨S_, .f32⟩
  | 16 => ⟨S151552x1, .f32⟩
  | 17 => ⟨S_, .i32⟩
  | 18 => ⟨S_, .f32⟩
  | 19 => ⟨S151552x1, .f32⟩
  | 20 => ⟨S_, .i32⟩
  | 21 => ⟨S_, .f32⟩
  | 22 => ⟨S151552x1, .f32⟩
  | 23 => ⟨S6x600000, .f32⟩
  | 24 => ⟨S2x600000, .f32⟩
  | 25 => ⟨S1x600000, .f32⟩
  | 26 => ⟨S600000, .f32⟩
  | 27 => ⟨S600000, .f32⟩
  | 28 => ⟨S_, .i32⟩
  | 29 => ⟨S600000, .i32⟩
  | 30 => ⟨S600000, .i1⟩
  | 31 => ⟨S_, .i32⟩
  | 32 => ⟨S600000, .i32⟩
  | 33 => ⟨S600000, .i32⟩
  | 34 => ⟨S600000, .i32⟩
  | 35 => ⟨S600000x1, .i32⟩
  | 36 => ⟨S600000x128, .f32⟩
  | 37 => ⟨S600000x1, .f32⟩
  | 38 => ⟨S600000x128, .f32⟩
  | 39 => ⟨S_, .f32⟩
  | 40 => ⟨S151552x128, .f32⟩
  | 41 => ⟨S600000x1, .i32⟩
  | 42 => ⟨S151552x128, .f32⟩
  | 43 => ⟨S151552x128, .f32⟩
  | 44 => ⟨S1x600000, .f32⟩
  | 45 => ⟨S600000, .f32⟩
  | 46 => ⟨S600000, .f32⟩
  | 47 => ⟨S_, .i32⟩
  | 48 => ⟨S600000, .i32⟩
  | 49 => ⟨S600000, .i1⟩
  | 50 => ⟨S_, .i32⟩
  | 51 => ⟨S600000, .i32⟩
  | 52 => ⟨S600000, .i32⟩
  | 53 => ⟨S600000, .i32⟩
  | 54 => ⟨S600000x1, .i32⟩
  | 55 => ⟨S600000x128, .f32⟩
  | 56 => ⟨S600000x1, .f32⟩
  | 57 => ⟨S600000x128, .f32⟩
  | 58 => ⟨S_, .f32⟩
  | 59 => ⟨S151552x128, .f32⟩
  | 60 => ⟨S600000x1, .i32⟩
  | 61 => ⟨S151552x128, .f32⟩
  | 62 => ⟨S151552x128, .f32⟩
  | 63 => ⟨S151552x128, .f32⟩
  | 64 => ⟨S2x600000, .f32⟩
  | 65 => ⟨S1x600000, .f32⟩
  | 66 => ⟨S600000, .f32⟩
  | 67 => ⟨S600000, .f32⟩
  | 68 => ⟨S_, .i32⟩
  | 69 => ⟨S600000, .i32⟩
  | 70 => ⟨S600000, .i1⟩
  | 71 => ⟨S_, .i32⟩
  | 72 => ⟨S600000, .i32⟩
  | 73 => ⟨S600000, .i32⟩
  | 74 => ⟨S600000, .i32⟩
  | 75 => ⟨S600000x1, .i32⟩
  | 76 => ⟨S600000x128, .f32⟩
  | 77 => ⟨S600000x1, .f32⟩
  | 78 => ⟨S600000x128, .f32⟩
  | 79 => ⟨S_, .f32⟩
  | 80 => ⟨S151552x128, .f32⟩
  | 81 => ⟨S600000x1, .i32⟩
  | 82 => ⟨S151552x128, .f32⟩
  | 83 => ⟨S151552x128, .f32⟩
  | 84 => ⟨S1x600000, .f32⟩
  | 85 => ⟨S600000, .f32⟩
  | 86 => ⟨S600000, .f32⟩
  | 87 => ⟨S_, .i32⟩
  | 88 => ⟨S600000, .i32⟩
  | 89 => ⟨S600000, .i1⟩
  | 90 => ⟨S_, .i32⟩
  | 91 => ⟨S600000, .i32⟩
  | 92 => ⟨S600000, .i32⟩
  | 93 => ⟨S600000, .i32⟩
  | 94 => ⟨S600000x1, .i32⟩
  | 95 => ⟨S600000x128, .f32⟩
  | 96 => ⟨S600000x1, .f32⟩
  | 97 => ⟨S600000x128, .f32⟩
  | 98 => ⟨S_, .f32⟩
  | 99 => ⟨S151552x128, .f32⟩
  | 100 => ⟨S600000x1, .i32⟩
  | 101 => ⟨S151552x128, .f32⟩
  | 102 => ⟨S151552x128, .f32⟩
  | 103 => ⟨S2x600000, .f32⟩
  | 104 => ⟨S1x600000, .f32⟩
  | 105 => ⟨S600000, .f32⟩
  | 106 => ⟨S600000, .f32⟩
  | 107 => ⟨S_, .i32⟩
  | 108 => ⟨S600000, .i32⟩
  | 109 => ⟨S600000, .i1⟩
  | 110 => ⟨S_, .i32⟩
  | 111 => ⟨S600000, .i32⟩
  | 112 => ⟨S600000, .i32⟩
  | 113 => ⟨S600000, .i32⟩
  | 114 => ⟨S600000x1, .i32⟩
  | 115 => ⟨S600000x128, .f32⟩
  | 116 => ⟨S600000x1, .f32⟩
  | 117 => ⟨S600000x128, .f32⟩
  | 118 => ⟨S_, .f32⟩
  | 119 => ⟨S151552x128, .f32⟩
  | 120 => ⟨S600000x1, .i32⟩
  | 121 => ⟨S151552x128, .f32⟩
  | 122 => ⟨S151552x128, .f32⟩
  | 123 => ⟨S1x600000, .f32⟩
  | 124 => ⟨S600000, .f32⟩
  | 125 => ⟨S600000, .f32⟩
  | 126 => ⟨S_, .i32⟩
  | 127 => ⟨S600000, .i32⟩
  | _ => ⟨S150002x128, .f32⟩

abbrev hbmTy0_1 (i : Nat) : BufTy := match i % 128 with
  | 0 => ⟨S600000, .i1⟩
  | 1 => ⟨S_, .i32⟩
  | 2 => ⟨S600000, .i32⟩
  | 3 => ⟨S600000, .i32⟩
  | 4 => ⟨S600000, .i32⟩
  | 5 => ⟨S600000x1, .i32⟩
  | 6 => ⟨S600000x128, .f32⟩
  | 7 => ⟨S600000x1, .f32⟩
  | 8 => ⟨S600000x128, .f32⟩
  | 9 => ⟨S_, .f32⟩
  | 10 => ⟨S151552x128, .f32⟩
  | 11 => ⟨S600000x1, .i32⟩
  | 12 => ⟨S151552x128, .f32⟩
  | 13 => ⟨S151552x128, .f32⟩
  | 14 => ⟨S151552x128, .f32⟩
  | 15 => ⟨S150002x128, .f32⟩
  | _ => ⟨S150002x128, .f32⟩

abbrev hbmTy (i : Nat) : BufTy := match i / 128 with
  | 0 => hbmTy0_0 i
  | 1 => hbmTy0_1 i
  | _ => ⟨S150002x128, .f32⟩

abbrev bufTy : (tb : Table) → Fin (tcTables nBuf tb) → BufTy
  | .hbm, ⟨i, _⟩ => hbmTy i
  | .local _ .vmem, ⟨0, _⟩ => ⟨S6000x128, .f32⟩
  | .local _ .vmem, ⟨1, _⟩ => ⟨S6000x128, .f32⟩
  | .local _ .vmem, ⟨2, _⟩ => ⟨S6000x1, .f32⟩
  | .local _ .vmem, ⟨3, _⟩ => ⟨S6000x1, .f32⟩
  | .local _ .vmem, ⟨4, _⟩ => ⟨S6000x128, .f32⟩
  | .local _ .vmem, ⟨5, _⟩ => ⟨S6000x128, .f32⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S6000x128, .f32⟩
  | .local _ .vmem, ⟨13, _⟩ => ⟨S6000x128, .f32⟩
  | .local _ .vmem, ⟨14, _⟩ => ⟨S6000x1, .f32⟩
  | .local _ .vmem, ⟨15, _⟩ => ⟨S6000x1, .f32⟩
  | .local _ .vmem, ⟨16, _⟩ => ⟨S6000x128, .f32⟩
  | .local _ .vmem, ⟨17, _⟩ => ⟨S6000x128, .f32⟩
  | .local _ .vmem, ⟨18, _⟩ => ⟨S4096x128, .f32⟩
  | .local _ .vmem, ⟨19, _⟩ => ⟨S4096x128, .f32⟩
  | .local _ .vmem, ⟨20, _⟩ => ⟨S4096x128, .f32⟩
  | .local _ .vmem, ⟨21, _⟩ => ⟨S4096x128, .f32⟩
  | .local _ .vmem, ⟨22, _⟩ => ⟨S4096x128, .f32⟩
  | .local _ .vmem, ⟨23, _⟩ => ⟨S4096x128, .f32⟩
  | .local _ .vmem, ⟨24, _⟩ => ⟨S4096x128, .f32⟩
  | .local _ .vmem, ⟨25, _⟩ => ⟨S4096x128, .f32⟩
  | .local _ .vmem, ⟨26, _⟩ => ⟨S4096x1, .f32⟩
  | .local _ .vmem, ⟨27, _⟩ => ⟨S4096x1, .f32⟩
  | .local _ .vmem, ⟨28, _⟩ => ⟨S4096x128, .f32⟩
  | .local _ .vmem, ⟨29, _⟩ => ⟨S4096x128, .f32⟩
  | .local _ .vmem, ⟨30, _⟩ => ⟨S4096x128, .f32⟩
  | .local _ .vmem, ⟨31, _⟩ => ⟨S4096x128, .f32⟩
  | .local _ .vmem, ⟨32, _⟩ => ⟨S6000x128, .f32⟩
  | .local _ .vmem, ⟨33, _⟩ => ⟨S6000x128, .f32⟩
  | .local _ .vmem, ⟨34, _⟩ => ⟨S6000x1, .f32⟩
  | .local _ .vmem, ⟨35, _⟩ => ⟨S6000x1, .f32⟩
  | .local _ .vmem, ⟨36, _⟩ => ⟨S6000x128, .f32⟩
  | .local _ .vmem, ⟨37, _⟩ => ⟨S6000x128, .f32⟩
  | .local _ .vmem, ⟨38, _⟩ => ⟨S4096x128, .f32⟩
  | .local _ .vmem, ⟨39, _⟩ => ⟨S4096x128, .f32⟩
  | .local _ .vmem, ⟨40, _⟩ => ⟨S4096x128, .f32⟩
  | .local _ .vmem, ⟨41, _⟩ => ⟨S4096x128, .f32⟩
  | .local _ .vmem, ⟨42, _⟩ => ⟨S4096x128, .f32⟩
  | .local _ .vmem, ⟨43, _⟩ => ⟨S4096x128, .f32⟩
  | .local _ .vmem, ⟨44, _⟩ => ⟨S6000x128, .f32⟩
  | .local _ .vmem, ⟨45, _⟩ => ⟨S6000x128, .f32⟩
  | .local _ .vmem, ⟨46, _⟩ => ⟨S6000x1, .f32⟩
  | .local _ .vmem, ⟨47, _⟩ => ⟨S6000x1, .f32⟩
  | .local _ .vmem, ⟨48, _⟩ => ⟨S6000x128, .f32⟩
  | .local _ .vmem, ⟨49, _⟩ => ⟨S6000x128, .f32⟩
  | .local _ .vmem, ⟨50, _⟩ => ⟨S4096x128, .f32⟩
  | .local _ .vmem, ⟨51, _⟩ => ⟨S4096x128, .f32⟩
  | .local _ .vmem, ⟨52, _⟩ => ⟨S4096x128, .f32⟩
  | .local _ .vmem, ⟨53, _⟩ => ⟨S4096x128, .f32⟩
  | .local _ .vmem, ⟨54, _⟩ => ⟨S4096x128, .f32⟩
  | .local _ .vmem, ⟨55, _⟩ => ⟨S4096x128, .f32⟩
  | .local _ .vmem, ⟨56, _⟩ => ⟨S6000x128, .f32⟩
  | .local _ .vmem, ⟨57, _⟩ => ⟨S6000x128, .f32⟩
  | .local _ .vmem, ⟨58, _⟩ => ⟨S6000x1, .f32⟩
  | .local _ .vmem, ⟨59, _⟩ => ⟨S6000x1, .f32⟩
  | .local _ .vmem, ⟨60, _⟩ => ⟨S6000x128, .f32⟩
  | .local _ .vmem, ⟨61, _⟩ => ⟨S6000x128, .f32⟩
  | .local _ .vmem, ⟨62, _⟩ => ⟨S4096x128, .f32⟩
  | .local _ .vmem, ⟨63, _⟩ => ⟨S4096x128, .f32⟩
  | .local _ .vmem, ⟨64, _⟩ => ⟨S4096x128, .f32⟩
  | .local _ .vmem, ⟨65, _⟩ => ⟨S4096x128, .f32⟩
  | .local _ .vmem, ⟨66, _⟩ => ⟨S4096x128, .f32⟩
  | .local _ .vmem, ⟨67, _⟩ => ⟨S4096x128, .f32⟩
  | .local _ .vmem, ⟨68, _⟩ => ⟨S6000x128, .f32⟩
  | .local _ .vmem, ⟨69, _⟩ => ⟨S6000x128, .f32⟩
  | .local _ .vmem, ⟨70, _⟩ => ⟨S6000x1, .f32⟩
  | .local _ .vmem, ⟨71, _⟩ => ⟨S6000x1, .f32⟩
  | .local _ .vmem, ⟨72, _⟩ => ⟨S6000x128, .f32⟩
  | .local _ .vmem, ⟨73, _⟩ => ⟨S6000x128, .f32⟩
  | .local _ .vmem, ⟨74, _⟩ => ⟨S4096x128, .f32⟩
  | .local _ .vmem, ⟨75, _⟩ => ⟨S4096x128, .f32⟩
  | .local _ .vmem, ⟨76, _⟩ => ⟨S4096x128, .f32⟩
  | .local _ .vmem, ⟨77, _⟩ => ⟨S4096x128, .f32⟩
  | .local _ .vmem, ⟨78, _⟩ => ⟨S4096x128, .f32⟩
  | .local _ .vmem, ⟨79, _⟩ => ⟨S4096x128, .f32⟩
  | .local _ .vmem, ⟨80, _⟩ => ⟨S4096x128, .f32⟩
  | .local _ .vmem, ⟨81, _⟩ => ⟨S4096x128, .f32⟩
  | .local _ .vmem, ⟨82, _⟩ => ⟨S4096x1, .f32⟩
  | .local _ .vmem, ⟨83, _⟩ => ⟨S4096x1, .f32⟩
  | .local _ .vmem, ⟨84, _⟩ => ⟨S4096x128, .f32⟩
  | .local _ .vmem, ⟨85, _⟩ => ⟨S4096x128, .f32⟩
  | .local _ .vmem, ⟨86, _⟩ => ⟨S4096x1, .f32⟩
  | .local _ .vmem, ⟨87, _⟩ => ⟨S4096x1, .f32⟩
  | .local _ .vmem, ⟨88, _⟩ => ⟨S4096x128, .f32⟩
  | .local _ .vmem, ⟨89, _⟩ => ⟨S4096x128, .f32⟩
  | .local _ .vmem, ⟨90, _⟩ => ⟨S4096x128, .f32⟩
  | .local _ .vmem, ⟨91, _⟩ => ⟨S4096x128, .f32⟩
  | _, _ => ⟨S150002x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | _, _ => false

abbrev semScoped : Fin 0 → Bool
  | ⟨_, h⟩ => absurd h (Nat.not_lt_zero _)

abbrev dmaSemScoped : Fin 92 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | _ => false

abbrev sig : RefSig :=
  ofTc nBuf bufTy 0 92 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_v0 : Ref sig .tc := ⟨.hbm, 12, rfl⟩
abbrev main_v0 : Ref sig .tc := ⟨.hbm, 13, rfl⟩
abbrev main_c_0 : Ref sig .tc := ⟨.hbm, 14, rfl⟩
abbrev main_call1_v0 : Ref sig .tc := ⟨.hbm, 15, rfl⟩
abbrev main_v1 : Ref sig .tc := ⟨.hbm, 16, rfl⟩
abbrev main_c_1 : Ref sig .tc := ⟨.hbm, 17, rfl⟩
abbrev main_call2_v0 : Ref sig .tc := ⟨.hbm, 18, rfl⟩
abbrev main_v2 : Ref sig .tc := ⟨.hbm, 19, rfl⟩
abbrev main_c_2 : Ref sig .tc := ⟨.hbm, 20, rfl⟩
abbrev main_call3_v0 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_c_3 : Ref sig .tc := ⟨.hbm, 28, rfl⟩
abbrev main_v9 : Ref sig .tc := ⟨.hbm, 29, rfl⟩
abbrev main_v10 : Ref sig .tc := ⟨.hbm, 30, rfl⟩
abbrev main_c_4 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c_5 : Ref sig .tc := ⟨.hbm, 47, rfl⟩
abbrev main_v25 : Ref sig .tc := ⟨.hbm, 48, rfl⟩
abbrev main_v26 : Ref sig .tc := ⟨.hbm, 49, rfl⟩
abbrev main_c_6 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_7 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_c_8 : Ref sig .tc := ⟨.hbm, 68, rfl⟩
abbrev main_v43 : Ref sig .tc := ⟨.hbm, 69, rfl⟩
abbrev main_v44 : Ref sig .tc := ⟨.hbm, 70, rfl⟩
abbrev main_c_9 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_10 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_c_11 : Ref sig .tc := ⟨.hbm, 87, rfl⟩
abbrev main_v59 : Ref sig .tc := ⟨.hbm, 88, rfl⟩
abbrev main_v60 : Ref sig .tc := ⟨.hbm, 89, rfl⟩
abbrev main_c_12 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_13 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_c_14 : Ref sig .tc := ⟨.hbm, 107, rfl⟩
abbrev main_v76 : Ref sig .tc := ⟨.hbm, 108, rfl⟩
abbrev main_v77 : Ref sig .tc := ⟨.hbm, 109, rfl⟩
abbrev main_c_15 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_16 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_c_17 : Ref sig .tc := ⟨.hbm, 126, rfl⟩
abbrev main_v92 : Ref sig .tc := ⟨.hbm, 127, rfl⟩
abbrev main_v93 : Ref sig .tc := ⟨.hbm, 128, rfl⟩
abbrev main_c_18 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_cst_19 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc4_stg3_0 : Ref sig .tc := ⟨.vmem, 30, rfl⟩
abbrev cc4_stg3_1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg1_1 : Ref sig .tc := ⟨.vmem, 35, rfl⟩
abbrev cc5_stg2_0 : Ref sig .tc := ⟨.vmem, 36, rfl⟩
abbrev cc5_stg2_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg1_1 : Ref sig .tc := ⟨.vmem, 41, rfl⟩
abbrev cc6_stg2_0 : Ref sig .tc := ⟨.vmem, 42, rfl⟩
abbrev cc6_stg2_1 : Ref sig .tc := ⟨.vmem, 43, rfl⟩
abbrev cc7_stg0_0 : Ref sig .tc := ⟨.vmem, 44, rfl⟩
abbrev cc7_stg0_1 : Ref sig .tc := ⟨.vmem, 45, rfl⟩
abbrev cc7_stg1_0 : Ref sig .tc := ⟨.vmem, 46, rfl⟩
abbrev cc7_stg1_1 : Ref sig .tc := ⟨.vmem, 47, rfl⟩
abbrev cc7_stg2_0 : Ref sig .tc := ⟨.vmem, 48, rfl⟩
abbrev cc7_stg2_1 : Ref sig .tc := ⟨.vmem, 49, rfl⟩
abbrev cc8_stg0_0 : Ref sig .tc := ⟨.vmem, 50, rfl⟩
abbrev cc8_stg0_1 : Ref sig .tc := ⟨.vmem, 51, rfl⟩
abbrev cc8_stg1_0 : Ref sig .tc := ⟨.vmem, 52, rfl⟩
abbrev cc8_stg1_1 : Ref sig .tc := ⟨.vmem, 53, rfl⟩
abbrev cc8_stg2_0 : Ref sig .tc := ⟨.vmem, 54, rfl⟩
abbrev cc8_stg2_1 : Ref sig .tc := ⟨.vmem, 55, rfl⟩
abbrev cc9_stg0_0 : Ref sig .tc := ⟨.vmem, 56, rfl⟩
abbrev cc9_stg0_1 : Ref sig .tc := ⟨.vmem, 57, rfl⟩
abbrev cc9_stg1_0 : Ref sig .tc := ⟨.vmem, 58, rfl⟩
abbrev cc9_stg1_1 : Ref sig .tc := ⟨.vmem, 59, rfl⟩
abbrev cc9_stg2_0 : Ref sig .tc := ⟨.vmem, 60, rfl⟩
abbrev cc9_stg2_1 : Ref sig .tc := ⟨.vmem, 61, rfl⟩
abbrev cc10_stg0_0 : Ref sig .tc := ⟨.vmem, 62, rfl⟩
abbrev cc10_stg0_1 : Ref sig .tc := ⟨.vmem, 63, rfl⟩
abbrev cc10_stg1_0 : Ref sig .tc := ⟨.vmem, 64, rfl⟩
abbrev cc10_stg1_1 : Ref sig .tc := ⟨.vmem, 65, rfl⟩
abbrev cc10_stg2_0 : Ref sig .tc := ⟨.vmem, 66, rfl⟩
abbrev cc10_stg2_1 : Ref sig .tc := ⟨.vmem, 67, rfl⟩
abbrev cc11_stg0_0 : Ref sig .tc := ⟨.vmem, 68, rfl⟩
abbrev cc11_stg0_1 : Ref sig .tc := ⟨.vmem, 69, rfl⟩
abbrev cc11_stg1_0 : Ref sig .tc := ⟨.vmem, 70, rfl⟩
abbrev cc11_stg1_1 : Ref sig .tc := ⟨.vmem, 71, rfl⟩
abbrev cc11_stg2_0 : Ref sig .tc := ⟨.vmem, 72, rfl⟩
abbrev cc11_stg2_1 : Ref sig .tc := ⟨.vmem, 73, rfl⟩
abbrev cc12_stg0_0 : Ref sig .tc := ⟨.vmem, 74, rfl⟩
abbrev cc12_stg0_1 : Ref sig .tc := ⟨.vmem, 75, rfl⟩
abbrev cc12_stg1_0 : Ref sig .tc := ⟨.vmem, 76, rfl⟩
abbrev cc12_stg1_1 : Ref sig .tc := ⟨.vmem, 77, rfl⟩
abbrev cc12_stg2_0 : Ref sig .tc := ⟨.vmem, 78, rfl⟩
abbrev cc12_stg2_1 : Ref sig .tc := ⟨.vmem, 79, rfl⟩
abbrev cc13_stg0_0 : Ref sig .tc := ⟨.vmem, 80, rfl⟩
abbrev cc13_stg0_1 : Ref sig .tc := ⟨.vmem, 81, rfl⟩
abbrev cc13_stg1_0 : Ref sig .tc := ⟨.vmem, 82, rfl⟩
abbrev cc13_stg1_1 : Ref sig .tc := ⟨.vmem, 83, rfl⟩
abbrev cc13_stg2_0 : Ref sig .tc := ⟨.vmem, 84, rfl⟩
abbrev cc13_stg2_1 : Ref sig .tc := ⟨.vmem, 85, rfl⟩
abbrev cc13_stg3_0 : Ref sig .tc := ⟨.vmem, 86, rfl⟩
abbrev cc13_stg3_1 : Ref sig .tc := ⟨.vmem, 87, rfl⟩
abbrev cc13_stg4_0 : Ref sig .tc := ⟨.vmem, 88, rfl⟩
abbrev cc13_stg4_1 : Ref sig .tc := ⟨.vmem, 89, rfl⟩
abbrev cc13_stg5_0 : Ref sig .tc := ⟨.vmem, 90, rfl⟩
abbrev cc13_stg5_1 : Ref sig .tc := ⟨.vmem, 91, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc4_sem3_0 : DmaSem sig := 30
abbrev cc4_sem3_1 : DmaSem sig := 31
abbrev cc5_sem0_0 : DmaSem sig := 32
abbrev cc5_sem0_1 : DmaSem sig := 33
abbrev cc5_sem1_0 : DmaSem sig := 34
abbrev cc5_sem1_1 : DmaSem sig := 35
abbrev cc5_sem2_0 : DmaSem sig := 36
abbrev cc5_sem2_1 : DmaSem sig := 37
abbrev cc6_sem0_0 : DmaSem sig := 38
abbrev cc6_sem0_1 : DmaSem sig := 39
abbrev cc6_sem1_0 : DmaSem sig := 40
abbrev cc6_sem1_1 : DmaSem sig := 41
abbrev cc6_sem2_0 : DmaSem sig := 42
abbrev cc6_sem2_1 : DmaSem sig := 43
abbrev cc7_sem0_0 : DmaSem sig := 44
abbrev cc7_sem0_1 : DmaSem sig := 45
abbrev cc7_sem1_0 : DmaSem sig := 46
abbrev cc7_sem1_1 : DmaSem sig := 47
abbrev cc7_sem2_0 : DmaSem sig := 48
abbrev cc7_sem2_1 : DmaSem sig := 49
abbrev cc8_sem0_0 : DmaSem sig := 50
abbrev cc8_sem0_1 : DmaSem sig := 51
abbrev cc8_sem1_0 : DmaSem sig := 52
abbrev cc8_sem1_1 : DmaSem sig := 53
abbrev cc8_sem2_0 : DmaSem sig := 54
abbrev cc8_sem2_1 : DmaSem sig := 55
abbrev cc9_sem0_0 : DmaSem sig := 56
abbrev cc9_sem0_1 : DmaSem sig := 57
abbrev cc9_sem1_0 : DmaSem sig := 58
abbrev cc9_sem1_1 : DmaSem sig := 59
abbrev cc9_sem2_0 : DmaSem sig := 60
abbrev cc9_sem2_1 : DmaSem sig := 61
abbrev cc10_sem0_0 : DmaSem sig := 62
abbrev cc10_sem0_1 : DmaSem sig := 63
abbrev cc10_sem1_0 : DmaSem sig := 64
abbrev cc10_sem1_1 : DmaSem sig := 65
abbrev cc10_sem2_0 : DmaSem sig := 66
abbrev cc10_sem2_1 : DmaSem sig := 67
abbrev cc11_sem0_0 : DmaSem sig := 68
abbrev cc11_sem0_1 : DmaSem sig := 69
abbrev cc11_sem1_0 : DmaSem sig := 70
abbrev cc11_sem1_1 : DmaSem sig := 71
abbrev cc11_sem2_0 : DmaSem sig := 72
abbrev cc11_sem2_1 : DmaSem sig := 73
abbrev cc12_sem0_0 : DmaSem sig := 74
abbrev cc12_sem0_1 : DmaSem sig := 75
abbrev cc12_sem1_0 : DmaSem sig := 76
abbrev cc12_sem1_1 : DmaSem sig := 77
abbrev cc12_sem2_0 : DmaSem sig := 78
abbrev cc12_sem2_1 : DmaSem sig := 79
abbrev cc13_sem0_0 : DmaSem sig := 80
abbrev cc13_sem0_1 : DmaSem sig := 81
abbrev cc13_sem1_0 : DmaSem sig := 82
abbrev cc13_sem1_1 : DmaSem sig := 83
abbrev cc13_sem2_0 : DmaSem sig := 84
abbrev cc13_sem2_1 : DmaSem sig := 85
abbrev cc13_sem3_0 : DmaSem sig := 86
abbrev cc13_sem3_1 : DmaSem sig := 87
abbrev cc13_sem4_0 : DmaSem sig := 88
abbrev cc13_sem4_1 : DmaSem sig := 89
abbrev cc13_sem5_0 : DmaSem sig := 90
abbrev cc13_sem5_1 : DmaSem sig := 91

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![37], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S6000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S6000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![37], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4096x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4096x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4096x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![37], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4096x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4096x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4096x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S4096x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![100], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S6000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S6000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S6000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![37], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4096x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S4096x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S4096x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![100], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S6000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S6000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S6000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![37], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S4096x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S4096x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S4096x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![100], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S6000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S6000x1 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S6000x128 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![37], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S4096x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S4096x128 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S4096x128 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![100], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S6000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S6000x1 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 2 → Memref sig .tc .vmem S6000x128 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev grid12 : Pipeline.Grid := ⟨1, ![37], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S4096x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S4096x128 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 2 → Memref sig .tc .vmem S4096x128 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev grid13 : Pipeline.Grid := ⟨1, ![37], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_3 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_4 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_5 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S4096x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S4096x1 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 2 → Memref sig .tc .vmem S4096x128 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

abbrev stage13_3 : Fin 2 → Memref sig .tc .vmem S4096x1 .f32 := fun | 0 => Memref.whole cc13_stg3_0 | 1 => Memref.whole cc13_stg3_1 | ⟨_ + 2, h⟩ => absurd h (Nat.not_lt.2 (Nat.le_add_left _ _))
abbrev sem13_3 : Fin 2 → DmaSem sig := fun | 0 => cc13_sem3_0 | 1 => cc13_sem3_1 | ⟨_ + 2, h⟩ => absurd h (Nat.not_lt.2 (Nat.le_add_left _ _))
abbrev reads13_3 : Fin grid13.rank → Bool := ![true]

abbrev stage13_4 : Fin 2 → Memref sig .tc .vmem S4096x128 .f32 := fun | 0 => Memref.whole cc13_stg4_0 | 1 => Memref.whole cc13_stg4_1 | ⟨_ + 2, h⟩ => absurd h (Nat.not_lt.2 (Nat.le_add_left _ _))
abbrev sem13_4 : Fin 2 → DmaSem sig := fun | 0 => cc13_sem4_0 | 1 => cc13_sem4_1 | ⟨_ + 2, h⟩ => absurd h (Nat.not_lt.2 (Nat.le_add_left _ _))
abbrev reads13_4 : Fin grid13.rank → Bool := ![true]

abbrev stage13_5 : Fin 2 → Memref sig .tc .vmem S4096x128 .f32 := fun | 0 => Memref.whole cc13_stg5_0 | 1 => Memref.whole cc13_stg5_1 | ⟨_ + 2, h⟩ => absurd h (Nat.not_lt.2 (Nat.le_add_left _ _))
abbrev sem13_5 : Fin 2 → DmaSem sig := fun | 0 => cc13_sem5_0 | 1 => cc13_sem5_1 | ⟨_ + 2, h⟩ => absurd h (Nat.not_lt.2 (Nat.le_add_left _ _))
abbrev reads13_5 : Fin grid13.rank → Bool := ![true]

class Facts₀ : Prop where
  pads_S150002x128_S151552x128_015500_000 : S150002x128.Pads (![0, 0] : Fin 2 → Nat) ![1550, 0] ![0, 0] S151552x128
  h_S_ : 0 < S_.numel
  pads_S150002x1_S151552x1_015500_000 : S150002x1.Pads (![0, 0] : Fin 2 → Nat) ![1550, 0] ![0, 0] S151552x1
  slices_S6x600000_S2x600000_0_0 : S6x600000.Slices ![0, 0] S2x600000
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  bcast_S600000_S600000x1_0 : S600000.BroadcastsInDim S600000x1 (![0] : Fin 1 → Fin S600000x1.rank)
  shapeCasts_S600000_S600000x1 : S600000.ShapeCasts S600000x1
  inb_S6000x128_S6000x128_0_0 : ∀ a, (![0, 0] : Fin 2 → Nat) a + S6000x128.size a ≤ S6000x128.size a
  h_S6000x128 : 0 < S6000x128.numel
  shapeCasts_S6000x128_S6000x128 : S6000x128.ShapeCasts S6000x128
  inb_S6000x1_S6000x1_0_0 : ∀ a, (![0, 0] : Fin 2 → Nat) a + S6000x1.size a ≤ S6000x1.size a
  h_S6000x1 : 0 < S6000x1.numel
  shapeCasts_S6000x1_S6000x1 : S6000x1.ShapeCasts S6000x1
  broadcasts_S6000x1_S6000x128 : S6000x1.Broadcasts S6000x128
  bcast_S_S151552x128 : S_.BroadcastsInDim S151552x128 (![] : Fin 0 → Fin S151552x128.rank)
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  slices_S2x600000_S1x600000_1_0 : S2x600000.Slices ![1, 0] S1x600000
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S4096x1_S4096x128 : S4096x1.Broadcasts S4096x128
  reduces_S4096x128_S4096 : S4096x128.Reduces [1] S4096
  shapeCasts_S4096_S4096x1 : S4096.ShapeCasts S4096x1
  slices_S6x600000_S2x600000_2_0 : S6x600000.Slices ![2, 0] S2x600000
  slices_S6x600000_S2x600000_4_0 : S6x600000.Slices ![4, 0] S2x600000
  slices_S151552x128_S150002x128_0_0 : S151552x128.Slices ![0, 0] S150002x128
  gather_S151552x128_S600000x1_S600000x128_1_0_n_n_0_1_1128_wf : GatherDims.WF S151552x128 S600000x1 S600000x128 [1] [0] [] [0] [] 1 ![1, 128]
  scatter_S151552x128_S600000x1_S600000x128_1_0_0_1_wf : ScatterDims.WF S151552x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x128.size a ≤ S600000x128.size a
  hwx0_0 : ∀ i : grid0.Coords, EltTy.bits .f32 = 32 ∨ (Rect.block (s := S600000x128) S6000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6000x1.size a ≤ S600000x1.size a
  hwx0_1 : ∀ i : grid0.Coords, EltTy.bits .f32 = 32 ∨ (Rect.block (s := S600000x1) S6000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6000x128.size a ≤ S600000x128.size a
  hwx0_2 : ∀ i : grid0.Coords, EltTy.bits .f32 = 32 ∨ (Rect.block (s := S600000x128) S6000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S151552x128.size a
  hwx1_0 : ∀ i : grid1.Coords, EltTy.bits .f32 = 32 ∨ (Rect.block (s := S151552x128) S4096x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S151552x128.size a
  hwx1_1 : ∀ i : grid1.Coords, EltTy.bits .f32 = 32 ∨ (Rect.block (s := S151552x128) S4096x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x128.size a ≤ S151552x128.size a
  hwx1_2 : ∀ i : grid1.Coords, EltTy.bits .f32 = 32 ∨ (Rect.block (s := S151552x128) S4096x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6000x128.size a ≤ S600000x128.size a
  hwx2_0 : ∀ i : grid2.Coords, EltTy.bits .f32 = 32 ∨ (Rect.block (s := S600000x128) S6000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S6000x1.size a ≤ S600000x1.size a
  hwx2_1 : ∀ i : grid2.Coords, EltTy.bits .f32 = 32 ∨ (Rect.block (s := S600000x1) S6000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S6000x128.size a ≤ S600000x128.size a
  hwx2_2 : ∀ i : grid2.Coords, EltTy.bits .f32 = 32 ∨ (Rect.block (s := S600000x128) S6000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x128.size a ≤ S151552x128.size a
  hwx3_0 : ∀ i : grid3.Coords, EltTy.bits .f32 = 32 ∨ (Rect.block (s := S151552x128) S4096x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4096x128.size a ≤ S151552x128.size a
  hwx3_1 : ∀ i : grid3.Coords, EltTy.bits .f32 = 32 ∨ (Rect.block (s := S151552x128) S4096x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4096x128.size a ≤ S151552x128.size a
  hwx3_2 : ∀ i : grid3.Coords, EltTy.bits .f32 = 32 ∨ (Rect.block (s := S151552x128) S4096x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4096x128.size a ≤ S151552x128.size a
  hwx4_0 : ∀ i : grid4.Coords, EltTy.bits .f32 = 32 ∨ (Rect.block (s := S151552x128) S4096x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4096x1.size a ≤ S151552x1.size a
  hwx4_1 : ∀ i : grid4.Coords, EltTy.bits .f32 = 32 ∨ (Rect.block (s := S151552x1) S4096x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4096x128.size a ≤ S151552x128.size a
  hwx4_2 : ∀ i : grid4.Coords, EltTy.bits .f32 = 32 ∨ (Rect.block (s := S151552x128) S4096x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S4096x128.size a ≤ S151552x128.size a
  hwx4_3 : ∀ i : grid4.Coords, EltTy.bits .f32 = 32 ∨ (Rect.block (s := S151552x128) S4096x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S6000x128.size a ≤ S600000x128.size a
  hwx5_0 : ∀ i : grid5.Coords, EltTy.bits .f32 = 32 ∨ (Rect.block (s := S600000x128) S6000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S6000x1.size a ≤ S600000x1.size a
  hwx5_1 : ∀ i : grid5.Coords, EltTy.bits .f32 = 32 ∨ (Rect.block (s := S600000x1) S6000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S6000x128.size a ≤ S600000x128.size a
  hwx5_2 : ∀ i : grid5.Coords, EltTy.bits .f32 = 32 ∨ (Rect.block (s := S600000x128) S6000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4096x128.size a ≤ S151552x128.size a
  hwx6_0 : ∀ i : grid6.Coords, EltTy.bits .f32 = 32 ∨ (Rect.block (s := S151552x128) S4096x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S4096x128.size a ≤ S151552x128.size a
  hwx6_1 : ∀ i : grid6.Coords, EltTy.bits .f32 = 32 ∨ (Rect.block (s := S151552x128) S4096x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S4096x128.size a ≤ S151552x128.size a
  hwx6_2 : ∀ i : grid6.Coords, EltTy.bits .f32 = 32 ∨ (Rect.block (s := S151552x128) S4096x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S6000x128.size a ≤ S600000x128.size a
  hwx7_0 : ∀ i : grid7.Coords, EltTy.bits .f32 = 32 ∨ (Rect.block (s := S600000x128) S6000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S6000x1.size a ≤ S600000x1.size a
  hwx7_1 : ∀ i : grid7.Coords, EltTy.bits .f32 = 32 ∨ (Rect.block (s := S600000x1) S6000x1.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S6000x128.size a ≤ S600000x128.size a
  hwx7_2 : ∀ i : grid7.Coords, EltTy.bits .f32 = 32 ∨ (Rect.block (s := S600000x128) S6000x128.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S4096x128.size a ≤ S151552x128.size a
  hwx8_0 : ∀ i : grid8.Coords, EltTy.bits .f32 = 32 ∨ (Rect.block (s := S151552x128) S4096x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S4096x128.size a ≤ S151552x128.size a
  hwx8_1 : ∀ i : grid8.Coords, EltTy.bits .f32 = 32 ∨ (Rect.block (s := S151552x128) S4096x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S4096x128.size a ≤ S151552x128.size a
  hwx8_2 : ∀ i : grid8.Coords, EltTy.bits .f32 = 32 ∨ (Rect.block (s := S151552x128) S4096x128.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S6000x128.size a ≤ S600000x128.size a
  hwx9_0 : ∀ i : grid9.Coords, EltTy.bits .f32 = 32 ∨ (Rect.block (s := S600000x128) S6000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S6000x1.size a ≤ S600000x1.size a
  hwx9_1 : ∀ i : grid9.Coords, EltTy.bits .f32 = 32 ∨ (Rect.block (s := S600000x1) S6000x1.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S6000x128.size a ≤ S600000x128.size a
  hwx9_2 : ∀ i : grid9.Coords, EltTy.bits .f32 = 32 ∨ (Rect.block (s := S600000x128) S6000x128.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S4096x128.size a ≤ S151552x128.size a
  hwx10_0 : ∀ i : grid10.Coords, EltTy.bits .f32 = 32 ∨ (Rect.block (s := S151552x128) S4096x128.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S4096x128.size a ≤ S151552x128.size a
  hwx10_1 : ∀ i : grid10.Coords, EltTy.bits .f32 = 32 ∨ (Rect.block (s := S151552x128) S4096x128.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S4096x128.size a ≤ S151552x128.size a
  hwx10_2 : ∀ i : grid10.Coords, EltTy.bits .f32 = 32 ∨ (Rect.block (s := S151552x128) S4096x128.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S6000x128.size a ≤ S600000x128.size a
  hwx11_0 : ∀ i : grid11.Coords, EltTy.bits .f32 = 32 ∨ (Rect.block (s := S600000x128) S6000x128.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S6000x1.size a ≤ S600000x1.size a
  hwx11_1 : ∀ i : grid11.Coords, EltTy.bits .f32 = 32 ∨ (Rect.block (s := S600000x1) S6000x1.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S6000x128.size a ≤ S600000x128.size a
  hwx11_2 : ∀ i : grid11.Coords, EltTy.bits .f32 = 32 ∨ (Rect.block (s := S600000x128) S6000x128.size (cc11_transform_2 i) (hinb11_2 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S4096x128.size a ≤ S151552x128.size a
  hwx12_0 : ∀ i : grid12.Coords, EltTy.bits .f32 = 32 ∨ (Rect.block (s := S151552x128) S4096x128.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S4096x128.size a ≤ S151552x128.size a
  hwx12_1 : ∀ i : grid12.Coords, EltTy.bits .f32 = 32 ∨ (Rect.block (s := S151552x128) S4096x128.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S4096x128.size a ≤ S151552x128.size a
  hwx12_2 : ∀ i : grid12.Coords, EltTy.bits .f32 = 32 ∨ (Rect.block (s := S151552x128) S4096x128.size (cc12_transform_2 i) (hinb12_2 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S4096x128.size a ≤ S151552x128.size a
  hwx13_0 : ∀ i : grid13.Coords, EltTy.bits .f32 = 32 ∨ (Rect.block (s := S151552x128) S4096x128.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S4096x1.size a ≤ S151552x1.size a
  hwx13_1 : ∀ i : grid13.Coords, EltTy.bits .f32 = 32 ∨ (Rect.block (s := S151552x1) S4096x1.size (cc13_transform_1 i) (hinb13_1 i)).WholeWords (EltTy.packing .f32)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S4096x128.size a ≤ S151552x128.size a
  hwx13_2 : ∀ i : grid13.Coords, EltTy.bits .f32 = 32 ∨ (Rect.block (s := S151552x128) S4096x128.size (cc13_transform_2 i) (hinb13_2 i)).WholeWords (EltTy.packing .f32)
  hstage13_3 : ∀ j, (stage13_3 j).IsWhole
  nbuf13_3 : grid13.bufCount reads13_3 false = 2
  hreads13_3 : ∀ i i' : grid13.Coords, (∀ a, reads13_3 a = true → i a = i' a) → cc13_transform_3 i = cc13_transform_3 i'
  hinb13_3 : ∀ (i : grid13.Coords) a, (cc13_transform_3 i a + 1) * S4096x1.size a ≤ S151552x1.size a
  hwx13_3 : ∀ i : grid13.Coords, EltTy.bits .f32 = 32 ∨ (Rect.block (s := S151552x1) S4096x1.size (cc13_transform_3 i) (hinb13_3 i)).WholeWords (EltTy.packing .f32)
  hstage13_4 : ∀ j, (stage13_4 j).IsWhole
  nbuf13_4 : grid13.bufCount reads13_4 false = 2
  hreads13_4 : ∀ i i' : grid13.Coords, (∀ a, reads13_4 a = true → i a = i' a) → cc13_transform_4 i = cc13_transform_4 i'
  hinb13_4 : ∀ (i : grid13.Coords) a, (cc13_transform_4 i a + 1) * S4096x128.size a ≤ S151552x128.size a
  hwx13_4 : ∀ i : grid13.Coords, EltTy.bits .f32 = 32 ∨ (Rect.block (s := S151552x128) S4096x128.size (cc13_transform_4 i) (hinb13_4 i)).WholeWords (EltTy.packing .f32)
  hstage13_5 : ∀ j, (stage13_5 j).IsWhole
  nbuf13_5 : grid13.bufCount reads13_5 false = 2
  hreads13_5 : ∀ i i' : grid13.Coords, (∀ a, reads13_5 a = true → i a = i' a) → cc13_transform_5 i = cc13_transform_5 i'
  hinb13_5 : ∀ (i : grid13.Coords) a, (cc13_transform_5 i a + 1) * S4096x128.size a ≤ S151552x128.size a
  hwx13_5 : ∀ i : grid13.Coords, EltTy.bits .f32 = 32 ∨ (Rect.block (s := S151552x128) S4096x128.size (cc13_transform_5 i) (hinb13_5 i)).WholeWords (EltTy.packing .f32)

variable [Facts₀]

def gather_S151552x128_S600000x1_S600000x128_1_0_n_n_0_1_1128 : GatherDims S151552x128 S600000x1 S600000x128 where
  offsetDims := [1]
  collapsedSliceDims := [0]
  operandBatchingDims := []
  startIndicesBatchingDims := []
  startIndexMap := [0]
  indexVectorDim := 1
  sliceSizes := ![1, 128]
  wf := gather_S151552x128_S600000x1_S600000x128_1_0_n_n_0_1_1128_wf
def scatter_S151552x128_S600000x1_S600000x128_1_0_0_1 : ScatterDims S151552x128 S600000x1 S600000x128 where
  updateWindowDims := [1]
  insertedWindowDims := [0]
  scatterDimsToOperandDims := [0]
  indexVectorDim := 1
  wf := scatter_S151552x128_S600000x1_S600000x128_1_0_0_1_wf

abbrev win0_0 : Pipeline.Window sig grid0 :=
  Pipeline.Window.ofSpec (Memref.whole main_v15) S6000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S6000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S6000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S4096x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v31) S6000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S6000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v33) S6000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v21) S4096x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v36) S4096x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v37) S4096x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v37) S4096x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v1) S4096x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v0) S4096x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v38) S4096x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v49) S6000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v50) S6000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v51) S6000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v0) S4096x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v54) S4096x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v55) S4096x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v65) S6000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v66) S6000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v67) S6000x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v55) S4096x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v70) S4096x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v71) S4096x128.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v82) S6000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v83) S6000x1.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v84) S6000x128.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v38) S4096x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v87) S4096x128.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v88) S4096x128.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v98) S6000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v99) S6000x1.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v100) S6000x128.size cc11_transform_2 reads11_2 true false 2 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

abbrev win12_0 : Pipeline.Window sig grid12 :=
  Pipeline.Window.ofSpec (Memref.whole main_v88) S4096x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v103) S4096x128.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v104) S4096x128.size cc12_transform_2 reads12_2 true false 2 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

abbrev win13_0 : Pipeline.Window sig grid13 :=
  Pipeline.Window.ofSpec (Memref.whole main_v71) S4096x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v2) S4096x1.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v104) S4096x128.size cc13_transform_2 reads13_2 false false 2 stage13_2 sem13_2
    hrank13 hreads13_2 hinb13_2 nbuf13_2 (Memref.isWhole_whole _) hwx13_2 hstage13_2

abbrev win13_3 : Pipeline.Window sig grid13 :=
  Pipeline.Window.ofSpec (Memref.whole main_v3) S4096x1.size cc13_transform_3 reads13_3 false false 2 stage13_3 sem13_3
    hrank13 hreads13_3 hinb13_3 nbuf13_3 (Memref.isWhole_whole _) hwx13_3 hstage13_3

abbrev win13_4 : Pipeline.Window sig grid13 :=
  Pipeline.Window.ofSpec (Memref.whole main_v38) S4096x128.size cc13_transform_4 reads13_4 false false 2 stage13_4 sem13_4
    hrank13 hreads13_4 hinb13_4 nbuf13_4 (Memref.isWhole_whole _) hwx13_4 hstage13_4

abbrev win13_5 : Pipeline.Window sig grid13 :=
  Pipeline.Window.ofSpec (Memref.whole main_v105) S4096x128.size cc13_transform_5 reads13_5 true false 2 stage13_5 sem13_5
    hrank13 hreads13_5 hinb13_5 nbuf13_5 (Memref.isWhole_whole _) hwx13_5 hstage13_5

abbrev win13 : Fin 6 → Pipeline.Window sig grid13 := fun | 0 => win13_0 | 1 => win13_1 | 2 => win13_2 | 3 => win13_3 | 4 => win13_4 | 5 => win13_5 | ⟨_ + 6, h⟩ => absurd h (Nat.not_lt.2 (Nat.le_add_left _ _))
abbrev spec13 : Fin 6 → Pipeline.WinSpec sig grid13.rank := fun w => (win13 w).toWinSpec

class Facts : Prop extends Facts₀ where

variable [Facts]
-- ==== ReferenceIdeal.lean ====
abbrev S150002x128 : Shape := ⟨2, ![150002, 128]⟩
abbrev S600000 : Shape := ⟨1, ![600000]⟩
abbrev S150002x1 : Shape := ⟨2, ![150002, 1]⟩
abbrev S6x600000 : Shape := ⟨2, ![6, 600000]⟩
abbrev S2x600000 : Shape := ⟨2, ![2, 600000]⟩
abbrev S1x600000 : Shape := ⟨2, ![1, 600000]⟩
abbrev S600000x1 : Shape := ⟨2, ![600000, 1]⟩
abbrev S_ : Shape := ⟨0, ![]⟩
abbrev S600000x128 : Shape := ⟨2, ![600000, 128]⟩
abbrev S150002 : Shape := ⟨1, ![150002]⟩

abbrev nBuf : Space → Nat
  | .hbm => 173
  | .vmem => 0
  | .smem => 0
  | _ => 0

abbrev hbmTy0_0 (i : Nat) : BufTy := match i % 128 with
  | 0 => ⟨S150002x128, .f32⟩
  | 1 => ⟨S600000, .i32⟩
  | 2 => ⟨S600000, .i32⟩
  | 3 => ⟨S600000, .f32⟩
  | 4 => ⟨S600000, .i32⟩
  | 5 => ⟨S600000, .i32⟩
  | 6 => ⟨S600000, .f32⟩
  | 7 => ⟨S150002x1, .f32⟩
  | 8 => ⟨S150002x1, .f32⟩
  | 9 => ⟨S150002x1, .f32⟩
  | 10 => ⟨S6x600000, .i1⟩
  | 11 => ⟨S6x600000, .f32⟩
  | 12 => ⟨S2x600000, .f32⟩
  | 13 => ⟨S1x600000, .f32⟩
  | 14 => ⟨S600000, .f32⟩
  | 15 => ⟨S600000, .f32⟩
  | 16 => ⟨S600000x1, .f32⟩
  | 17 => ⟨S_, .i32⟩
  | 18 => ⟨S600000, .i32⟩
  | 19 => ⟨S600000, .i1⟩
  | 20 => ⟨S_, .i32⟩
  | 21 => ⟨S600000, .i32⟩
  | 22 => ⟨S600000, .i32⟩
  | 23 => ⟨S600000, .i32⟩
  | 24 => ⟨S600000x1, .i32⟩
  | 25 => ⟨S600000x128, .f32⟩
  | 26 => ⟨S600000x128, .f32⟩
  | 27 => ⟨S600000x128, .f32⟩
  | 28 => ⟨S_, .f32⟩
  | 29 => ⟨S150002x128, .f32⟩
  | 30 => ⟨S600000x1, .i32⟩
  | 31 => ⟨S150002x128, .f32⟩
  | 32 => ⟨S150002x128, .f32⟩
  | 33 => ⟨S1x600000, .f32⟩
  | 34 => ⟨S600000, .f32⟩
  | 35 => ⟨S600000, .f32⟩
  | 36 => ⟨S600000x1, .f32⟩
  | 37 => ⟨S_, .i32⟩
  | 38 => ⟨S600000, .i32⟩
  | 39 => ⟨S600000, .i1⟩
  | 40 => ⟨S_, .i32⟩
  | 41 => ⟨S600000, .i32⟩
  | 42 => ⟨S600000, .i32⟩
  | 43 => ⟨S600000, .i32⟩
  | 44 => ⟨S600000x1, .i32⟩
  | 45 => ⟨S600000x128, .f32⟩
  | 46 => ⟨S600000x128, .f32⟩
  | 47 => ⟨S600000x128, .f32⟩
  | 48 => ⟨S_, .f32⟩
  | 49 => ⟨S150002x128, .f32⟩
  | 50 => ⟨S600000x1, .i32⟩
  | 51 => ⟨S150002x128, .f32⟩
  | 52 => ⟨S150002x128, .f32⟩
  | 53 => ⟨S_, .f32⟩
  | 54 => ⟨S150002x128, .f32⟩
  | 55 => ⟨S150002x128, .f32⟩
  | 56 => ⟨S150002x128, .f32⟩
  | 57 => ⟨S150002x128, .f32⟩
  | 58 => ⟨S150002x128, .f32⟩
  | 59 => ⟨S_, .f32⟩
  | 60 => ⟨S150002, .f32⟩
  | 61 => ⟨S150002x1, .f32⟩
  | 62 => ⟨S150002x1, .f32⟩
  | 63 => ⟨S_, .f32⟩
  | 64 => ⟨S150002x1, .f32⟩
  | 65 => ⟨S150002x1, .f32⟩
  | 66 => ⟨S150002x128, .f32⟩
  | 67 => ⟨S150002x128, .f32⟩
  | 68 => ⟨S150002x128, .f32⟩
  | 69 => ⟨S2x600000, .f32⟩
  | 70 => ⟨S1x600000, .f32⟩
  | 71 => ⟨S600000, .f32⟩
  | 72 => ⟨S600000, .f32⟩
  | 73 => ⟨S600000x1, .f32⟩
  | 74 => ⟨S_, .i32⟩
  | 75 => ⟨S600000, .i32⟩
  | 76 => ⟨S600000, .i1⟩
  | 77 => ⟨S_, .i32⟩
  | 78 => ⟨S600000, .i32⟩
  | 79 => ⟨S600000, .i32⟩
  | 80 => ⟨S600000, .i32⟩
  | 81 => ⟨S600000x1, .i32⟩
  | 82 => ⟨S600000x128, .f32⟩
  | 83 => ⟨S600000x128, .f32⟩
  | 84 => ⟨S600000x128, .f32⟩
  | 85 => ⟨S_, .f32⟩
  | 86 => ⟨S150002x128, .f32⟩
  | 87 => ⟨S600000x1, .i32⟩
  | 88 => ⟨S150002x128, .f32⟩
  | 89 => ⟨S150002x128, .f32⟩
  | 90 => ⟨S1x600000, .f32⟩
  | 91 => ⟨S600000, .f32⟩
  | 92 => ⟨S600000, .f32⟩
  | 93 => ⟨S600000x1, .f32⟩
  | 94 => ⟨S_, .i32⟩
  | 95 => ⟨S600000, .i32⟩
  | 96 => ⟨S600000, .i1⟩
  | 97 => ⟨S_, .i32⟩
  | 98 => ⟨S600000, .i32⟩
  | 99 => ⟨S600000, .i32⟩
  | 100 => ⟨S600000, .i32⟩
  | 101 => ⟨S600000x1, .i32⟩
  | 102 => ⟨S600000x128, .f32⟩
  | 103 => ⟨S600000x128, .f32⟩
  | 104 => ⟨S600000x128, .f32⟩
  | 105 => ⟨S_, .f32⟩
  | 106 => ⟨S150002x128, .f32⟩
  | 107 => ⟨S600000x1, .i32⟩
  | 108 => ⟨S150002x128, .f32⟩
  | 109 => ⟨S150002x128, .f32⟩
  | 110 => ⟨S_, .f32⟩
  | 111 => ⟨S150002x128, .f32⟩
  | 112 => ⟨S150002x128, .f32⟩
  | 113 => ⟨S2x600000, .f32⟩
  | 114 => ⟨S1x600000, .f32⟩
  | 115 => ⟨S600000, .f32⟩
  | 116 => ⟨S600000, .f32⟩
  | 117 => ⟨S600000x1, .f32⟩
  | 118 => ⟨S_, .i32⟩
  | 119 => ⟨S600000, .i32⟩
  | 120 => ⟨S600000, .i1⟩
  | 121 => ⟨S_, .i32⟩
  | 122 => ⟨S600000, .i32⟩
  | 123 => ⟨S600000, .i32⟩
  | 124 => ⟨S600000, .i32⟩
  | 125 => ⟨S600000x1, .i32⟩
  | 126 => ⟨S600000x128, .f32⟩
  | 127 => ⟨S600000x128, .f32⟩
  | _ => ⟨S150002x128, .f32⟩

abbrev hbmTy0_1 (i : Nat) : BufTy := match i % 128 with
  | 0 => ⟨S600000x128, .f32⟩
  | 1 => ⟨S_, .f32⟩
  | 2 => ⟨S150002x128, .f32⟩
  | 3 => ⟨S600000x1, .i32⟩
  | 4 => ⟨S150002x128, .f32⟩
  | 5 => ⟨S150002x128, .f32⟩
  | 6 => ⟨S1x600000, .f32⟩
  | 7 => ⟨S600000, .f32⟩
  | 8 => ⟨S600000, .f32⟩
  | 9 => ⟨S600000x1, .f32⟩
  | 10 => ⟨S_, .i32⟩
  | 11 => ⟨S600000, .i32⟩
  | 12 => ⟨S600000, .i1⟩
  | 13 => ⟨S_, .i32⟩
  | 14 => ⟨S600000, .i32⟩
  | 15 => ⟨S600000, .i32⟩
  | 16 => ⟨S600000, .i32⟩
  | 17 => ⟨S600000x1, .i32⟩
  | 18 => ⟨S600000x128, .f32⟩
  | 19 => ⟨S600000x128, .f32⟩
  | 20 => ⟨S600000x128, .f32⟩
  | 21 => ⟨S_, .f32⟩
  | 22 => ⟨S150002x128, .f32⟩
  | 23 => ⟨S600000x1, .i32⟩
  | 24 => ⟨S150002x128, .f32⟩
  | 25 => ⟨S150002x128, .f32⟩
  | 26 => ⟨S_, .f32⟩
  | 27 => ⟨S150002x128, .f32⟩
  | 28 => ⟨S150002x128, .f32⟩
  | 29 => ⟨S150002x128, .f32⟩
  | 30 => ⟨S150002x128, .f32⟩
  | 31 => ⟨S150002x128, .f32⟩
  | 32 => ⟨S150002x128, .f32⟩
  | 33 => ⟨S150002x128, .f32⟩
  | 34 => ⟨S150002x128, .f32⟩
  | 35 => ⟨S_, .f32⟩
  | 36 => ⟨S150002, .f32⟩
  | 37 => ⟨S150002x1, .f32⟩
  | 38 => ⟨S150002x1, .f32⟩
  | 39 => ⟨S_, .f32⟩
  | 40 => ⟨S150002x1, .f32⟩
  | 41 => ⟨S150002x1, .f32⟩
  | 42 => ⟨S150002x128, .f32⟩
  | 43 => ⟨S150002x128, .f32⟩
  | 44 => ⟨S150002x128, .f32⟩
  | _ => ⟨S150002x128, .f32⟩

abbrev hbmTy (i : Nat) : BufTy := match i / 128 with
  | 0 => hbmTy0_0 i
  | 1 => hbmTy0_1 i
  | _ => ⟨S150002x128, .f32⟩

abbrev bufTy : (tb : Table) → Fin (tcTables nBuf tb) → BufTy
  | .hbm, ⟨i, _⟩ => hbmTy i
  | _, _ => ⟨S150002x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_1 : Ref sig .tc := ⟨.hbm, 37, rfl⟩
abbrev main_v23 : Ref sig .tc := ⟨.hbm, 38, rfl⟩
abbrev main_v24 : Ref sig .tc := ⟨.hbm, 39, rfl⟩
abbrev main_c_2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_3 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_4 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_call0_v0 : Ref sig .tc := ⟨.hbm, 58, rfl⟩
abbrev main_call0_cst : Ref sig .tc := ⟨.hbm, 59, rfl⟩
abbrev main_call0_v1 : Ref sig .tc := ⟨.hbm, 60, rfl⟩
abbrev main_call0_v2 : Ref sig .tc := ⟨.hbm, 61, rfl⟩
abbrev main_v40 : Ref sig .tc := ⟨.hbm, 62, rfl⟩
abbrev main_cst_5 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c_6 : Ref sig .tc := ⟨.hbm, 74, rfl⟩
abbrev main_v51 : Ref sig .tc := ⟨.hbm, 75, rfl⟩
abbrev main_v52 : Ref sig .tc := ⟨.hbm, 76, rfl⟩
abbrev main_c_7 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_8 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_c_9 : Ref sig .tc := ⟨.hbm, 94, rfl⟩
abbrev main_v68 : Ref sig .tc := ⟨.hbm, 95, rfl⟩
abbrev main_v69 : Ref sig .tc := ⟨.hbm, 96, rfl⟩
abbrev main_c_10 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_11 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_12 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_c_13 : Ref sig .tc := ⟨.hbm, 118, rfl⟩
abbrev main_v88 : Ref sig .tc := ⟨.hbm, 119, rfl⟩
abbrev main_v89 : Ref sig .tc := ⟨.hbm, 120, rfl⟩
abbrev main_c_14 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_cst_15 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_c_16 : Ref sig .tc := ⟨.hbm, 138, rfl⟩
abbrev main_v105 : Ref sig .tc := ⟨.hbm, 139, rfl⟩
abbrev main_v106 : Ref sig .tc := ⟨.hbm, 140, rfl⟩
abbrev main_c_17 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_cst_18 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_cst_19 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_call1_v0 : Ref sig .tc := ⟨.hbm, 162, rfl⟩
abbrev main_call1_cst : Ref sig .tc := ⟨.hbm, 163, rfl⟩
abbrev main_call1_v1 : Ref sig .tc := ⟨.hbm, 164, rfl⟩
abbrev main_call1_v2 : Ref sig .tc := ⟨.hbm, 165, rfl⟩
abbrev main_v125 : Ref sig .tc := ⟨.hbm, 166, rfl⟩
abbrev main_cst_20 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩

abbrev nD : Nat := 1
abbrev τ : Topo := Topo.v7x

variable {F : FTy → Type} [FloatOps F]

class Facts₀ : Prop where
  slices_S6x600000_S2x600000_0_0 : S6x600000.Slices ![0, 0] S2x600000
  slices_S2x600000_S1x600000_0_0 : S2x600000.Slices ![0, 0] S1x600000
  shapeCasts_S1x600000_S600000 : S1x600000.ShapeCasts S600000
  bcast_S600000_S600000x1_0 : S600000.BroadcastsInDim S600000x1 (![0] : Fin 1 → Fin S600000x1.rank)
  bcast_S_S600000 : S_.BroadcastsInDim S600000 (![] : Fin 0 → Fin S600000.rank)
  bcast_S600000x1_S600000x128_0_1 : S600000x1.BroadcastsInDim S600000x128 (![0, 1] : Fin 2 → Fin S600000x128.rank)
  bcast_S_S150002x128 : S_.BroadcastsInDim S150002x128 (![] : Fin 0 → Fin S150002x128.rank)
  slices_S2x600000_S1x600000_1_0 : S2x600000.Slices ![1, 0] S1x600000
  bcast_S150002x1_S150002x128_0_1 : S150002x1.BroadcastsInDim S150002x128 (![0, 1] : Fin 2 → Fin S150002x128.rank)
  reducesTo_S150002x128_S150002_d1 : S150002x128.ReducesTo [1] S150002
  h_S_ : 0 < S_.numel
  bcast_S150002_S150002x1_0 : S150002.BroadcastsInDim S150002x1 (![0] : Fin 1 → Fin S150002x1.rank)
  bcast_S_S150002x1 : S_.BroadcastsInDim S150002x1 (![] : Fin 0 → Fin S150002x1.rank)
  slices_S6x600000_S2x600000_2_0 : S6x600000.Slices ![2, 0] S2x600000
  slices_S6x600000_S2x600000_4_0 : S6x600000.Slices ![4, 0] S2x600000
  gather_S150002x128_S600000x1_S600000x128_1_0_n_n_0_1_1128_wf : GatherDims.WF S150002x128 S600000x1 S600000x128 [1] [0] [] [0] [] 1 ![1, 128]
  scatter_S150002x128_S600000x1_S600000x128_1_0_0_1_wf : ScatterDims.WF S150002x128 S600000x1 S600000x128 [1] [0] [0] 1

variable [Facts₀]

def gather_S150002x128_S600000x1_S600000x128_1_0_n_n_0_1_1128 : GatherDims S150002x128 S600000x1 S600000x128 where
  offsetDims := [1]
  collapsedSliceDims := [0]
  operandBatchingDims := []
  startIndicesBatchingDims := []
  startIndexMap := [0]
  indexVectorDim := 1
  sliceSizes := ![1, 128]
  wf := gather_S150002x128_S600000x1_S600000x128_1_0_n_n_0_1_1128_wf
def scatter_S150002x128_S600000x1_S600000x128_1_0_0_1 : ScatterDims S150002x128 S600000x1 S600000x128 where
  updateWindowDims := [1]
  insertedWindowDims := [0]
  scatterDimsToOperandDims := [0]
  indexVectorDim := 1
  wf := scatter_S150002x128_S600000x1_S600000x128_1_0_0_1_wf

class Facts : Prop extends Facts₀ where

variable [Facts]
-- ==== Proof.Spec.lean ====
/-
  The mathematics of the message-passing program, stated once over extended reals and independent of either
  program's spelling.

  A TABLE is an array of rows of 128 lanes; a COLUMN an array of one entry per row.
  * `edgeScale`: every lane of edge message `e` times that edge's weight.
  * `agg`: the weighted mean row of a node, `t r · (g r k · 1/3)` (the sum of three layers, divided by three,
    times the node's transform weight).
  * `normalize`: a row divided by the larger of its Euclidean norm and a fixed positive floor.
  * `fin1` / `fin2`: the normalized weighted mean (of one, or of the sum of two, aggregations) plus the residual row.
  * `Agree` / `AgreeCol`: a table (column) of 151552 rows and one of 150002 rows hold the same first 150002 rows.
  Every operation above acts row by row, so it carries agreement of the inputs to agreement of the outputs.
-/
import Idealize.ShloMosaic.PureOps.Ideal
import Idealize.ShloMosaic.PureOps.Ideal.Laws
import Idealize.ShloMosaic.Lib.ValueIdx

noncomputable section

namespace Cert.Mp

open Idealize.ShloMosaic Idealize.ShloMosaic.ValueIdx

/-- A table of `R` rows of 128 lanes. -/
abbrev Tab (R : Nat) := (⟨2, ![R, 128]⟩ : Shape).Idx → EReal
/-- A column of `R` entries. -/
abbrev Col (R : Nat) := (⟨2, ![R, 1]⟩ : Shape).Idx → EReal

/-- Row `r` of the short tables sits at row `r` of the long ones. -/
abbrev up (r : Fin 150002) : Fin 151552 := ⟨r.val, by have := r.isLt; omega⟩

/-- Lane `k` of edge message `e` times the edge's weight. -/
def edgeScale {E : Nat} (xg : Tab E) (s : Col E) : Tab E := fun i => xg i * s (ix2 (i 0) 0)

/-- The weighted mean of a node's three layers: `t r · (g r k · 1/3)`. -/
def agg {R : Nat} (g : Tab R) (t : Col R) (r : Fin R) (k : Fin 128) : EReal :=
  t (ix2 r 0) * (g (ix2 r k) * ((1 / 3 : ℝ) : EReal))

/-- The floor under the norm: the single-precision word nearest 1e-12, read exactly. -/
def floor : EReal := Ideal.ofBits .f32 0x2B8CBCCC#32

/-- Lane `k` of row `r` divided by the larger of the row's Euclidean norm and the floor. -/
def normalize {R : Nat} (a : Fin R → Fin 128 → EReal) (r : Fin R) (k : Fin 128) : EReal :=
  Ideal.div (a r k) (max (Ideal.sqrt (∑ k' : Fin 128, a r k' * a r k')) floor)

/-- One aggregation, normalized, plus the residual. -/
def fin1 {R : Nat} (g : Tab R) (t : Col R) (l : Tab R) : Tab R :=
  fun i => normalize (agg g t) (i 0) (i 1) + l i

/-- The sum of two aggregations, normalized, plus the residual. -/
def fin2 {R : Nat} (g1 : Tab R) (t1 : Col R) (g2 : Tab R) (t2 : Col R) (l : Tab R) : Tab R :=
  fun i => normalize (fun r k => agg g1 t1 r k + agg g2 t2 r k) (i 0) (i 1) + l i

/-- The long table's first 150002 rows are the short table. -/
def Agree (X : Tab 151552) (Y : Tab 150002) : Prop :=
  ∀ (r : Fin 150002) (k : Fin 128), X (ix2 (up r) k) = Y (ix2 r k)

/-- The long column's first 150002 entries are the short column. -/
def AgreeCol (X : Col 151552) (Y : Col 150002) : Prop :=
  ∀ r : Fin 150002, X (ix2 (up r) 0) = Y (ix2 r 0)

theorem agree_add {X X' : Tab 151552} {Y Y' : Tab 150002} (h : Agree X Y) (h' : Agree X' Y') :
    Agree (fun i => X i + X' i) (fun i => Y i + Y' i) := fun r k => by
  show X _ + X' _ = Y _ + Y' _
  rw [h r k, h' r k]

theorem agg_agree {g : Tab 151552} {g' : Tab 150002} {t : Col 151552} {t' : Col 150002}
    (hg : Agree g g') (ht : AgreeCol t t') (r : Fin 150002) (k : Fin 128) : agg g t (up r) k = agg g' t' r k := by
  unfold agg; rw [hg r k, ht r]

theorem normalize_congr {R R' : Nat} {a : Fin R → Fin 128 → EReal} {a' : Fin R' → Fin 128 → EReal} {r : Fin R} {r' : Fin R'}
    (h : ∀ k, a r k = a' r' k) (k : Fin 128) : normalize a r k = normalize a' r' k := by
  unfold normalize; simp only [h]

theorem agree_fin1 {g l : Tab 151552} {g' l' : Tab 150002} {t : Col 151552} {t' : Col 150002}
    (hg : Agree g g') (ht : AgreeCol t t') (hl : Agree l l') : Agree (fin1 g t l) (fin1 g' t' l') := fun r k => by
  show normalize (agg g t) (up r) k + l _ = normalize (agg g' t') r k + l' _
  rw [normalize_congr (fun k => agg_agree hg ht r k) k, hl r k]

theorem agree_fin2 {g1 g2 l : Tab 151552} {g1' g2' l' : Tab 150002} {t1 t2 : Col 151552} {t1' t2' : Col 150002}
    (h1 : Agree g1 g1') (ht1 : AgreeCol t1 t1') (h2 : Agree g2 g2') (ht2 : AgreeCol t2 t2') (hl : Agree l l') :
    Agree (fin2 g1 t1 g2 t2 l) (fin2 g1' t1' g2' t2' l') := fun r k => by
  show normalize (fun r k => agg g1 t1 r k + agg g2 t2 r k) (up r) k + l _
     = normalize (fun r k => agg g1' t1' r k + agg g2' t2' r k) r k + l' _
  rw [normalize_congr (a' := fun r k => agg g1' t1' r k + agg g2' t2' r k) (r' := r)
        (fun k => by show agg g1 t1 (up r) k + agg g2 t2 (up r) k = _; rw [agg_agree h1 ht1, agg_agree h2 ht2]) k, hl r k]

end Cert.Mp

end
-- ==== Proof.RegionScale0.lean ====
/-
  Edge scaling, region 0 of the message-passing program: the output table after the region is, as ONE function of
  the two input arrays, every lane of edge message `e` times that edge's weight (`Cert.Mp.edgeScale`).

  The region walks 100 blocks of 6000 rows.  At block `t` the body multiplies the message block by the weight
  block broadcast along the lanes; block `t` of each of the three arrays starts at row `6000 · t`, so what is
  written back at `t` is block `t` of `edgeScale`; row `r` lies in block `r / 6000`, so the blocks cover the table.
-/
import proofs.«141111_j5652176961768_1_alg».proof.Proof.Gen.KernelIdeal.Frame
import proofs.«141111_j5652176961768_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body's rectangles start at the origin. -/
theorem scale0_origin : (![0, 0] : Fin 2 → Nat) = fun _ => 0 := funext fun a => by fin_cases a <;> rfl

/-- A column `[a, 1]` broadcast along the lanes to `[a, b]` reads, at `(p, q)`, the column's entry `p`. -/
theorem scale0_column_broadcast {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The body's product at row `r`, lane `k` of a block: the message entry times the row's weight. -/
theorem scale0_payload (x0 : Vec Ideal S6000x128 .f32) (x1 : Vec Ideal S6000x1 .f32) (r : Fin 6000) (k : Fin 128) :
    k0_pay1 x0 x1 (ix2 r k) = x0 (ix2 r k) * x1 (ix2 r (0 : Fin 1)) := by
  unfold k0_pay1
  rw [mulf_apply, shapeCast_self, shapeCast_self]
  exact congrArg (x0 (ix2 r k) * ·) (scale0_column_broadcast x1 broadcasts_S6000x1_S6000x128 r k)

/-- The printed index maps, decided once over the 100 grid points: block `t` of each window is block row `t`,
    block column 0. -/
theorem scale0_index : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The message window's block at point `t` is rows `6000 t … 6000 t + 5999` of the message table. -/
theorem scale0_msg_block (c : Dev nD) (t : Fin cfg0.N) (r : Fin 6000) (k : Fin 128) (i : S600000x128.Idx)
    (hi0 : (i 0).val = t.val * 6000 + r.val) (hi1 : (i 1).val = k.val) :
    (iblk0 (F := Ideal) V c 0 t : Vec Ideal S6000x128 .f32) (ix2 r k)
      = (V c (Pipeline.arrRef spec0 0) : S600000x128.Idx → EReal) i := by
  obtain ⟨e0, e1, -⟩ := scale0_index t
  show (V c (Pipeline.arrRef spec0 0) : S600000x128.Idx → EReal) (((cfg0.win 0).blk t).view.emb (ix2 r k)) = _
  refine congrArg (V c (Pipeline.arrRef spec0 0) : S600000x128.Idx → EReal) (funext fun a => Fin.ext ?_)
  match a with
  | ⟨0, _⟩ => show win0_0.index t (0 : Fin 2) * 6000 + 1 * r.val = (i 0).val; rw [e0, hi0]; omega
  | ⟨1, _⟩ => show win0_0.index t (1 : Fin 2) * 128 + 1 * k.val = (i 1).val; rw [e1, hi1]; omega

/-- The weight window's block at point `t` is entries `6000 t … 6000 t + 5999` of the weight column. -/
theorem scale0_weight_block (c : Dev nD) (t : Fin cfg0.N) (r : Fin 6000) (i : S600000x1.Idx)
    (hi0 : (i 0).val = t.val * 6000 + r.val) :
    (iblk0 (F := Ideal) V c 1 t : Vec Ideal S6000x1 .f32) (ix2 r (0 : Fin 1))
      = (V c (Pipeline.arrRef spec0 1) : S600000x1.Idx → EReal) i := by
  obtain ⟨-, -, e0, e1, -⟩ := scale0_index t
  show (V c (Pipeline.arrRef spec0 1) : S600000x1.Idx → EReal) (((cfg0.win 1).blk t).view.emb (ix2 r (0 : Fin 1))) = _
  refine congrArg (V c (Pipeline.arrRef spec0 1) : S600000x1.Idx → EReal) (funext fun a => Fin.ext ?_)
  match a with
  | ⟨0, _⟩ => show win0_1.index t (0 : Fin 2) * 6000 + 1 * r.val = (i 0).val; rw [e0, hi0]; omega
  | ⟨1, _⟩ => show win0_1.index t (1 : Fin 2) * 1 + 1 * 0 = (i 1).val; have hlane : (i 1).val < 1 := (i 1).isLt; rw [e1]; omega

/-- WHAT POINT `t` WRITES BACK is block `t` of the scaled table. -/
theorem scale0_flushed (c : Dev nD) (t : Fin cfg0.N) :
    (dat0 (F := Ideal) V c).flushed 2 t = ((cfg0.win 2).blk t).view.read (Elt Ideal)
      (Cert.Mp.edgeScale (E := 600000) (V c (Pipeline.arrRef spec0 0)) (V c (Pipeline.arrRef spec0 1))) := by
  show (cfg0.win 2).cut (grid0.coords t) ((dat0 V c).after 2 t) = _
  rw [after0_2]
  unfold out0_2
  rw [View.canon_unit_zero scale0_origin]
  simp only [View.ld_unit_zero (S := S6000x128) scale0_origin, View.ld_unit_zero (S := S6000x1) scale0_origin]
  obtain ⟨-, -, -, -, e0, e1⟩ := scale0_index t
  funext j
  obtain ⟨r, k, rfl⟩ : ∃ (r : Fin 6000) (k : Fin 128), j = ix2 r k := ⟨j 0, j 1, eq_ix2 j⟩
  show k0_pay1 (iblk0 V c 0 t) (iblk0 V c 1 t) (ix2 r k)
    = Cert.Mp.edgeScale (E := 600000) (V c (Pipeline.arrRef spec0 0)) (V c (Pipeline.arrRef spec0 1)) (((cfg0.win 2).blk t).view.emb (ix2 r k))
  refine (scale0_payload (iblk0 V c 0 t) (iblk0 V c 1 t) r k).trans ?_
  unfold Cert.Mp.edgeScale
  have h0 : ((((cfg0.win 2).blk t).view.emb (ix2 r k)) 0).val = t.val * 6000 + r.val := by
    show win0_2.index t (0 : Fin 2) * 6000 + 1 * r.val = _; rw [e0]; omega
  have h1 : ((((cfg0.win 2).blk t).view.emb (ix2 r k)) 1).val = k.val := by
    show win0_2.index t (1 : Fin 2) * 128 + 1 * k.val = _; rw [e1]; omega
  rw [scale0_msg_block V c t r k _ h0 h1, scale0_weight_block V c t r (ix2 ((((cfg0.win 2).blk t).view.emb (ix2 r k)) 0) 0) h0]

/-- An index of the table is in point `t`'s block iff each coordinate is in the block's range on its axis. -/
theorem scale0_mem_block (t : Fin cfg0.N) (i : S600000x128.Idx) :
    i ∈ ((cfg0.win 2).blk t).view.set ↔ ∀ a : Fin 2, win0_2.index t a * S6000x128.size a ≤ (i a).val
      ∧ (i a).val < win0_2.index t a * S6000x128.size a + S6000x128.size a := by
  show i ∈ ((View.whole main_v17).slice (win0_2.rect t)).set ↔ _
  rw [View.set_slice_whole, Rect.mem_set_unit]
  exact Iff.rfl

/-- Row `r` of the table lies in the block of point `r / 6000`: the 100 blocks cover the table. -/
theorem scale0_cover (i : S600000x128.Idx) :
    ∃ t : Fin cfg0.N, (cfg0.win 2).flush t = true ∧ i ∈ ((cfg0.win 2).blk t).view.set := by
  have hrow : (i 0).val < 600000 := (i 0).isLt
  have hlane : (i 1).val < 128 := (i 1).isLt
  have hN : cfg0.N = 100 := N_0
  let t : Fin cfg0.N := ⟨(i 0).val / 6000, by rw [hN]; omega⟩
  obtain ⟨-, -, -, -, e0, e1⟩ := scale0_index t
  have ht : t.val = (i 0).val / 6000 := rfl
  refine ⟨t, flush0_2 t, ?_⟩
  rw [scale0_mem_block]
  intro a
  match a with
  | ⟨0, _⟩ =>
    show win0_2.index t (0 : Fin 2) * 6000 ≤ (i 0).val ∧ (i 0).val < win0_2.index t (0 : Fin 2) * 6000 + 6000
    rw [e0, ht]; omega
  | ⟨1, _⟩ =>
    show win0_2.index t (1 : Fin 2) * 128 ≤ (i 1).val ∧ (i 1).val < win0_2.index t (1 : Fin 2) * 128 + 128
    rw [e1]; omega

/-- THE TABLE after the region: every lane of each edge message times the edge's weight. -/
theorem scale0 (c : Dev nD) : (Gen.dat0 (F := Ideal) V c).arrAt 2 cfg0.N
    = Cert.Mp.edgeScale (E := 600000) (V c (Pipeline.arrRef spec0 0)) (V c (Pipeline.arrRef spec0 1)) :=
  (dat0 (F := Ideal) V c).arrAt_eq_of_cover 2 _ (fun t _ => scale0_flushed V c t) scale0_cover

end Cert.KernelIdeal.RegionValue

end
-- ==== Proof.KDefs.lean ====
/-
  The idealized kernel's result as ONE function of its eleven argument arrays.

  The node table and the three transform columns are padded with zero rows from 150002 to 151552 rows. One sparse
  product gathers, for every edge, the source node's row, scales it by the edge's weight (its value times its keep
  flag) and adds it into the destination node's row. A three-layer sum is the table plus one product plus the product
  of that product. The first behaviour normalizes the weighted mean of a three-layer sum of the padded table and adds
  the padded table; the second does the same with the sum of two weighted means — one of the padded table, one of
  the first behaviour's result — and adds the first behaviour's result; the first 150002 rows are returned.
-/
import proofs.«141111_j5652176961768_1_alg».proof.Proof.Gen.KernelIdeal
import proofs.«141111_j5652176961768_1_alg».proof.Proof.Spec

noncomputable section

namespace Cert.Mp

/-- The sum of two tables, entry by entry. -/
def addT {R : Nat} (a b : Tab R) : Tab R := fun i => a i + b i

theorem agree_addT {X X' : Tab 151552} {Y Y' : Tab 150002} (h : Agree X Y) (h' : Agree X' Y') :
    Agree (addT X X') (addT Y Y') := agree_add h h'

end Cert.Mp

namespace Cert.KernelIdeal.KVal

open Cert.KernelIdeal Cert.KernelIdeal.Facts₀ Idealize.ShloMosaic

abbrev TN := FVec Ideal S150002x128 .f32
abbrev TP := FVec Ideal S151552x128 .f32
abbrev CN := FVec Ideal S150002x1 .f32
abbrev CP := FVec Ideal S151552x1 .f32
abbrev IE := IVec S600000 32
abbrev IE1 := IVec S600000x1 32
abbrev FE := FVec Ideal S600000 .f32
abbrev ME := IVec S6x600000 1
abbrev CE := FVec Ideal S600000x1 .f32

/-- The table with 1550 zero rows appended. -/
def padT (x : TN) : TP :=
  pad S151552x128 ![0, 0] ![1550, 0] ![0, 0] x (sitofp (F := Ideal) .f32 (constantI S_ 32 0#32)) pads_S150002x128_S151552x128_015500_000 h_S_
/-- The column with 1550 zero entries appended. -/
def padC (x : CN) : CP :=
  pad S151552x1 ![0, 0] ![1550, 0] ![0, 0] x (sitofp (F := Ideal) .f32 (constantI S_ 32 0#32)) pads_S150002x1_S151552x1_015500_000 h_S_

/-- Layer weights from mask row 0+0: each edge's value times that row's keep flag (one or zero). -/
def w00 (v : FE) (msk : ME) : FE :=
  mulf (F := Ideal) v (shapeCast S600000 (extractStridedSlice S1x600000 ![0, 0] (extractStridedSlice S2x600000 ![0, 0] (uitofp (F := Ideal) .f32 msk) slices_S6x600000_S2x600000_0_0) slices_S2x600000_S1x600000_0_0) shapeCasts_S1x600000_S600000)
/-- Layer weights from mask row 0+1: each edge's value times that row's keep flag (one or zero). -/
def w01 (v : FE) (msk : ME) : FE :=
  mulf (F := Ideal) v (shapeCast S600000 (extractStridedSlice S1x600000 ![1, 0] (extractStridedSlice S2x600000 ![0, 0] (uitofp (F := Ideal) .f32 msk) slices_S6x600000_S2x600000_0_0) slices_S2x600000_S1x600000_1_0) shapeCasts_S1x600000_S600000)
/-- Layer weights from mask row 2+0: each edge's value times that row's keep flag (one or zero). -/
def w20 (v : FE) (msk : ME) : FE :=
  mulf (F := Ideal) v (shapeCast S600000 (extractStridedSlice S1x600000 ![0, 0] (extractStridedSlice S2x600000 ![2, 0] (uitofp (F := Ideal) .f32 msk) slices_S6x600000_S2x600000_2_0) slices_S2x600000_S1x600000_0_0) shapeCasts_S1x600000_S600000)
/-- Layer weights from mask row 2+1: each edge's value times that row's keep flag (one or zero). -/
def w21 (v : FE) (msk : ME) : FE :=
  mulf (F := Ideal) v (shapeCast S600000 (extractStridedSlice S1x600000 ![1, 0] (extractStridedSlice S2x600000 ![2, 0] (uitofp (F := Ideal) .f32 msk) slices_S6x600000_S2x600000_2_0) slices_S2x600000_S1x600000_1_0) shapeCasts_S1x600000_S600000)
/-- Layer weights from mask row 4+0: each edge's value times that row's keep flag (one or zero). -/
def w40 (v : FE) (msk : ME) : FE :=
  mulf (F := Ideal) v (shapeCast S600000 (extractStridedSlice S1x600000 ![0, 0] (extractStridedSlice S2x600000 ![4, 0] (uitofp (F := Ideal) .f32 msk) slices_S6x600000_S2x600000_4_0) slices_S2x600000_S1x600000_0_0) shapeCasts_S1x600000_S600000)
/-- Layer weights from mask row 4+1: each edge's value times that row's keep flag (one or zero). -/
def w41 (v : FE) (msk : ME) : FE :=
  mulf (F := Ideal) v (shapeCast S600000 (extractStridedSlice S1x600000 ![1, 0] (extractStridedSlice S2x600000 ![4, 0] (uitofp (F := Ideal) .f32 msk) slices_S6x600000_S2x600000_4_0) slices_S2x600000_S1x600000_1_0) shapeCasts_S1x600000_S600000)

/-- A weight vector as a column. -/
def colw (w : FE) : CE := shapeCast S600000x1 w shapeCasts_S600000_S600000x1

/-- The source indices as the gather takes them: a negative index moved up by the table's length, as a column. -/
def nidx (cols : IE) : IE1 :=
  broadcastInDim S600000x1 ![0] bcast_S600000_S600000x1_0 (select (cmpi .slt cols (broadcastInDim S600000 ![] bcast_S_S600000 (constantI S_ 32 0#32))) (addi cols (broadcastInDim S600000 ![] bcast_S_S600000 (constantI S_ 32 151552#32))) cols)

/-- One sparse product: gather the source rows, scale each by its edge's weight, add into the destination rows. -/
def spmm (X : TP) (rows cols : IE) (w : FE) : TP :=
  Host.scatterAdd (F := Ideal) scatter_S151552x128_S600000x1_S600000x128_1_0_0_1
    (broadcastInDim S151552x128 ![] bcast_S_S151552x128 (constant (F := Ideal) S_ .f32 0x00000000#32))
    (broadcastInDim S600000x1 ![0] bcast_S600000_S600000x1_0 rows)
    (Cert.Mp.edgeScale (Host.gather gather_S151552x128_S600000x1_S600000x128_1_0_n_n_0_1_1128 X (nidx cols)) (colw w))

/-- The three-layer sum: the table, plus one product, plus the product of that product. -/
def gcn (X : TP) (rows cols : IE) (w1 w2 : FE) : TP :=
  Cert.Mp.addT (Cert.Mp.addT X (spmm X rows cols w1)) (spmm (spmm X rows cols w1) rows cols w2)

/-- The first behaviour's table. -/
def curAux (x0 : TN) (x1 x2 : IE) (x3 : FE) (x7 : CN) (x10 : ME) : TP :=
  Cert.Mp.fin1 (gcn (padT x0) x1 x2 (w00 x3 x10) (w01 x3 x10)) (padC x7) (padT x0)

/-- The second behaviour's three-layer sum of the padded table. -/
def gAll (x0 : TN) (x4 x5 : IE) (x6 : FE) (x10 : ME) : TP := gcn (padT x0) x4 x5 (w20 x6 x10) (w21 x6 x10)

/-- The second behaviour's three-layer sum of the first behaviour's table. -/
def gAux (x0 : TN) (x1 x2 : IE) (x3 : FE) (x4 x5 : IE) (x6 : FE) (x7 : CN) (x10 : ME) : TP :=
  gcn (curAux x0 x1 x2 x3 x7 x10) x4 x5 (w40 x6 x10) (w41 x6 x10)

/-- The second behaviour's table, all 151552 rows. -/
def curBuy (x0 : TN) (x1 x2 : IE) (x3 : FE) (x4 x5 : IE) (x6 : FE) (x7 x8 x9 : CN) (x10 : ME) : TP :=
  Cert.Mp.fin2 (gAll x0 x4 x5 x6 x10) (padC x8) (gAux x0 x1 x2 x3 x4 x5 x6 x7 x10) (padC x9) (curAux x0 x1 x2 x3 x7 x10)

/-- The result: its first 150002 rows. -/
def out (x0 : TN) (x1 x2 : IE) (x3 : FE) (x4 x5 : IE) (x6 : FE) (x7 x8 x9 : CN) (x10 : ME) : TN :=
  extractStridedSlice S150002x128 ![0, 0] (curBuy x0 x1 x2 x3 x4 x5 x6 x7 x8 x9 x10) slices_S151552x128_S150002x128_0_0

end Cert.KernelIdeal.KVal

end
-- ==== Proof.RegionAdd1.lean ====
/-
  Elementwise addition, region 1 of the message-passing program: the output table after the region is, as ONE
  function of the two input tables, their entrywise sum.

  The region walks 37 blocks of 4096 rows.  At block `t` the body adds the two input blocks; block `t` of each of
  the three tables starts at row `4096 · t`, so what is written back at `t` is block `t` of the sum; row `r` lies in
  block `r / 4096`, so the blocks cover the table.
-/
import proofs.«141111_j5652176961768_1_alg».proof.Proof.Gen.KernelIdeal.Frame
import proofs.«141111_j5652176961768_1_alg».proof.Proof.Spec
import proofs.«141111_j5652176961768_1_alg».proof.Proof.KDefs
import Idealize.ShloMosaic.Lib.Pipeline.Value
import Idealize.ShloMosaic.Lib.ValueIdx
import Idealize.ShloMosaic.Lib.ValueLayout

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body's rectangles start at the origin. -/
theorem add1_origin : (![0, 0] : Fin 2 → Nat) = fun _ => 0 := funext fun a => by fin_cases a <;> rfl

/-- The body's sum at row `r`, lane `k` of a block: the two entries added. -/
theorem add1_payload (x0 x1 : Vec Ideal S4096x128 .f32) (r : Fin 4096) (k : Fin 128) :
    k1_pay1 x0 x1 (ix2 r k) = x0 (ix2 r k) + x1 (ix2 r k) := by
  unfold k1_pay1
  rw [addf_apply, shapeCast_self, shapeCast_self]

/-- The printed index maps, decided once over the 37 grid points: block `t` of each window is block row `t`,
    block column 0. -/
theorem add1_index : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The first input window's block at point `t` is rows `4096 t … 4096 t + 4095` of the first table. -/
theorem add1_left_block (c : Dev nD) (t : Fin cfg1.N) (r : Fin 4096) (k : Fin 128) (i : S151552x128.Idx)
    (hi0 : (i 0).val = t.val * 4096 + r.val) (hi1 : (i 1).val = k.val) :
    (iblk1 (F := Ideal) V c 0 t : Vec Ideal S4096x128 .f32) (ix2 r k)
      = (V c (Pipeline.arrRef spec1 0) : S151552x128.Idx → EReal) i := by
  obtain ⟨e0, e1, -⟩ := add1_index t
  show (V c (Pipeline.arrRef spec1 0) : S151552x128.Idx → EReal) (((cfg1.win 0).blk t).view.emb (ix2 r k)) = _
  refine congrArg (V c (Pipeline.arrRef spec1 0) : S151552x128.Idx → EReal) (funext fun a => Fin.ext ?_)
  match a with
  | ⟨0, _⟩ => show win1_0.index t (0 : Fin 2) * 4096 + 1 * r.val = (i 0).val; rw [e0, hi0]; omega
  | ⟨1, _⟩ => show win1_0.index t (1 : Fin 2) * 128 + 1 * k.val = (i 1).val; rw [e1, hi1]; omega

/-- The second input window's block at point `t` is rows `4096 t … 4096 t + 4095` of the second table. -/
theorem add1_right_block (c : Dev nD) (t : Fin cfg1.N) (r : Fin 4096) (k : Fin 128) (i : S151552x128.Idx)
    (hi0 : (i 0).val = t.val * 4096 + r.val) (hi1 : (i 1).val = k.val) :
    (iblk1 (F := Ideal) V c 1 t : Vec Ideal S4096x128 .f32) (ix2 r k)
      = (V c (Pipeline.arrRef spec1 1) : S151552x128.Idx → EReal) i := by
  obtain ⟨-, -, e0, e1, -⟩ := add1_index t
  show (V c (Pipeline.arrRef spec1 1) : S151552x128.Idx → EReal) (((cfg1.win 1).blk t).view.emb (ix2 r k)) = _
  refine congrArg (V c (Pipeline.arrRef spec1 1) : S151552x128.Idx → EReal) (funext fun a => Fin.ext ?_)
  match a with
  | ⟨0, _⟩ => show win1_1.index t (0 : Fin 2) * 4096 + 1 * r.val = (i 0).val; rw [e0, hi0]; omega
  | ⟨1, _⟩ => show win1_1.index t (1 : Fin 2) * 128 + 1 * k.val = (i 1).val; rw [e1, hi1]; omega

/-- WHAT POINT `t` WRITES BACK is block `t` of the entrywise sum. -/
theorem add1_flushed (c : Dev nD) (t : Fin cfg1.N) :
    (dat1 (F := Ideal) V c).flushed 2 t = ((cfg1.win 2).blk t).view.read (Elt Ideal)
      (Cert.Mp.addT (R := 151552) (V c (Pipeline.arrRef spec1 0)) (V c (Pipeline.arrRef spec1 1))) := by
  show (cfg1.win 2).cut (grid1.coords t) ((dat1 V c).after 2 t) = _
  rw [after1_2]
  unfold out1_2
  rw [View.canon_unit_zero add1_origin]
  simp only [View.ld_unit_zero (S := S4096x128) add1_origin]
  obtain ⟨-, -, -, -, e0, e1⟩ := add1_index t
  funext j
  obtain ⟨r, k, rfl⟩ : ∃ (r : Fin 4096) (k : Fin 128), j = ix2 r k := ⟨j 0, j 1, eq_ix2 j⟩
  show k1_pay1 (iblk1 V c 0 t) (iblk1 V c 1 t) (ix2 r k)
    = Cert.Mp.addT (R := 151552) (V c (Pipeline.arrRef spec1 0)) (V c (Pipeline.arrRef spec1 1)) (((cfg1.win 2).blk t).view.emb (ix2 r k))
  refine (add1_payload (iblk1 V c 0 t) (iblk1 V c 1 t) r k).trans ?_
  unfold Cert.Mp.addT
  have h0 : ((((cfg1.win 2).blk t).view.emb (ix2 r k)) 0).val = t.val * 4096 + r.val := by
    show win1_2.index t (0 : Fin 2) * 4096 + 1 * r.val = _; rw [e0]; omega
  have h1 : ((((cfg1.win 2).blk t).view.emb (ix2 r k)) 1).val = k.val := by
    show win1_2.index t (1 : Fin 2) * 128 + 1 * k.val = _; rw [e1]; omega
  rw [add1_left_block V c t r k _ h0 h1, add1_right_block V c t r k _ h0 h1]

/-- An index of the table is in point `t`'s block iff each coordinate is in the block's range on its axis. -/
theorem add1_mem_block (t : Fin cfg1.N) (i : S151552x128.Idx) :
    i ∈ ((cfg1.win 2).blk t).view.set ↔ ∀ a : Fin 2, win1_2.index t a * S4096x128.size a ≤ (i a).val
      ∧ (i a).val < win1_2.index t a * S4096x128.size a + S4096x128.size a := by
  show i ∈ ((View.whole main_v21).slice (win1_2.rect t)).set ↔ _
  rw [View.set_slice_whole, Rect.mem_set_unit]
  exact Iff.rfl

/-- Row `r` of the table lies in the block of point `r / 4096`: the 37 blocks cover the table. -/
theorem add1_cover (i : S151552x128.Idx) :
    ∃ t : Fin cfg1.N, (cfg1.win 2).flush t = true ∧ i ∈ ((cfg1.win 2).blk t).view.set := by
  have hrow : (i 0).val < 151552 := (i 0).isLt
  have hlane : (i 1).val < 128 := (i 1).isLt
  have hN : cfg1.N = 37 := N_1
  let t : Fin cfg1.N := ⟨(i 0).val / 4096, by rw [hN]; omega⟩
  obtain ⟨-, -, -, -, e0, e1⟩ := add1_index t
  have ht : t.val = (i 0).val / 4096 := rfl
  refine ⟨t, flush1_2 t, ?_⟩
  rw [add1_mem_block]
  intro a
  match a with
  | ⟨0, _⟩ =>
    show win1_2.index t (0 : Fin 2) * 4096 ≤ (i 0).val ∧ (i 0).val < win1_2.index t (0 : Fin 2) * 4096 + 4096
    rw [e0, ht]; omega
  | ⟨1, _⟩ =>
    show win1_2.index t (1 : Fin 2) * 128 ≤ (i 1).val ∧ (i 1).val < win1_2.index t (1 : Fin 2) * 128 + 128
    rw [e1]; omega

/-- THE TABLE after the region: the entrywise sum of the two input tables. -/
theorem add1 (c : Dev nD) : (Gen.dat1 (F := Ideal) V c).arrAt 2 cfg1.N
    = Cert.Mp.addT (R := 151552) (V c (Pipeline.arrRef spec1 0)) (V c (Pipeline.arrRef spec1 1)) :=
  (dat1 (F := Ideal) V c).arrAt_eq_of_cover 2 _ (fun t _ => add1_flushed V c t) add1_cover

end Cert.KernelIdeal.RegionValue

end
-- ==== Proof.RegionScale2.lean ====
/-
  Edge scaling, region 2 of the message-passing program: the output table after the region is, as ONE function of
  the two input arrays, every lane of edge message `e` times that edge's weight (`Cert.Mp.edgeScale`).

  The region walks 100 blocks of 6000 rows.  At block `t` the body multiplies the message block by the weight
  block broadcast along the lanes; block `t` of each of the three arrays starts at row `6000 · t`, so what is
  written back at `t` is block `t` of `edgeScale`; row `r` lies in block `r / 6000`, so the blocks cover the table.
-/
import proofs.«141111_j5652176961768_1_alg».proof.Proof.Gen.KernelIdeal.Frame
import proofs.«141111_j5652176961768_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body's rectangles start at the origin. -/
theorem scale2_origin : (![0, 0] : Fin 2 → Nat) = fun _ => 0 := funext fun a => by fin_cases a <;> rfl

/-- A column `[a, 1]` broadcast along the lanes to `[a, b]` reads, at `(p, q)`, the column's entry `p`. -/
theorem scale2_column_broadcast {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The body's product at row `r`, lane `k` of a block: the message entry times the row's weight. -/
theorem scale2_payload (x0 : Vec Ideal S6000x128 .f32) (x1 : Vec Ideal S6000x1 .f32) (r : Fin 6000) (k : Fin 128) :
    k2_pay1 x0 x1 (ix2 r k) = x0 (ix2 r k) * x1 (ix2 r (0 : Fin 1)) := by
  unfold k2_pay1
  rw [mulf_apply, shapeCast_self, shapeCast_self]
  exact congrArg (x0 (ix2 r k) * ·) (scale2_column_broadcast x1 broadcasts_S6000x1_S6000x128 r k)

/-- The printed index maps, decided once over the 100 grid points: block `t` of each window is block row `t`,
    block column 0. -/
theorem scale2_index : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- The message window's block at point `t` is rows `6000 t … 6000 t + 5999` of the message table. -/
theorem scale2_msg_block (c : Dev nD) (t : Fin cfg2.N) (r : Fin 6000) (k : Fin 128) (i : S600000x128.Idx)
    (hi0 : (i 0).val = t.val * 6000 + r.val) (hi1 : (i 1).val = k.val) :
    (iblk2 (F := Ideal) V c 0 t : Vec Ideal S6000x128 .f32) (ix2 r k)
      = (V c (Pipeline.arrRef spec2 0) : S600000x128.Idx → EReal) i := by
  obtain ⟨e0, e1, -⟩ := scale2_index t
  show (V c (Pipeline.arrRef spec2 0) : S600000x128.Idx → EReal) (((cfg2.win 0).blk t).view.emb (ix2 r k)) = _
  refine congrArg (V c (Pipeline.arrRef spec2 0) : S600000x128.Idx → EReal) (funext fun a => Fin.ext ?_)
  match a with
  | ⟨0, _⟩ => show win2_0.index t (0 : Fin 2) * 6000 + 1 * r.val = (i 0).val; rw [e0, hi0]; omega
  | ⟨1, _⟩ => show win2_0.index t (1 : Fin 2) * 128 + 1 * k.val = (i 1).val; rw [e1, hi1]; omega

/-- The weight window's block at point `t` is entries `6000 t … 6000 t + 5999` of the weight column. -/
theorem scale2_weight_block (c : Dev nD) (t : Fin cfg2.N) (r : Fin 6000) (i : S600000x1.Idx)
    (hi0 : (i 0).val = t.val * 6000 + r.val) :
    (iblk2 (F := Ideal) V c 1 t : Vec Ideal S6000x1 .f32) (ix2 r (0 : Fin 1))
      = (V c (Pipeline.arrRef spec2 1) : S600000x1.Idx → EReal) i := by
  obtain ⟨-, -, e0, e1, -⟩ := scale2_index t
  show (V c (Pipeline.arrRef spec2 1) : S600000x1.Idx → EReal) (((cfg2.win 1).blk t).view.emb (ix2 r (0 : Fin 1))) = _
  refine congrArg (V c (Pipeline.arrRef spec2 1) : S600000x1.Idx → EReal) (funext fun a => Fin.ext ?_)
  match a with
  | ⟨0, _⟩ => show win2_1.index t (0 : Fin 2) * 6000 + 1 * r.val = (i 0).val; rw [e0, hi0]; omega
  | ⟨1, _⟩ => show win2_1.index t (1 : Fin 2) * 1 + 1 * 0 = (i 1).val; have hlane : (i 1).val < 1 := (i 1).isLt; rw [e1]; omega

/-- WHAT POINT `t` WRITES BACK is block `t` of the scaled table. -/
theorem scale2_flushed (c : Dev nD) (t : Fin cfg2.N) :
    (dat2 (F := Ideal) V c).flushed 2 t = ((cfg2.win 2).blk t).view.read (Elt Ideal)
      (Cert.Mp.edgeScale (E := 600000) (V c (Pipeline.arrRef spec2 0)) (V c (Pipeline.arrRef spec2 1))) := by
  show (cfg2.win 2).cut (grid2.coords t) ((dat2 V c).after 2 t) = _
  rw [after2_2]
  unfold out2_2
  rw [View.canon_unit_zero scale2_origin]
  simp only [View.ld_unit_zero (S := S6000x128) scale2_origin, View.ld_unit_zero (S := S6000x1) scale2_origin]
  obtain ⟨-, -, -, -, e0, e1⟩ := scale2_index t
  funext j
  obtain ⟨r, k, rfl⟩ : ∃ (r : Fin 6000) (k : Fin 128), j = ix2 r k := ⟨j 0, j 1, eq_ix2 j⟩
  show k2_pay1 (iblk2 V c 0 t) (iblk2 V c 1 t) (ix2 r k)
    = Cert.Mp.edgeScale (E := 600000) (V c (Pipeline.arrRef spec2 0)) (V c (Pipeline.arrRef spec2 1)) (((cfg2.win 2).blk t).view.emb (ix2 r k))
  refine (scale2_payload (iblk2 V c 0 t) (iblk2 V c 1 t) r k).trans ?_
  unfold Cert.Mp.edgeScale
  have h0 : ((((cfg2.win 2).blk t).view.emb (ix2 r k)) 0).val = t.val * 6000 + r.val := by
    show win2_2.index t (0 : Fin 2) * 6000 + 1 * r.val = _; rw [e0]; omega
  have h1 : ((((cfg2.win 2).blk t).view.emb (ix2 r k)) 1).val = k.val := by
    show win2_2.index t (1 : Fin 2) * 128 + 1 * k.val = _; rw [e1]; omega
  rw [scale2_msg_block V c t r k _ h0 h1, scale2_weight_block V c t r (ix2 ((((cfg2.win 2).blk t).view.emb (ix2 r k)) 0) 0) h0]

/-- An index of the table is in point `t`'s block iff each coordinate is in the block's range on its axis. -/
theorem scale2_mem_block (t : Fin cfg2.N) (i : S600000x128.Idx) :
    i ∈ ((cfg2.win 2).blk t).view.set ↔ ∀ a : Fin 2, win2_2.index t a * S6000x128.size a ≤ (i a).val
      ∧ (i a).val < win2_2.index t a * S6000x128.size a + S6000x128.size a := by
  show i ∈ ((View.whole main_v33).slice (win2_2.rect t)).set ↔ _
  rw [View.set_slice_whole, Rect.mem_set_unit]
  exact Iff.rfl

/-- Row `r` of the table lies in the block of point `r / 6000`: the 100 blocks cover the table. -/
theorem scale2_cover (i : S600000x128.Idx) :
    ∃ t : Fin cfg2.N, (cfg2.win 2).flush t = true ∧ i ∈ ((cfg2.win 2).blk t).view.set := by
  have hrow : (i 0).val < 600000 := (i 0).isLt
  have hlane : (i 1).val < 128 := (i 1).isLt
  have hN : cfg2.N = 100 := N_2
  let t : Fin cfg2.N := ⟨(i 0).val / 6000, by rw [hN]; omega⟩
  obtain ⟨-, -, -, -, e0, e1⟩ := scale2_index t
  have ht : t.val = (i 0).val / 6000 := rfl
  refine ⟨t, flush2_2 t, ?_⟩
  rw [scale2_mem_block]
  intro a
  match a with
  | ⟨0, _⟩ =>
    show win2_2.index t (0 : Fin 2) * 6000 ≤ (i 0).val ∧ (i 0).val < win2_2.index t (0 : Fin 2) * 6000 + 6000
    rw [e0, ht]; omega
  | ⟨1, _⟩ =>
    show win2_2.index t (1 : Fin 2) * 128 ≤ (i 1).val ∧ (i 1).val < win2_2.index t (1 : Fin 2) * 128 + 128
    rw [e1]; omega

/-- THE TABLE after the region: every lane of each edge message times the edge's weight. -/
theorem scale2 (c : Dev nD) : (Gen.dat2 (F := Ideal) V c).arrAt 2 cfg2.N
    = Cert.Mp.edgeScale (E := 600000) (V c (Pipeline.arrRef spec2 0)) (V c (Pipeline.arrRef spec2 1)) :=
  (dat2 (F := Ideal) V c).arrAt_eq_of_cover 2 _ (fun t _ => scale2_flushed V c t) scale2_cover

end Cert.KernelIdeal.RegionValue

end
-- ==== Proof.RegionAdd3.lean ====
/-
  Elementwise addition, region 3 of the message-passing program: the output table after the region is, as ONE
  function of the two input tables, their entrywise sum.

  The region walks 37 blocks of 4096 rows.  At block `t` the body adds the two input blocks; block `t` of each of
  the three tables starts at row `4096 · t`, so what is written back at `t` is block `t` of the sum; row `r` lies in
  block `r / 4096`, so the blocks cover the table.
-/
import proofs.«141111_j5652176961768_1_alg».proof.Proof.Gen.KernelIdeal.Frame
import proofs.«141111_j5652176961768_1_alg».proof.Proof.Spec
import proofs.«141111_j5652176961768_1_alg».proof.Proof.KDefs
import Idealize.ShloMosaic.Lib.Pipeline.Value
import Idealize.ShloMosaic.Lib.ValueIdx
import Idealize.ShloMosaic.Lib.ValueLayout

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body's rectangles start at the origin. -/
theorem add3_origin : (![0, 0] : Fin 2 → Nat) = fun _ => 0 := funext fun a => by fin_cases a <;> rfl

/-- The body's sum at row `r`, lane `k` of a block: the two entries added. -/
theorem add3_payload (x0 x1 : Vec Ideal S4096x128 .f32) (r : Fin 4096) (k : Fin 128) :
    k3_pay1 x0 x1 (ix2 r k) = x0 (ix2 r k) + x1 (ix2 r k) := by
  unfold k3_pay1
  rw [addf_apply, shapeCast_self, shapeCast_self]

/-- The printed index maps, decided once over the 37 grid points: block `t` of each window is block row `t`,
    block column 0. -/
theorem add3_index : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- The first input window's block at point `t` is rows `4096 t … 4096 t + 4095` of the first table. -/
theorem add3_left_block (c : Dev nD) (t : Fin cfg3.N) (r : Fin 4096) (k : Fin 128) (i : S151552x128.Idx)
    (hi0 : (i 0).val = t.val * 4096 + r.val) (hi1 : (i 1).val = k.val) :
    (iblk3 (F := Ideal) V c 0 t : Vec Ideal S4096x128 .f32) (ix2 r k)
      = (V c (Pipeline.arrRef spec3 0) : S151552x128.Idx → EReal) i := by
  obtain ⟨e0, e1, -⟩ := add3_index t
  show (V c (Pipeline.arrRef spec3 0) : S151552x128.Idx → EReal) (((cfg3.win 0).blk t).view.emb (ix2 r k)) = _
  refine congrArg (V c (Pipeline.arrRef spec3 0) : S151552x128.Idx → EReal) (funext fun a => Fin.ext ?_)
  match a with
  | ⟨0, _⟩ => show win3_0.index t (0 : Fin 2) * 4096 + 1 * r.val = (i 0).val; rw [e0, hi0]; omega
  | ⟨1, _⟩ => show win3_0.index t (1 : Fin 2) * 128 + 1 * k.val = (i 1).val; rw [e1, hi1]; omega

/-- The second input window's block at point `t` is rows `4096 t … 4096 t + 4095` of the second table. -/
theorem add3_right_block (c : Dev nD) (t : Fin cfg3.N) (r : Fin 4096) (k : Fin 128) (i : S151552x128.Idx)
    (hi0 : (i 0).val = t.val * 4096 + r.val) (hi1 : (i 1).val = k.val) :
    (iblk3 (F := Ideal) V c 1 t : Vec Ideal S4096x128 .f32) (ix2 r k)
      = (V c (Pipeline.arrRef spec3 1) : S151552x128.Idx → EReal) i := by
  obtain ⟨-, -, e0, e1, -⟩ := add3_index t
  show (V c (Pipeline.arrRef spec3 1) : S151552x128.Idx → EReal) (((cfg3.win 1).blk t).view.emb (ix2 r k)) = _
  refine congrArg (V c (Pipeline.arrRef spec3 1) : S151552x128.Idx → EReal) (funext fun a => Fin.ext ?_)
  match a with
  | ⟨0, _⟩ => show win3_1.index t (0 : Fin 2) * 4096 + 1 * r.val = (i 0).val; rw [e0, hi0]; omega
  | ⟨1, _⟩ => show win3_1.index t (1 : Fin 2) * 128 + 1 * k.val = (i 1).val; rw [e1, hi1]; omega

/-- WHAT POINT `t` WRITES BACK is block `t` of the entrywise sum. -/
theorem add3_flushed (c : Dev nD) (t : Fin cfg3.N) :
    (dat3 (F := Ideal) V c).flushed 2 t = ((cfg3.win 2).blk t).view.read (Elt Ideal)
      (Cert.Mp.addT (R := 151552) (V c (Pipeline.arrRef spec3 0)) (V c (Pipeline.arrRef spec3 1))) := by
  show (cfg3.win 2).cut (grid3.coords t) ((dat3 V c).after 2 t) = _
  rw [after3_2]
  unfold out3_2
  rw [View.canon_unit_zero add3_origin]
  simp only [View.ld_unit_zero (S := S4096x128) add3_origin]
  obtain ⟨-, -, -, -, e0, e1⟩ := add3_index t
  funext j
  obtain ⟨r, k, rfl⟩ : ∃ (r : Fin 4096) (k : Fin 128), j = ix2 r k := ⟨j 0, j 1, eq_ix2 j⟩
  show k3_pay1 (iblk3 V c 0 t) (iblk3 V c 1 t) (ix2 r k)
    = Cert.Mp.addT (R := 151552) (V c (Pipeline.arrRef spec3 0)) (V c (Pipeline.arrRef spec3 1)) (((cfg3.win 2).blk t).view.emb (ix2 r k))
  refine (add3_payload (iblk3 V c 0 t) (iblk3 V c 1 t) r k).trans ?_
  unfold Cert.Mp.addT
  have h0 : ((((cfg3.win 2).blk t).view.emb (ix2 r k)) 0).val = t.val * 4096 + r.val := by
    show win3_2.index t (0 : Fin 2) * 4096 + 1 * r.val = _; rw [e0]; omega
  have h1 : ((((cfg3.win 2).blk t).view.emb (ix2 r k)) 1).val = k.val := by
    show win3_2.index t (1 : Fin 2) * 128 + 1 * k.val = _; rw [e1]; omega
  rw [add3_left_block V c t r k _ h0 h1, add3_right_block V c t r k _ h0 h1]

/-- An index of the table is in point `t`'s block iff each coordinate is in the block's range on its axis. -/
theorem add3_mem_block (t : Fin cfg3.N) (i : S151552x128.Idx) :
    i ∈ ((cfg3.win 2).blk t).view.set ↔ ∀ a : Fin 2, win3_2.index t a * S4096x128.size a ≤ (i a).val
      ∧ (i a).val < win3_2.index t a * S4096x128.size a + S4096x128.size a := by
  show i ∈ ((View.whole main_v37).slice (win3_2.rect t)).set ↔ _
  rw [View.set_slice_whole, Rect.mem_set_unit]
  exact Iff.rfl

/-- Row `r` of the table lies in the block of point `r / 4096`: the 37 blocks cover the table. -/
theorem add3_cover (i : S151552x128.Idx) :
    ∃ t : Fin cfg3.N, (cfg3.win 2).flush t = true ∧ i ∈ ((cfg3.win 2).blk t).view.set := by
  have hrow : (i 0).val < 151552 := (i 0).isLt
  have hlane : (i 1).val < 128 := (i 1).isLt
  have hN : cfg3.N = 37 := N_3
  let t : Fin cfg3.N := ⟨(i 0).val / 4096, by rw [hN]; omega⟩
  obtain ⟨-, -, -, -, e0, e1⟩ := add3_index t
  have ht : t.val = (i 0).val / 4096 := rfl
  refine ⟨t, flush3_2 t, ?_⟩
  rw [add3_mem_block]
  intro a
  match a with
  | ⟨0, _⟩ =>
    show win3_2.index t (0 : Fin 2) * 4096 ≤ (i 0).val ∧ (i 0).val < win3_2.index t (0 : Fin 2) * 4096 + 4096
    rw [e0, ht]; omega
  | ⟨1, _⟩ =>
    show win3_2.index t (1 : Fin 2) * 128 ≤ (i 1).val ∧ (i 1).val < win3_2.index t (1 : Fin 2) * 128 + 128
    rw [e1]; omega

/-- THE TABLE after the region: the entrywise sum of the two input tables. -/
theorem add3 (c : Dev nD) : (Gen.dat3 (F := Ideal) V c).arrAt 2 cfg3.N
    = Cert.Mp.addT (R := 151552) (V c (Pipeline.arrRef spec3 0)) (V c (Pipeline.arrRef spec3 1)) :=
  (dat3 (F := Ideal) V c).arrAt_eq_of_cover 2 _ (fun t _ => add3_flushed V c t) add3_cover

end Cert.KernelIdeal.RegionValue

end
-- ==== Proof.RegionFinRow.lean ====
/-
  The row normalization both finalize bodies end with, read at one index of a block of 4096 rows of 128 lanes.

  * `inv_3`: the named reciprocal is the rational 1/3.
  * Two layout readings the library leaves to the user: a vector `[a]` viewed as the column `[a, 1]`, and a column
    `[a, 1]` broadcast along the lanes to `[a, b]`.
  * `laneSum_apply`: the lane reduction of a block, at row `p`, is the finite sum over that row's 128 lanes.
  * `normalizeTail_apply`: squares summed along the lanes, the square root, the maximum with the floor, the division and
    the added residual are, at `(p, q)`, `Cert.Mp.normalize` of the block's rows plus the residual's entry.
-/
import proofs.«141111_j5652176961768_1_alg».proof.Proof.Gen.KernelIdeal.Frame
import proofs.«141111_j5652176961768_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

noncomputable section

namespace Cert.KernelIdeal.RegionValue

open Idealize.ShloMosaic Idealize.ShloMosaic.ValueIdx Cert.KernelIdeal Cert.KernelIdeal.Gen Cert.Mp

/-- The named reciprocal denotes the rational 1/3 on the extended reals. -/
theorem inv_3 : Named.named (F := Ideal) Cert.KernelIdeal.κ "inv_3" (φ := .f32) 0x3EAAAAAB#32 = ((1 / 3 : ℝ) : EReal) :=
  IdealRules.named_const.ideal_named_scalar _ _ _ _ rfl

/-- An `[a]` array cast to the column `[a, 1]` reads, at `(i, u)`, the operand at `i`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the 128 lanes of a block of 4096 rows, read at row `p`. -/
theorem laneSum_apply (src : FVec Ideal S4096x128 .f32) (h : S4096x128.Reduces [1] S4096) (hφ : FKind.Formats FTy.f32)
    (hacc : (0x00000000#32 : BitVec 32) = FKind.add.neutral FTy.f32 hφ) (p : Fin 4096) :
    multiReduction (F := Ideal) .add [1] S4096 src 0x00000000#32 h hφ hacc (ix1 p) = ∑ k : Fin 128, src (ix2 p k) := by
  refine (Ideal.multiReduction_add_single src 0x00000000#32 h hφ hacc (ix1 p)).trans ?_
  refine Finset.sum_congr rfl fun k _ => congrArg src ?_
  funext ax
  match ax with
  | ⟨0, _⟩ => rfl
  | ⟨1, _⟩ => rfl

/-- The tail both finalize bodies share, read at row `p`, lane `q` of a block: the row `a p ·` divided by the larger of
    its Euclidean norm and the floor, plus the residual. -/
theorem normalizeTail_apply (a l : FVec Ideal S4096x128 .f32) (hr : S4096x128.Reduces [1] S4096) (hφ : FKind.Formats FTy.f32)
    (hacc : (0x00000000#32 : BitVec 32) = FKind.add.neutral FTy.f32 hφ) (hc : S4096.ShapeCasts S4096x1)
    (hb : S4096x1.Broadcasts S4096x128) (p : Fin 4096) (q : Fin 128) :
    addf (divf a (broadcastTo S4096x128 (maximumf (sqrt (shapeCast S4096x1
        (multiReduction (F := Ideal) .add [1] S4096 (mulf a a) 0x00000000#32 hr hφ hacc) hc))
        (broadcast S4096x1 (Scalar.ofBits (F := Ideal) .f32 0x2B8CBCCC#32))) hb)) l (ix2 p q)
      = normalize (fun r k => a (ix2 r k)) p q + l (ix2 p q) := by
  show Ideal.div (a (ix2 p q)) (broadcastTo S4096x128 _ hb (ix2 p q)) + l (ix2 p q) = _
  rw [broadcastTo_a1_ab_apply]
  show Ideal.div (a (ix2 p q)) (max (Ideal.sqrt (shapeCast S4096x1 _ hc (ix2 p (0 : Fin 1)))) floor) + l (ix2 p q) = _
  rw [shapeCast_a_a1_apply, laneSum_apply]
  rfl

end Cert.KernelIdeal.RegionValue

end
-- ==== Proof.RegionFin1.lean ====
/-
  REGION 4 (the single finalize), read as one whole-array function: after the region its output array is
  `Cert.Mp.fin1 g t l` of the three input arrays as the region finds them — every row of `g` scaled by its weight
  `t r` and by 1/3, divided by the larger of its Euclidean norm and the floor, plus the residual row.

  * `pay4_apply`: the body's stored value at row `p`, lane `q` of a block of 4096 rows.
  * `fin1_row`: the normalization looks at one row only, so a block's row that is row `i0` of the arrays gives
    `fin1` at row `i0` (a block holds whole rows: all 128 lanes).
  * `idx4`, `iblk4_W_apply`: at grid point `t` every window's block is rows `t · 4096 … t · 4096 + 4095`.
  * `flushed4_eq`, `mem_blk4`, `cover4`, `fin1_4`: point `t` writes back block `t` of `fin1`; the 37 blocks cover
    the 151552 rows (row `r` is in block `r / 4096`); so the array ends holding `fin1`.
-/
import proofs.«141111_j5652176961768_1_alg».proof.Proof.RegionFinRow

noncomputable section

namespace Cert.KernelIdeal.RegionValue

open Idealize.ShloMosaic Idealize.ShloMosaic.TcCoe Idealize.ShloMosaic.ValueIdx Idealize.SL.Sem
open Idealize.ShloMosaic.Pipeline (Dat)
open Cert.KernelIdeal Cert.KernelIdeal.Gen Cert.Mp

variable (V : (c : Dev nD) → (b : Ref sig .tc) → Buf (Elt Ideal) ((c : Thread nD τ).loc b))

/-- Region 4's stored value at row `p`, lane `q` of a block: the weighted mean row `t · (g · 1/3)` normalized, plus the residual. -/
theorem pay4_apply (x0 : Vec Ideal S4096x128 .f32) (x1 : Vec Ideal S4096x1 .f32) (x2 : Vec Ideal S4096x128 .f32)
    (p : Fin 4096) (q : Fin 128) :
    k4_pay1 (F := Ideal) x0 x1 x2 (ix2 p q)
      = normalize (fun r k => x1 (ix2 r 0) * (x0 (ix2 r k) * ((1 / 3 : ℝ) : EReal))) p q + x2 (ix2 p q) := by
  unfold k4_pay1
  simp only [shapeCast_self]
  refine (normalizeTail_apply _ _ _ _ _ _ _ p q).trans ?_
  refine congrArg (· + x2 (ix2 p q)) (normalize_congr (fun k => ?_) q)
  show broadcastTo S4096x128 x1 _ (ix2 p k) * (x0 (ix2 p k) * Named.named (F := Ideal) Cert.KernelIdeal.κ "inv_3" (φ := .f32) 0x3EAAAAAB#32) = _
  rw [broadcastTo_a1_ab_apply, inv_3]

/-- Row `p` of the three input blocks being row `i0` of the three arrays, the block's normalized row plus residual is
    `fin1` of the arrays at row `i0`: the normalization looks at one row only. -/
theorem fin1_row (g l : Tab 151552) (tt : Col 151552) (b0 b2 : Vec Ideal S4096x128 .f32) (b1 : Vec Ideal S4096x1 .f32)
    (p : Fin 4096) (i0 : Fin 151552) (h0 : ∀ k : Fin 128, b0 (ix2 p k) = g (ix2 i0 k)) (h1 : b1 (ix2 p 0) = tt (ix2 i0 0))
    (h2 : ∀ k : Fin 128, b2 (ix2 p k) = l (ix2 i0 k)) (q : Fin 128) :
    normalize (fun r k => b1 (ix2 r 0) * (b0 (ix2 r k) * ((1 / 3 : ℝ) : EReal))) p q + b2 (ix2 p q) = fin1 g tt l (ix2 i0 q) := by
  show _ = normalize (agg g tt) i0 q + l (ix2 i0 q)
  rw [h2 q, normalize_congr (a' := agg g tt) (r' := i0) (fun k => ?_) q]
  show b1 (ix2 p 0) * (b0 (ix2 p k) * _) = tt (ix2 i0 0) * (g (ix2 i0 k) * _)
  rw [h0 k, h1]

theorem hz : (![0, 0] : Fin 2 → Nat) = fun _ => 0 := funext fun a => by fin_cases a <;> rfl

/-- The printed index maps, decided over the 37 grid points: every window's block at point `t` is block `t` along
    the rows and the only block along the lanes. -/
theorem idx4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0 :=
  (by decide +kernel : ∀ t : Fin grid4.N, _)

/-- Row `p` of window 0's block at point `t` is row `t · 4096 + p` of its array. -/
theorem iblk4_0_apply (c : Dev nD) (t : Fin cfg4.N) (p : Fin 4096) (k : Fin 128) (i0 : Fin 151552)
    (hi : i0.val = t.val * 4096 + p.val) :
    (iblk4 (F := Ideal) V c 0 t : Vec Ideal S4096x128 .f32) (ix2 p k) = (V c (Pipeline.arrRef spec4 0) : Tab 151552) (ix2 i0 k) := by
  obtain ⟨e0, e1, -⟩ := idx4 t
  show V c (Pipeline.arrRef spec4 0) (((cfg4.win 0).blk t).view.emb (ix2 p k)) = V c (Pipeline.arrRef spec4 0) (ix2 i0 k)
  refine congrArg _ (funext fun a => Fin.ext ?_)
  match a with
  | ⟨0, _⟩ => show win4_0.index t (0 : Fin 2) * 4096 + 1 * p.val = i0.val; omega
  | ⟨1, _⟩ => show win4_0.index t (1 : Fin 2) * 128 + 1 * k.val = k.val; omega

/-- Entry `p` of window 1's block at point `t` is entry `t · 4096 + p` of its column. -/
theorem iblk4_1_apply (c : Dev nD) (t : Fin cfg4.N) (p : Fin 4096) (i0 : Fin 151552)
    (hi : i0.val = t.val * 4096 + p.val) :
    (iblk4 (F := Ideal) V c 1 t : Vec Ideal S4096x1 .f32) (ix2 p 0) = (V c (Pipeline.arrRef spec4 1) : Col 151552) (ix2 i0 0) := by
  obtain ⟨-, -, e0, e1, -⟩ := idx4 t
  show V c (Pipeline.arrRef spec4 1) (((cfg4.win 1).blk t).view.emb (ix2 p 0)) = V c (Pipeline.arrRef spec4 1) (ix2 i0 0)
  refine congrArg _ (funext fun a => Fin.ext ?_)
  match a with
  | ⟨0, _⟩ => show win4_1.index t (0 : Fin 2) * 4096 + 1 * p.val = i0.val; omega
  | ⟨1, _⟩ => show win4_1.index t (1 : Fin 2) * 1 + 1 * 0 = 0; omega

/-- Row `p` of window 2's block at point `t` is row `t · 4096 + p` of its array. -/
theorem iblk4_2_apply (c : Dev nD) (t : Fin cfg4.N) (p : Fin 4096) (k : Fin 128) (i0 : Fin 151552)
    (hi : i0.val = t.val * 4096 + p.val) :
    (iblk4 (F := Ideal) V c 2 t : Vec Ideal S4096x128 .f32) (ix2 p k) = (V c (Pipeline.arrRef spec4 2) : Tab 151552) (ix2 i0 k) := by
  obtain ⟨-, -, -, -, e0, e1, -⟩ := idx4 t
  show V c (Pipeline.arrRef spec4 2) (((cfg4.win 2).blk t).view.emb (ix2 p k)) = V c (Pipeline.arrRef spec4 2) (ix2 i0 k)
  refine congrArg _ (funext fun a => Fin.ext ?_)
  match a with
  | ⟨0, _⟩ => show win4_2.index t (0 : Fin 2) * 4096 + 1 * p.val = i0.val; omega
  | ⟨1, _⟩ => show win4_2.index t (1 : Fin 2) * 128 + 1 * k.val = k.val; omega

/-- WHAT POINT `t` WRITES BACK is block `t` of `fin1` of the three input arrays as the region finds them. -/
theorem flushed4_eq (c : Dev nD) (t : Fin cfg4.N) :
    (dat4 (F := Ideal) V c).flushed 3 t = ((cfg4.win 3).blk t).view.read (Elt Ideal)
      (fin1 (V c (Pipeline.arrRef spec4 0) : Tab 151552) (V c (Pipeline.arrRef spec4 1) : Col 151552) (V c (Pipeline.arrRef spec4 2) : Tab 151552)) := by
  show (cfg4.win 3).cut (grid4.coords t) ((dat4 V c).after 3 t) = _
  rw [after4_3]
  unfold out4_3
  rw [View.canon_unit_zero hz]
  simp only [View.ld_unit_zero (S := S4096x128) hz, View.ld_unit_zero (S := S4096x1) hz]
  have hN : cfg4.N = 37 := N_4
  have ht : t.val < 37 := hN ▸ t.isLt
  obtain ⟨-, -, -, -, -, -, e0, e1⟩ := idx4 t
  funext j
  obtain ⟨p, q, rfl⟩ : ∃ (p : Fin 4096) (q : Fin 128), j = ix2 p q := ⟨j 0, j 1, eq_ix2 j⟩
  have hemb : ((cfg4.win 3).blk t).view.emb (ix2 p q) = ix2 (⟨t.val * 4096 + p.val, by have := p.isLt; omega⟩ : Fin 151552) q := by
    funext a; apply Fin.ext
    match a with
    | ⟨0, _⟩ => show win4_3.index t (0 : Fin 2) * 4096 + 1 * p.val = t.val * 4096 + p.val; omega
    | ⟨1, _⟩ => show win4_3.index t (1 : Fin 2) * 128 + 1 * q.val = q.val; omega
  show k4_pay1 (iblk4 V c 0 t) (iblk4 V c 1 t) (iblk4 V c 2 t) (ix2 p q) = fin1 _ _ _ (((cfg4.win 3).blk t).view.emb (ix2 p q))
  rw [hemb]
  exact (pay4_apply (iblk4 V c 0 t) (iblk4 V c 1 t) (iblk4 V c 2 t) p q).trans
    (fin1_row _ _ _ _ _ _ p _ (fun k => iblk4_0_apply V c t p k _ rfl) (iblk4_1_apply V c t p _ rfl)
      (fun k => iblk4_2_apply V c t p k _ rfl) q)

/-- An index of the output array is in point `t`'s block iff each coordinate is in the block's range on its axis. -/
theorem mem_blk4 (t : Fin cfg4.N) (i : S151552x128.Idx) :
    i ∈ ((cfg4.win 3).blk t).view.set ↔ ∀ a : Fin 2, win4_3.index t a * S4096x128.size a ≤ (i a).val ∧ (i a).val < win4_3.index t a * S4096x128.size a + S4096x128.size a := by
  show i ∈ ((View.whole main_v38).slice (win4_3.rect t)).set ↔ _
  rw [View.set_slice_whole, Rect.mem_set_unit]
  exact Iff.rfl

/-- Every row of the output array is in some point's block: row `r` in that of point `r / 4096` (37 · 4096 = 151552). -/
theorem cover4 (i : S151552x128.Idx) : ∃ t : Fin cfg4.N, (cfg4.win 3).flush t = true ∧ i ∈ ((cfg4.win 3).blk t).view.set := by
  have hi0 : (i 0).val < 151552 := (i 0).isLt
  have hi1 : (i 1).val < 128 := (i 1).isLt
  have hN : cfg4.N = 37 := N_4
  let t : Fin cfg4.N := ⟨(i 0).val / 4096, by rw [hN]; omega⟩
  obtain ⟨-, -, -, -, -, -, e0, e1⟩ := idx4 t
  have ht : t.val = (i 0).val / 4096 := rfl
  refine ⟨t, flush4_3 t, ?_⟩
  rw [mem_blk4]
  intro a
  match a with
  | ⟨0, _⟩ => show win4_3.index t (0 : Fin 2) * 4096 ≤ (i 0).val ∧ (i 0).val < win4_3.index t (0 : Fin 2) * 4096 + 4096; omega
  | ⟨1, _⟩ => show win4_3.index t (1 : Fin 2) * 128 ≤ (i 1).val ∧ (i 1).val < win4_3.index t (1 : Fin 2) * 128 + 128; omega

/-- THE OUTPUT ARRAY after region 4: `fin1` of the three input arrays as the region finds them. -/
theorem fin1_4 (c : Dev nD) : (dat4 (F := Ideal) V c).arrAt 3 cfg4.N
    = fin1 (V c (Pipeline.arrRef spec4 0) : Tab 151552) (V c (Pipeline.arrRef spec4 1) : Col 151552) (V c (Pipeline.arrRef spec4 2) : Tab 151552) :=
  (dat4 V c).arrAt_eq_of_cover 3 _ (fun t _ => flushed4_eq V c t) cover4

end Cert.KernelIdeal.RegionValue

end
-- ==== Proof.RegionScale5.lean ====
/-
  Edge scaling, region 5 of the message-passing program: the output table after the region is, as ONE function of
  the two input arrays, every lane of edge message `e` times that edge's weight (`Cert.Mp.edgeScale`).

  The region walks 100 blocks of 6000 rows.  At block `t` the body multiplies the message block by the weight
  block broadcast along the lanes; block `t` of each of the three arrays starts at row `6000 · t`, so what is
  written back at `t` is block `t` of `edgeScale`; row `r` lies in block `r / 6000`, so the blocks cover the table.
-/
import proofs.«141111_j5652176961768_1_alg».proof.Proof.Gen.KernelIdeal.Frame
import proofs.«141111_j5652176961768_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body's rectangles start at the origin. -/
theorem scale5_origin : (![0, 0] : Fin 2 → Nat) = fun _ => 0 := funext fun a => by fin_cases a <;> rfl

/-- A column `[a, 1]` broadcast along the lanes to `[a, b]` reads, at `(p, q)`, the column's entry `p`. -/
theorem scale5_column_broadcast {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The body's product at row `r`, lane `k` of a block: the message entry times the row's weight. -/
theorem scale5_payload (x0 : Vec Ideal S6000x128 .f32) (x1 : Vec Ideal S6000x1 .f32) (r : Fin 6000) (k : Fin 128) :
    k5_pay1 x0 x1 (ix2 r k) = x0 (ix2 r k) * x1 (ix2 r (0 : Fin 1)) := by
  unfold k5_pay1
  rw [mulf_apply, shapeCast_self, shapeCast_self]
  exact congrArg (x0 (ix2 r k) * ·) (scale5_column_broadcast x1 broadcasts_S6000x1_S6000x128 r k)

/-- The printed index maps, decided once over the 100 grid points: block `t` of each window is block row `t`,
    block column 0. -/
theorem scale5_index : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0 :=
  (by decide +kernel : ∀ t : Fin grid5.N, _)

/-- The message window's block at point `t` is rows `6000 t … 6000 t + 5999` of the message table. -/
theorem scale5_msg_block (c : Dev nD) (t : Fin cfg5.N) (r : Fin 6000) (k : Fin 128) (i : S600000x128.Idx)
    (hi0 : (i 0).val = t.val * 6000 + r.val) (hi1 : (i 1).val = k.val) :
    (iblk5 (F := Ideal) V c 0 t : Vec Ideal S6000x128 .f32) (ix2 r k)
      = (V c (Pipeline.arrRef spec5 0) : S600000x128.Idx → EReal) i := by
  obtain ⟨e0, e1, -⟩ := scale5_index t
  show (V c (Pipeline.arrRef spec5 0) : S600000x128.Idx → EReal) (((cfg5.win 0).blk t).view.emb (ix2 r k)) = _
  refine congrArg (V c (Pipeline.arrRef spec5 0) : S600000x128.Idx → EReal) (funext fun a => Fin.ext ?_)
  match a with
  | ⟨0, _⟩ => show win5_0.index t (0 : Fin 2) * 6000 + 1 * r.val = (i 0).val; rw [e0, hi0]; omega
  | ⟨1, _⟩ => show win5_0.index t (1 : Fin 2) * 128 + 1 * k.val = (i 1).val; rw [e1, hi1]; omega

/-- The weight window's block at point `t` is entries `6000 t … 6000 t + 5999` of the weight column. -/
theorem scale5_weight_block (c : Dev nD) (t : Fin cfg5.N) (r : Fin 6000) (i : S600000x1.Idx)
    (hi0 : (i 0).val = t.val * 6000 + r.val) :
    (iblk5 (F := Ideal) V c 1 t : Vec Ideal S6000x1 .f32) (ix2 r (0 : Fin 1))
      = (V c (Pipeline.arrRef spec5 1) : S600000x1.Idx → EReal) i := by
  obtain ⟨-, -, e0, e1, -⟩ := scale5_index t
  show (V c (Pipeline.arrRef spec5 1) : S600000x1.Idx → EReal) (((cfg5.win 1).blk t).view.emb (ix2 r (0 : Fin 1))) = _
  refine congrArg (V c (Pipeline.arrRef spec5 1) : S600000x1.Idx → EReal) (funext fun a => Fin.ext ?_)
  match a with
  | ⟨0, _⟩ => show win5_1.index t (0 : Fin 2) * 6000 + 1 * r.val = (i 0).val; rw [e0, hi0]; omega
  | ⟨1, _⟩ => show win5_1.index t (1 : Fin 2) * 1 + 1 * 0 = (i 1).val; have hlane : (i 1).val < 1 := (i 1).isLt; rw [e1]; omega

/-- WHAT POINT `t` WRITES BACK is block `t` of the scaled table. -/
theorem scale5_flushed (c : Dev nD) (t : Fin cfg5.N) :
    (dat5 (F := Ideal) V c).flushed 2 t = ((cfg5.win 2).blk t).view.read (Elt Ideal)
      (Cert.Mp.edgeScale (E := 600000) (V c (Pipeline.arrRef spec5 0)) (V c (Pipeline.arrRef spec5 1))) := by
  show (cfg5.win 2).cut (grid5.coords t) ((dat5 V c).after 2 t) = _
  rw [after5_2]
  unfold out5_2
  rw [View.canon_unit_zero scale5_origin]
  simp only [View.ld_unit_zero (S := S6000x128) scale5_origin, View.ld_unit_zero (S := S6000x1) scale5_origin]
  obtain ⟨-, -, -, -, e0, e1⟩ := scale5_index t
  funext j
  obtain ⟨r, k, rfl⟩ : ∃ (r : Fin 6000) (k : Fin 128), j = ix2 r k := ⟨j 0, j 1, eq_ix2 j⟩
  show k5_pay1 (iblk5 V c 0 t) (iblk5 V c 1 t) (ix2 r k)
    = Cert.Mp.edgeScale (E := 600000) (V c (Pipeline.arrRef spec5 0)) (V c (Pipeline.arrRef spec5 1)) (((cfg5.win 2).blk t).view.emb (ix2 r k))
  refine (scale5_payload (iblk5 V c 0 t) (iblk5 V c 1 t) r k).trans ?_
  unfold Cert.Mp.edgeScale
  have h0 : ((((cfg5.win 2).blk t).view.emb (ix2 r k)) 0).val = t.val * 6000 + r.val := by
    show win5_2.index t (0 : Fin 2) * 6000 + 1 * r.val = _; rw [e0]; omega
  have h1 : ((((cfg5.win 2).blk t).view.emb (ix2 r k)) 1).val = k.val := by
    show win5_2.index t (1 : Fin 2) * 128 + 1 * k.val = _; rw [e1]; omega
  rw [scale5_msg_block V c t r k _ h0 h1, scale5_weight_block V c t r (ix2 ((((cfg5.win 2).blk t).view.emb (ix2 r k)) 0) 0) h0]

/-- An index of the table is in point `t`'s block iff each coordinate is in the block's range on its axis. -/
theorem scale5_mem_block (t : Fin cfg5.N) (i : S600000x128.Idx) :
    i ∈ ((cfg5.win 2).blk t).view.set ↔ ∀ a : Fin 2, win5_2.index t a * S6000x128.size a ≤ (i a).val
      ∧ (i a).val < win5_2.index t a * S6000x128.size a + S6000x128.size a := by
  show i ∈ ((View.whole main_v51).slice (win5_2.rect t)).set ↔ _
  rw [View.set_slice_whole, Rect.mem_set_unit]
  exact Iff.rfl

/-- Row `r` of the table lies in the block of point `r / 6000`: the 100 blocks cover the table. -/
theorem scale5_cover (i : S600000x128.Idx) :
    ∃ t : Fin cfg5.N, (cfg5.win 2).flush t = true ∧ i ∈ ((cfg5.win 2).blk t).view.set := by
  have hrow : (i 0).val < 600000 := (i 0).isLt
  have hlane : (i 1).val < 128 := (i 1).isLt
  have hN : cfg5.N = 100 := N_5
  let t : Fin cfg5.N := ⟨(i 0).val / 6000, by rw [hN]; omega⟩
  obtain ⟨-, -, -, -, e0, e1⟩ := scale5_index t
  have ht : t.val = (i 0).val / 6000 := rfl
  refine ⟨t, flush5_2 t, ?_⟩
  rw [scale5_mem_block]
  intro a
  match a with
  | ⟨0, _⟩ =>
    show win5_2.index t (0 : Fin 2) * 6000 ≤ (i 0).val ∧ (i 0).val < win5_2.index t (0 : Fin 2) * 6000 + 6000
    rw [e0, ht]; omega
  | ⟨1, _⟩ =>
    show win5_2.index t (1 : Fin 2) * 128 ≤ (i 1).val ∧ (i 1).val < win5_2.index t (1 : Fin 2) * 128 + 128
    rw [e1]; omega

/-- THE TABLE after the region: every lane of each edge message times the edge's weight. -/
theorem scale5 (c : Dev nD) : (Gen.dat5 (F := Ideal) V c).arrAt 2 cfg5.N
    = Cert.Mp.edgeScale (E := 600000) (V c (Pipeline.arrRef spec5 0)) (V c (Pipeline.arrRef spec5 1)) :=
  (dat5 (F := Ideal) V c).arrAt_eq_of_cover 2 _ (fun t _ => scale5_flushed V c t) scale5_cover

end Cert.KernelIdeal.RegionValue

end
-- ==== Proof.RegionAdd6.lean ====
/-
  Elementwise addition, region 6 of the message-passing program: the output table after the region is, as ONE
  function of the two input tables, their entrywise sum.

  The region walks 37 blocks of 4096 rows.  At block `t` the body adds the two input blocks; block `t` of each of
  the three tables starts at row `4096 · t`, so what is written back at `t` is block `t` of the sum; row `r` lies in
  block `r / 4096`, so the blocks cover the table.
-/
import proofs.«141111_j5652176961768_1_alg».proof.Proof.Gen.KernelIdeal.Frame
import proofs.«141111_j5652176961768_1_alg».proof.Proof.Spec
import proofs.«141111_j5652176961768_1_alg».proof.Proof.KDefs
import Idealize.ShloMosaic.Lib.Pipeline.Value
import Idealize.ShloMosaic.Lib.ValueIdx
import Idealize.ShloMosaic.Lib.ValueLayout

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body's rectangles start at the origin. -/
theorem add6_origin : (![0, 0] : Fin 2 → Nat) = fun _ => 0 := funext fun a => by fin_cases a <;> rfl

/-- The body's sum at row `r`, lane `k` of a block: the two entries added. -/
theorem add6_payload (x0 x1 : Vec Ideal S4096x128 .f32) (r : Fin 4096) (k : Fin 128) :
    k6_pay1 x0 x1 (ix2 r k) = x0 (ix2 r k) + x1 (ix2 r k) := by
  unfold k6_pay1
  rw [addf_apply, shapeCast_self, shapeCast_self]

/-- The printed index maps, decided once over the 37 grid points: block `t` of each window is block row `t`,
    block column 0. -/
theorem add6_index : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0 :=
  (by decide +kernel : ∀ t : Fin grid6.N, _)

/-- The first input window's block at point `t` is rows `4096 t … 4096 t + 4095` of the first table. -/
theorem add6_left_block (c : Dev nD) (t : Fin cfg6.N) (r : Fin 4096) (k : Fin 128) (i : S151552x128.Idx)
    (hi0 : (i 0).val = t.val * 4096 + r.val) (hi1 : (i 1).val = k.val) :
    (iblk6 (F := Ideal) V c 0 t : Vec Ideal S4096x128 .f32) (ix2 r k)
      = (V c (Pipeline.arrRef spec6 0) : S151552x128.Idx → EReal) i := by
  obtain ⟨e0, e1, -⟩ := add6_index t
  show (V c (Pipeline.arrRef spec6 0) : S151552x128.Idx → EReal) (((cfg6.win 0).blk t).view.emb (ix2 r k)) = _
  refine congrArg (V c (Pipeline.arrRef spec6 0) : S151552x128.Idx → EReal) (funext fun a => Fin.ext ?_)
  match a with
  | ⟨0, _⟩ => show win6_0.index t (0 : Fin 2) * 4096 + 1 * r.val = (i 0).val; rw [e0, hi0]; omega
  | ⟨1, _⟩ => show win6_0.index t (1 : Fin 2) * 128 + 1 * k.val = (i 1).val; rw [e1, hi1]; omega

/-- The second input window's block at point `t` is rows `4096 t … 4096 t + 4095` of the second table. -/
theorem add6_right_block (c : Dev nD) (t : Fin cfg6.N) (r : Fin 4096) (k : Fin 128) (i : S151552x128.Idx)
    (hi0 : (i 0).val = t.val * 4096 + r.val) (hi1 : (i 1).val = k.val) :
    (iblk6 (F := Ideal) V c 1 t : Vec Ideal S4096x128 .f32) (ix2 r k)
      = (V c (Pipeline.arrRef spec6 1) : S151552x128.Idx → EReal) i := by
  obtain ⟨-, -, e0, e1, -⟩ := add6_index t
  show (V c (Pipeline.arrRef spec6 1) : S151552x128.Idx → EReal) (((cfg6.win 1).blk t).view.emb (ix2 r k)) = _
  refine congrArg (V c (Pipeline.arrRef spec6 1) : S151552x128.Idx → EReal) (funext fun a => Fin.ext ?_)
  match a with
  | ⟨0, _⟩ => show win6_1.index t (0 : Fin 2) * 4096 + 1 * r.val = (i 0).val; rw [e0, hi0]; omega
  | ⟨1, _⟩ => show win6_1.index t (1 : Fin 2) * 128 + 1 * k.val = (i 1).val; rw [e1, hi1]; omega

/-- WHAT POINT `t` WRITES BACK is block `t` of the entrywise sum. -/
theorem add6_flushed (c : Dev nD) (t : Fin cfg6.N) :
    (dat6 (F := Ideal) V c).flushed 2 t = ((cfg6.win 2).blk t).view.read (Elt Ideal)
      (Cert.Mp.addT (R := 151552) (V c (Pipeline.arrRef spec6 0)) (V c (Pipeline.arrRef spec6 1))) := by
  show (cfg6.win 2).cut (grid6.coords t) ((dat6 V c).after 2 t) = _
  rw [after6_2]
  unfold out6_2
  rw [View.canon_unit_zero add6_origin]
  simp only [View.ld_unit_zero (S := S4096x128) add6_origin]
  obtain ⟨-, -, -, -, e0, e1⟩ := add6_index t
  funext j
  obtain ⟨r, k, rfl⟩ : ∃ (r : Fin 4096) (k : Fin 128), j = ix2 r k := ⟨j 0, j 1, eq_ix2 j⟩
  show k6_pay1 (iblk6 V c 0 t) (iblk6 V c 1 t) (ix2 r k)
    = Cert.Mp.addT (R := 151552) (V c (Pipeline.arrRef spec6 0)) (V c (Pipeline.arrRef spec6 1)) (((cfg6.win 2).blk t).view.emb (ix2 r k))
  refine (add6_payload (iblk6 V c 0 t) (iblk6 V c 1 t) r k).trans ?_
  unfold Cert.Mp.addT
  have h0 : ((((cfg6.win 2).blk t).view.emb (ix2 r k)) 0).val = t.val * 4096 + r.val := by
    show win6_2.index t (0 : Fin 2) * 4096 + 1 * r.val = _; rw [e0]; omega
  have h1 : ((((cfg6.win 2).blk t).view.emb (ix2 r k)) 1).val = k.val := by
    show win6_2.index t (1 : Fin 2) * 128 + 1 * k.val = _; rw [e1]; omega
  rw [add6_left_block V c t r k _ h0 h1, add6_right_block V c t r k _ h0 h1]

/-- An index of the table is in point `t`'s block iff each coordinate is in the block's range on its axis. -/
theorem add6_mem_block (t : Fin cfg6.N) (i : S151552x128.Idx) :
    i ∈ ((cfg6.win 2).blk t).view.set ↔ ∀ a : Fin 2, win6_2.index t a * S4096x128.size a ≤ (i a).val
      ∧ (i a).val < win6_2.index t a * S4096x128.size a + S4096x128.size a := by
  show i ∈ ((View.whole main_v55).slice (win6_2.rect t)).set ↔ _
  rw [View.set_slice_whole, Rect.mem_set_unit]
  exact Iff.rfl

/-- Row `r` of the table lies in the block of point `r / 4096`: the 37 blocks cover the table. -/
theorem add6_cover (i : S151552x128.Idx) :
    ∃ t : Fin cfg6.N, (cfg6.win 2).flush t = true ∧ i ∈ ((cfg6.win 2).blk t).view.set := by
  have hrow : (i 0).val < 151552 := (i 0).isLt
  have hlane : (i 1).val < 128 := (i 1).isLt
  have hN : cfg6.N = 37 := N_6
  let t : Fin cfg6.N := ⟨(i 0).val / 4096, by rw [hN]; omega⟩
  obtain ⟨-, -, -, -, e0, e1⟩ := add6_index t
  have ht : t.val = (i 0).val / 4096 := rfl
  refine ⟨t, flush6_2 t, ?_⟩
  rw [add6_mem_block]
  intro a
  match a with
  | ⟨0, _⟩ =>
    show win6_2.index t (0 : Fin 2) * 4096 ≤ (i 0).val ∧ (i 0).val < win6_2.index t (0 : Fin 2) * 4096 + 4096
    rw [e0, ht]; omega
  | ⟨1, _⟩ =>
    show win6_2.index t (1 : Fin 2) * 128 ≤ (i 1).val ∧ (i 1).val < win6_2.index t (1 : Fin 2) * 128 + 128
    rw [e1]; omega

/-- THE TABLE after the region: the entrywise sum of the two input tables. -/
theorem add6 (c : Dev nD) : (Gen.dat6 (F := Ideal) V c).arrAt 2 cfg6.N
    = Cert.Mp.addT (R := 151552) (V c (Pipeline.arrRef spec6 0)) (V c (Pipeline.arrRef spec6 1)) :=
  (dat6 (F := Ideal) V c).arrAt_eq_of_cover 2 _ (fun t _ => add6_flushed V c t) add6_cover

end Cert.KernelIdeal.RegionValue

end
-- ==== Proof.RegionScale7.lean ====
/-
  Edge scaling, region 7 of the message-passing program: the output table after the region is, as ONE function of
  the two input arrays, every lane of edge message `e` times that edge's weight (`Cert.Mp.edgeScale`).

  The region walks 100 blocks of 6000 rows.  At block `t` the body multiplies the message block by the weight
  block broadcast along the lanes; block `t` of each of the three arrays starts at row `6000 · t`, so what is
  written back at `t` is block `t` of `edgeScale`; row `r` lies in block `r / 6000`, so the blocks cover the table.
-/
import proofs.«141111_j5652176961768_1_alg».proof.Proof.Gen.KernelIdeal.Frame
import proofs.«141111_j5652176961768_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body's rectangles start at the origin. -/
theorem scale7_origin : (![0, 0] : Fin 2 → Nat) = fun _ => 0 := funext fun a => by fin_cases a <;> rfl

/-- A column `[a, 1]` broadcast along the lanes to `[a, b]` reads, at `(p, q)`, the column's entry `p`. -/
theorem scale7_column_broadcast {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The body's product at row `r`, lane `k` of a block: the message entry times the row's weight. -/
theorem scale7_payload (x0 : Vec Ideal S6000x128 .f32) (x1 : Vec Ideal S6000x1 .f32) (r : Fin 6000) (k : Fin 128) :
    k7_pay1 x0 x1 (ix2 r k) = x0 (ix2 r k) * x1 (ix2 r (0 : Fin 1)) := by
  unfold k7_pay1
  rw [mulf_apply, shapeCast_self, shapeCast_self]
  exact congrArg (x0 (ix2 r k) * ·) (scale7_column_broadcast x1 broadcasts_S6000x1_S6000x128 r k)

/-- The printed index maps, decided once over the 100 grid points: block `t` of each window is block row `t`,
    block column 0. -/
theorem scale7_index : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0 :=
  (by decide +kernel : ∀ t : Fin grid7.N, _)

/-- The message window's block at point `t` is rows `6000 t … 6000 t + 5999` of the message table. -/
theorem scale7_msg_block (c : Dev nD) (t : Fin cfg7.N) (r : Fin 6000) (k : Fin 128) (i : S600000x128.Idx)
    (hi0 : (i 0).val = t.val * 6000 + r.val) (hi1 : (i 1).val = k.val) :
    (iblk7 (F := Ideal) V c 0 t : Vec Ideal S6000x128 .f32) (ix2 r k)
      = (V c (Pipeline.arrRef spec7 0) : S600000x128.Idx → EReal) i := by
  obtain ⟨e0, e1, -⟩ := scale7_index t
  show (V c (Pipeline.arrRef spec7 0) : S600000x128.Idx → EReal) (((cfg7.win 0).blk t).view.emb (ix2 r k)) = _
  refine congrArg (V c (Pipeline.arrRef spec7 0) : S600000x128.Idx → EReal) (funext fun a => Fin.ext ?_)
  match a with
  | ⟨0, _⟩ => show win7_0.index t (0 : Fin 2) * 6000 + 1 * r.val = (i 0).val; rw [e0, hi0]; omega
  | ⟨1, _⟩ => show win7_0.index t (1 : Fin 2) * 128 + 1 * k.val = (i 1).val; rw [e1, hi1]; omega

/-- The weight window's block at point `t` is entries `6000 t … 6000 t + 5999` of the weight column. -/
theorem scale7_weight_block (c : Dev nD) (t : Fin cfg7.N) (r : Fin 6000) (i : S600000x1.Idx)
    (hi0 : (i 0).val = t.val * 6000 + r.val) :
    (iblk7 (F := Ideal) V c 1 t : Vec Ideal S6000x1 .f32) (ix2 r (0 : Fin 1))
      = (V c (Pipeline.arrRef spec7 1) : S600000x1.Idx → EReal) i := by
  obtain ⟨-, -, e0, e1, -⟩ := scale7_index t
  show (V c (Pipeline.arrRef spec7 1) : S600000x1.Idx → EReal) (((cfg7.win 1).blk t).view.emb (ix2 r (0 : Fin 1))) = _
  refine congrArg (V c (Pipeline.arrRef spec7 1) : S600000x1.Idx → EReal) (funext fun a => Fin.ext ?_)
  match a with
  | ⟨0, _⟩ => show win7_1.index t (0 : Fin 2) * 6000 + 1 * r.val = (i 0).val; rw [e0, hi0]; omega
  | ⟨1, _⟩ => show win7_1.index t (1 : Fin 2) * 1 + 1 * 0 = (i 1).val; have hlane : (i 1).val < 1 := (i 1).isLt; rw [e1]; omega

/-- WHAT POINT `t` WRITES BACK is block `t` of the scaled table. -/
theorem scale7_flushed (c : Dev nD) (t : Fin cfg7.N) :
    (dat7 (F := Ideal) V c).flushed 2 t = ((cfg7.win 2).blk t).view.read (Elt Ideal)
      (Cert.Mp.edgeScale (E := 600000) (V c (Pipeline.arrRef spec7 0)) (V c (Pipeline.arrRef spec7 1))) := by
  show (cfg7.win 2).cut (grid7.coords t) ((dat7 V c).after 2 t) = _
  rw [after7_2]
  unfold out7_2
  rw [View.canon_unit_zero scale7_origin]
  simp only [View.ld_unit_zero (S := S6000x128) scale7_origin, View.ld_unit_zero (S := S6000x1) scale7_origin]
  obtain ⟨-, -, -, -, e0, e1⟩ := scale7_index t
  funext j
  obtain ⟨r, k, rfl⟩ : ∃ (r : Fin 6000) (k : Fin 128), j = ix2 r k := ⟨j 0, j 1, eq_ix2 j⟩
  show k7_pay1 (iblk7 V c 0 t) (iblk7 V c 1 t) (ix2 r k)
    = Cert.Mp.edgeScale (E := 600000) (V c (Pipeline.arrRef spec7 0)) (V c (Pipeline.arrRef spec7 1)) (((cfg7.win 2).blk t).view.emb (ix2 r k))
  refine (scale7_payload (iblk7 V c 0 t) (iblk7 V c 1 t) r k).trans ?_
  unfold Cert.Mp.edgeScale
  have h0 : ((((cfg7.win 2).blk t).view.emb (ix2 r k)) 0).val = t.val * 6000 + r.val := by
    show win7_2.index t (0 : Fin 2) * 6000 + 1 * r.val = _; rw [e0]; omega
  have h1 : ((((cfg7.win 2).blk t).view.emb (ix2 r k)) 1).val = k.val := by
    show win7_2.index t (1 : Fin 2) * 128 + 1 * k.val = _; rw [e1]; omega
  rw [scale7_msg_block V c t r k _ h0 h1, scale7_weight_block V c t r (ix2 ((((cfg7.win 2).blk t).view.emb (ix2 r k)) 0) 0) h0]

/-- An index of the table is in point `t`'s block iff each coordinate is in the block's range on its axis. -/
theorem scale7_mem_block (t : Fin cfg7.N) (i : S600000x128.Idx) :
    i ∈ ((cfg7.win 2).blk t).view.set ↔ ∀ a : Fin 2, win7_2.index t a * S6000x128.size a ≤ (i a).val
      ∧ (i a).val < win7_2.index t a * S6000x128.size a + S6000x128.size a := by
  show i ∈ ((View.whole main_v67).slice (win7_2.rect t)).set ↔ _
  rw [View.set_slice_whole, Rect.mem_set_unit]
  exact Iff.rfl

/-- Row `r` of the table lies in the block of point `r / 6000`: the 100 blocks cover the table. -/
theorem scale7_cover (i : S600000x128.Idx) :
    ∃ t : Fin cfg7.N, (cfg7.win 2).flush t = true ∧ i ∈ ((cfg7.win 2).blk t).view.set := by
  have hrow : (i 0).val < 600000 := (i 0).isLt
  have hlane : (i 1).val < 128 := (i 1).isLt
  have hN : cfg7.N = 100 := N_7
  let t : Fin cfg7.N := ⟨(i 0).val / 6000, by rw [hN]; omega⟩
  obtain ⟨-, -, -, -, e0, e1⟩ := scale7_index t
  have ht : t.val = (i 0).val / 6000 := rfl
  refine ⟨t, flush7_2 t, ?_⟩
  rw [scale7_mem_block]
  intro a
  match a with
  | ⟨0, _⟩ =>
    show win7_2.index t (0 : Fin 2) * 6000 ≤ (i 0).val ∧ (i 0).val < win7_2.index t (0 : Fin 2) * 6000 + 6000
    rw [e0, ht]; omega
  | ⟨1, _⟩ =>
    show win7_2.index t (1 : Fin 2) * 128 ≤ (i 1).val ∧ (i 1).val < win7_2.index t (1 : Fin 2) * 128 + 128
    rw [e1]; omega

/-- THE TABLE after the region: every lane of each edge message times the edge's weight. -/
theorem scale7 (c : Dev nD) : (Gen.dat7 (F := Ideal) V c).arrAt 2 cfg7.N
    = Cert.Mp.edgeScale (E := 600000) (V c (Pipeline.arrRef spec7 0)) (V c (Pipeline.arrRef spec7 1)) :=
  (dat7 (F := Ideal) V c).arrAt_eq_of_cover 2 _ (fun t _ => scale7_flushed V c t) scale7_cover

end Cert.KernelIdeal.RegionValue

end
-- ==== Proof.RegionAdd8.lean ====
/-
  Elementwise addition, region 8 of the message-passing program: the output table after the region is, as ONE
  function of the two input tables, their entrywise sum.

  The region walks 37 blocks of 4096 rows.  At block `t` the body adds the two input blocks; block `t` of each of
  the three tables starts at row `4096 · t`, so what is written back at `t` is block `t` of the sum; row `r` lies in
  block `r / 4096`, so the blocks cover the table.
-/
import proofs.«141111_j5652176961768_1_alg».proof.Proof.Gen.KernelIdeal.Frame
import proofs.«141111_j5652176961768_1_alg».proof.Proof.Spec
import proofs.«141111_j5652176961768_1_alg».proof.Proof.KDefs
import Idealize.ShloMosaic.Lib.Pipeline.Value
import Idealize.ShloMosaic.Lib.ValueIdx
import Idealize.ShloMosaic.Lib.ValueLayout

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body's rectangles start at the origin. -/
theorem add8_origin : (![0, 0] : Fin 2 → Nat) = fun _ => 0 := funext fun a => by fin_cases a <;> rfl

/-- The body's sum at row `r`, lane `k` of a block: the two entries added. -/
theorem add8_payload (x0 x1 : Vec Ideal S4096x128 .f32) (r : Fin 4096) (k : Fin 128) :
    k8_pay1 x0 x1 (ix2 r k) = x0 (ix2 r k) + x1 (ix2 r k) := by
  unfold k8_pay1
  rw [addf_apply, shapeCast_self, shapeCast_self]

/-- The printed index maps, decided once over the 37 grid points: block `t` of each window is block row `t`,
    block column 0. -/
theorem add8_index : ∀ t : Fin cfg8.N, win8_0.index t (0 : Fin 2) = t.val ∧ win8_0.index t (1 : Fin 2) = 0
    ∧ win8_1.index t (0 : Fin 2) = t.val ∧ win8_1.index t (1 : Fin 2) = 0
    ∧ win8_2.index t (0 : Fin 2) = t.val ∧ win8_2.index t (1 : Fin 2) = 0 :=
  (by decide +kernel : ∀ t : Fin grid8.N, _)

/-- The first input window's block at point `t` is rows `4096 t … 4096 t + 4095` of the first table. -/
theorem add8_left_block (c : Dev nD) (t : Fin cfg8.N) (r : Fin 4096) (k : Fin 128) (i : S151552x128.Idx)
    (hi0 : (i 0).val = t.val * 4096 + r.val) (hi1 : (i 1).val = k.val) :
    (iblk8 (F := Ideal) V c 0 t : Vec Ideal S4096x128 .f32) (ix2 r k)
      = (V c (Pipeline.arrRef spec8 0) : S151552x128.Idx → EReal) i := by
  obtain ⟨e0, e1, -⟩ := add8_index t
  show (V c (Pipeline.arrRef spec8 0) : S151552x128.Idx → EReal) (((cfg8.win 0).blk t).view.emb (ix2 r k)) = _
  refine congrArg (V c (Pipeline.arrRef spec8 0) : S151552x128.Idx → EReal) (funext fun a => Fin.ext ?_)
  match a with
  | ⟨0, _⟩ => show win8_0.index t (0 : Fin 2) * 4096 + 1 * r.val = (i 0).val; rw [e0, hi0]; omega
  | ⟨1, _⟩ => show win8_0.index t (1 : Fin 2) * 128 + 1 * k.val = (i 1).val; rw [e1, hi1]; omega

/-- The second input window's block at point `t` is rows `4096 t … 4096 t + 4095` of the second table. -/
theorem add8_right_block (c : Dev nD) (t : Fin cfg8.N) (r : Fin 4096) (k : Fin 128) (i : S151552x128.Idx)
    (hi0 : (i 0).val = t.val * 4096 + r.val) (hi1 : (i 1).val = k.val) :
    (iblk8 (F := Ideal) V c 1 t : Vec Ideal S4096x128 .f32) (ix2 r k)
      = (V c (Pipeline.arrRef spec8 1) : S151552x128.Idx → EReal) i := by
  obtain ⟨-, -, e0, e1, -⟩ := add8_index t
  show (V c (Pipeline.arrRef spec8 1) : S151552x128.Idx → EReal) (((cfg8.win 1).blk t).view.emb (ix2 r k)) = _
  refine congrArg (V c (Pipeline.arrRef spec8 1) : S151552x128.Idx → EReal) (funext fun a => Fin.ext ?_)
  match a with
  | ⟨0, _⟩ => show win8_1.index t (0 : Fin 2) * 4096 + 1 * r.val = (i 0).val; rw [e0, hi0]; omega
  | ⟨1, _⟩ => show win8_1.index t (1 : Fin 2) * 128 + 1 * k.val = (i 1).val; rw [e1, hi1]; omega

/-- WHAT POINT `t` WRITES BACK is block `t` of the entrywise sum. -/
theorem add8_flushed (c : Dev nD) (t : Fin cfg8.N) :
    (dat8 (F := Ideal) V c).flushed 2 t = ((cfg8.win 2).blk t).view.read (Elt Ideal)
      (Cert.Mp.addT (R := 151552) (V c (Pipeline.arrRef spec8 0)) (V c (Pipeline.arrRef spec8 1))) := by
  show (cfg8.win 2).cut (grid8.coords t) ((dat8 V c).after 2 t) = _
  rw [after8_2]
  unfold out8_2
  rw [View.canon_unit_zero add8_origin]
  simp only [View.ld_unit_zero (S := S4096x128) add8_origin]
  obtain ⟨-, -, -, -, e0, e1⟩ := add8_index t
  funext j
  obtain ⟨r, k, rfl⟩ : ∃ (r : Fin 4096) (k : Fin 128), j = ix2 r k := ⟨j 0, j 1, eq_ix2 j⟩
  show k8_pay1 (iblk8 V c 0 t) (iblk8 V c 1 t) (ix2 r k)
    = Cert.Mp.addT (R := 151552) (V c (Pipeline.arrRef spec8 0)) (V c (Pipeline.arrRef spec8 1)) (((cfg8.win 2).blk t).view.emb (ix2 r k))
  refine (add8_payload (iblk8 V c 0 t) (iblk8 V c 1 t) r k).trans ?_
  unfold Cert.Mp.addT
  have h0 : ((((cfg8.win 2).blk t).view.emb (ix2 r k)) 0).val = t.val * 4096 + r.val := by
    show win8_2.index t (0 : Fin 2) * 4096 + 1 * r.val = _; rw [e0]; omega
  have h1 : ((((cfg8.win 2).blk t).view.emb (ix2 r k)) 1).val = k.val := by
    show win8_2.index t (1 : Fin 2) * 128 + 1 * k.val = _; rw [e1]; omega
  rw [add8_left_block V c t r k _ h0 h1, add8_right_block V c t r k _ h0 h1]

/-- An index of the table is in point `t`'s block iff each coordinate is in the block's range on its axis. -/
theorem add8_mem_block (t : Fin cfg8.N) (i : S151552x128.Idx) :
    i ∈ ((cfg8.win 2).blk t).view.set ↔ ∀ a : Fin 2, win8_2.index t a * S4096x128.size a ≤ (i a).val
      ∧ (i a).val < win8_2.index t a * S4096x128.size a + S4096x128.size a := by
  show i ∈ ((View.whole main_v71).slice (win8_2.rect t)).set ↔ _
  rw [View.set_slice_whole, Rect.mem_set_unit]
  exact Iff.rfl

/-- Row `r` of the table lies in the block of point `r / 4096`: the 37 blocks cover the table. -/
theorem add8_cover (i : S151552x128.Idx) :
    ∃ t : Fin cfg8.N, (cfg8.win 2).flush t = true ∧ i ∈ ((cfg8.win 2).blk t).view.set := by
  have hrow : (i 0).val < 151552 := (i 0).isLt
  have hlane : (i 1).val < 128 := (i 1).isLt
  have hN : cfg8.N = 37 := N_8
  let t : Fin cfg8.N := ⟨(i 0).val / 4096, by rw [hN]; omega⟩
  obtain ⟨-, -, -, -, e0, e1⟩ := add8_index t
  have ht : t.val = (i 0).val / 4096 := rfl
  refine ⟨t, flush8_2 t, ?_⟩
  rw [add8_mem_block]
  intro a
  match a with
  | ⟨0, _⟩ =>
    show win8_2.index t (0 : Fin 2) * 4096 ≤ (i 0).val ∧ (i 0).val < win8_2.index t (0 : Fin 2) * 4096 + 4096
    rw [e0, ht]; omega
  | ⟨1, _⟩ =>
    show win8_2.index t (1 : Fin 2) * 128 ≤ (i 1).val ∧ (i 1).val < win8_2.index t (1 : Fin 2) * 128 + 128
    rw [e1]; omega

/-- THE TABLE after the region: the entrywise sum of the two input tables. -/
theorem add8 (c : Dev nD) : (Gen.dat8 (F := Ideal) V c).arrAt 2 cfg8.N
    = Cert.Mp.addT (R := 151552) (V c (Pipeline.arrRef spec8 0)) (V c (Pipeline.arrRef spec8 1)) :=
  (dat8 (F := Ideal) V c).arrAt_eq_of_cover 2 _ (fun t _ => add8_flushed V c t) add8_cover

end Cert.KernelIdeal.RegionValue

end
-- ==== Proof.RegionScale9.lean ====
/-
  Edge scaling, region 9 of the message-passing program: the output table after the region is, as ONE function of
  the two input arrays, every lane of edge message `e` times that edge's weight (`Cert.Mp.edgeScale`).

  The region walks 100 blocks of 6000 rows.  At block `t` the body multiplies the message block by the weight
  block broadcast along the lanes; block `t` of each of the three arrays starts at row `6000 · t`, so what is
  written back at `t` is block `t` of `edgeScale`; row `r` lies in block `r / 6000`, so the blocks cover the table.
-/
import proofs.«141111_j5652176961768_1_alg».proof.Proof.Gen.KernelIdeal.Frame
import proofs.«141111_j5652176961768_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body's rectangles start at the origin. -/
theorem scale9_origin : (![0, 0] : Fin 2 → Nat) = fun _ => 0 := funext fun a => by fin_cases a <;> rfl

/-- A column `[a, 1]` broadcast along the lanes to `[a, b]` reads, at `(p, q)`, the column's entry `p`. -/
theorem scale9_column_broadcast {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The body's product at row `r`, lane `k` of a block: the message entry times the row's weight. -/
theorem scale9_payload (x0 : Vec Ideal S6000x128 .f32) (x1 : Vec Ideal S6000x1 .f32) (r : Fin 6000) (k : Fin 128) :
    k9_pay1 x0 x1 (ix2 r k) = x0 (ix2 r k) * x1 (ix2 r (0 : Fin 1)) := by
  unfold k9_pay1
  rw [mulf_apply, shapeCast_self, shapeCast_self]
  exact congrArg (x0 (ix2 r k) * ·) (scale9_column_broadcast x1 broadcasts_S6000x1_S6000x128 r k)

/-- The printed index maps, decided once over the 100 grid points: block `t` of each window is block row `t`,
    block column 0. -/
theorem scale9_index : ∀ t : Fin cfg9.N, win9_0.index t (0 : Fin 2) = t.val ∧ win9_0.index t (1 : Fin 2) = 0
    ∧ win9_1.index t (0 : Fin 2) = t.val ∧ win9_1.index t (1 : Fin 2) = 0
    ∧ win9_2.index t (0 : Fin 2) = t.val ∧ win9_2.index t (1 : Fin 2) = 0 :=
  (by decide +kernel : ∀ t : Fin grid9.N, _)

/-- The message window's block at point `t` is rows `6000 t … 6000 t + 5999` of the message table. -/
theorem scale9_msg_block (c : Dev nD) (t : Fin cfg9.N) (r : Fin 6000) (k : Fin 128) (i : S600000x128.Idx)
    (hi0 : (i 0).val = t.val * 6000 + r.val) (hi1 : (i 1).val = k.val) :
    (iblk9 (F := Ideal) V c 0 t : Vec Ideal S6000x128 .f32) (ix2 r k)
      = (V c (Pipeline.arrRef spec9 0) : S600000x128.Idx → EReal) i := by
  obtain ⟨e0, e1, -⟩ := scale9_index t
  show (V c (Pipeline.arrRef spec9 0) : S600000x128.Idx → EReal) (((cfg9.win 0).blk t).view.emb (ix2 r k)) = _
  refine congrArg (V c (Pipeline.arrRef spec9 0) : S600000x128.Idx → EReal) (funext fun a => Fin.ext ?_)
  match a with
  | ⟨0, _⟩ => show win9_0.index t (0 : Fin 2) * 6000 + 1 * r.val = (i 0).val; rw [e0, hi0]; omega
  | ⟨1, _⟩ => show win9_0.index t (1 : Fin 2) * 128 + 1 * k.val = (i 1).val; rw [e1, hi1]; omega

/-- The weight window's block at point `t` is entries `6000 t … 6000 t + 5999` of the weight column. -/
theorem scale9_weight_block (c : Dev nD) (t : Fin cfg9.N) (r : Fin 6000) (i : S600000x1.Idx)
    (hi0 : (i 0).val = t.val * 6000 + r.val) :
    (iblk9 (F := Ideal) V c 1 t : Vec Ideal S6000x1 .f32) (ix2 r (0 : Fin 1))
      = (V c (Pipeline.arrRef spec9 1) : S600000x1.Idx → EReal) i := by
  obtain ⟨-, -, e0, e1, -⟩ := scale9_index t
  show (V c (Pipeline.arrRef spec9 1) : S600000x1.Idx → EReal) (((cfg9.win 1).blk t).view.emb (ix2 r (0 : Fin 1))) = _
  refine congrArg (V c (Pipeline.arrRef spec9 1) : S600000x1.Idx → EReal) (funext fun a => Fin.ext ?_)
  match a with
  | ⟨0, _⟩ => show win9_1.index t (0 : Fin 2) * 6000 + 1 * r.val = (i 0).val; rw [e0, hi0]; omega
  | ⟨1, _⟩ => show win9_1.index t (1 : Fin 2) * 1 + 1 * 0 = (i 1).val; have hlane : (i 1).val < 1 := (i 1).isLt; rw [e1]; omega

/-- WHAT POINT `t` WRITES BACK is block `t` of the scaled table. -/
theorem scale9_flushed (c : Dev nD) (t : Fin cfg9.N) :
    (dat9 (F := Ideal) V c).flushed 2 t = ((cfg9.win 2).blk t).view.read (Elt Ideal)
      (Cert.Mp.edgeScale (E := 600000) (V c (Pipeline.arrRef spec9 0)) (V c (Pipeline.arrRef spec9 1))) := by
  show (cfg9.win 2).cut (grid9.coords t) ((dat9 V c).after 2 t) = _
  rw [after9_2]
  unfold out9_2
  rw [View.canon_unit_zero scale9_origin]
  simp only [View.ld_unit_zero (S := S6000x128) scale9_origin, View.ld_unit_zero (S := S6000x1) scale9_origin]
  obtain ⟨-, -, -, -, e0, e1⟩ := scale9_index t
  funext j
  obtain ⟨r, k, rfl⟩ : ∃ (r : Fin 6000) (k : Fin 128), j = ix2 r k := ⟨j 0, j 1, eq_ix2 j⟩
  show k9_pay1 (iblk9 V c 0 t) (iblk9 V c 1 t) (ix2 r k)
    = Cert.Mp.edgeScale (E := 600000) (V c (Pipeline.arrRef spec9 0)) (V c (Pipeline.arrRef spec9 1)) (((cfg9.win 2).blk t).view.emb (ix2 r k))
  refine (scale9_payload (iblk9 V c 0 t) (iblk9 V c 1 t) r k).trans ?_
  unfold Cert.Mp.edgeScale
  have h0 : ((((cfg9.win 2).blk t).view.emb (ix2 r k)) 0).val = t.val * 6000 + r.val := by
    show win9_2.index t (0 : Fin 2) * 6000 + 1 * r.val = _; rw [e0]; omega
  have h1 : ((((cfg9.win 2).blk t).view.emb (ix2 r k)) 1).val = k.val := by
    show win9_2.index t (1 : Fin 2) * 128 + 1 * k.val = _; rw [e1]; omega
  rw [scale9_msg_block V c t r k _ h0 h1, scale9_weight_block V c t r (ix2 ((((cfg9.win 2).blk t).view.emb (ix2 r k)) 0) 0) h0]

/-- An index of the table is in point `t`'s block iff each coordinate is in the block's range on its axis. -/
theorem scale9_mem_block (t : Fin cfg9.N) (i : S600000x128.Idx) :
    i ∈ ((cfg9.win 2).blk t).view.set ↔ ∀ a : Fin 2, win9_2.index t a * S6000x128.size a ≤ (i a).val
      ∧ (i a).val < win9_2.index t a * S6000x128.size a + S6000x128.size a := by
  show i ∈ ((View.whole main_v84).slice (win9_2.rect t)).set ↔ _
  rw [View.set_slice_whole, Rect.mem_set_unit]
  exact Iff.rfl

/-- Row `r` of the table lies in the block of point `r / 6000`: the 100 blocks cover the table. -/
theorem scale9_cover (i : S600000x128.Idx) :
    ∃ t : Fin cfg9.N, (cfg9.win 2).flush t = true ∧ i ∈ ((cfg9.win 2).blk t).view.set := by
  have hrow : (i 0).val < 600000 := (i 0).isLt
  have hlane : (i 1).val < 128 := (i 1).isLt
  have hN : cfg9.N = 100 := N_9
  let t : Fin cfg9.N := ⟨(i 0).val / 6000, by rw [hN]; omega⟩
  obtain ⟨-, -, -, -, e0, e1⟩ := scale9_index t
  have ht : t.val = (i 0).val / 6000 := rfl
  refine ⟨t, flush9_2 t, ?_⟩
  rw [scale9_mem_block]
  intro a
  match a with
  | ⟨0, _⟩ =>
    show win9_2.index t (0 : Fin 2) * 6000 ≤ (i 0).val ∧ (i 0).val < win9_2.index t (0 : Fin 2) * 6000 + 6000
    rw [e0, ht]; omega
  | ⟨1, _⟩ =>
    show win9_2.index t (1 : Fin 2) * 128 ≤ (i 1).val ∧ (i 1).val < win9_2.index t (1 : Fin 2) * 128 + 128
    rw [e1]; omega

/-- THE TABLE after the region: every lane of each edge message times the edge's weight. -/
theorem scale9 (c : Dev nD) : (Gen.dat9 (F := Ideal) V c).arrAt 2 cfg9.N
    = Cert.Mp.edgeScale (E := 600000) (V c (Pipeline.arrRef spec9 0)) (V c (Pipeline.arrRef spec9 1)) :=
  (dat9 (F := Ideal) V c).arrAt_eq_of_cover 2 _ (fun t _ => scale9_flushed V c t) scale9_cover

end Cert.KernelIdeal.RegionValue

end
-- ==== Proof.RegionAdd10.lean ====
/-
  Elementwise addition, region 10 of the message-passing program: the output table after the region is, as ONE
  function of the two input tables, their entrywise sum.

  The region walks 37 blocks of 4096 rows.  At block `t` the body adds the two input blocks; block `t` of each of
  the three tables starts at row `4096 · t`, so what is written back at `t` is block `t` of the sum; row `r` lies in
  block `r / 4096`, so the blocks cover the table.
-/
import proofs.«141111_j5652176961768_1_alg».proof.Proof.Gen.KernelIdeal.Frame
import proofs.«141111_j5652176961768_1_alg».proof.Proof.Spec
import proofs.«141111_j5652176961768_1_alg».proof.Proof.KDefs
import Idealize.ShloMosaic.Lib.Pipeline.Value
import Idealize.ShloMosaic.Lib.ValueIdx
import Idealize.ShloMosaic.Lib.ValueLayout

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body's rectangles start at the origin. -/
theorem add10_origin : (![0, 0] : Fin 2 → Nat) = fun _ => 0 := funext fun a => by fin_cases a <;> rfl

/-- The body's sum at row `r`, lane `k` of a block: the two entries added. -/
theorem add10_payload (x0 x1 : Vec Ideal S4096x128 .f32) (r : Fin 4096) (k : Fin 128) :
    k10_pay1 x0 x1 (ix2 r k) = x0 (ix2 r k) + x1 (ix2 r k) := by
  unfold k10_pay1
  rw [addf_apply, shapeCast_self, shapeCast_self]

/-- The printed index maps, decided once over the 37 grid points: block `t` of each window is block row `t`,
    block column 0. -/
theorem add10_index : ∀ t : Fin cfg10.N, win10_0.index t (0 : Fin 2) = t.val ∧ win10_0.index t (1 : Fin 2) = 0
    ∧ win10_1.index t (0 : Fin 2) = t.val ∧ win10_1.index t (1 : Fin 2) = 0
    ∧ win10_2.index t (0 : Fin 2) = t.val ∧ win10_2.index t (1 : Fin 2) = 0 :=
  (by decide +kernel : ∀ t : Fin grid10.N, _)

/-- The first input window's block at point `t` is rows `4096 t … 4096 t + 4095` of the first table. -/
theorem add10_left_block (c : Dev nD) (t : Fin cfg10.N) (r : Fin 4096) (k : Fin 128) (i : S151552x128.Idx)
    (hi0 : (i 0).val = t.val * 4096 + r.val) (hi1 : (i 1).val = k.val) :
    (iblk10 (F := Ideal) V c 0 t : Vec Ideal S4096x128 .f32) (ix2 r k)
      = (V c (Pipeline.arrRef spec10 0) : S151552x128.Idx → EReal) i := by
  obtain ⟨e0, e1, -⟩ := add10_index t
  show (V c (Pipeline.arrRef spec10 0) : S151552x128.Idx → EReal) (((cfg10.win 0).blk t).view.emb (ix2 r k)) = _
  refine congrArg (V c (Pipeline.arrRef spec10 0) : S151552x128.Idx → EReal) (funext fun a => Fin.ext ?_)
  match a with
  | ⟨0, _⟩ => show win10_0.index t (0 : Fin 2) * 4096 + 1 * r.val = (i 0).val; rw [e0, hi0]; omega
  | ⟨1, _⟩ => show win10_0.index t (1 : Fin 2) * 128 + 1 * k.val = (i 1).val; rw [e1, hi1]; omega

/-- The second input window's block at point `t` is rows `4096 t … 4096 t + 4095` of the second table. -/
theorem add10_right_block (c : Dev nD) (t : Fin cfg10.N) (r : Fin 4096) (k : Fin 128) (i : S151552x128.Idx)
    (hi0 : (i 0).val = t.val * 4096 + r.val) (hi1 : (i 1).val = k.val) :
    (iblk10 (F := Ideal) V c 1 t : Vec Ideal S4096x128 .f32) (ix2 r k)
      = (V c (Pipeline.arrRef spec10 1) : S151552x128.Idx → EReal) i := by
  obtain ⟨-, -, e0, e1, -⟩ := add10_index t
  show (V c (Pipeline.arrRef spec10 1) : S151552x128.Idx → EReal) (((cfg10.win 1).blk t).view.emb (ix2 r k)) = _
  refine congrArg (V c (Pipeline.arrRef spec10 1) : S151552x128.Idx → EReal) (funext fun a => Fin.ext ?_)
  match a with
  | ⟨0, _⟩ => show win10_1.index t (0 : Fin 2) * 4096 + 1 * r.val = (i 0).val; rw [e0, hi0]; omega
  | ⟨1, _⟩ => show win10_1.index t (1 : Fin 2) * 128 + 1 * k.val = (i 1).val; rw [e1, hi1]; omega

/-- WHAT POINT `t` WRITES BACK is block `t` of the entrywise sum. -/
theorem add10_flushed (c : Dev nD) (t : Fin cfg10.N) :
    (dat10 (F := Ideal) V c).flushed 2 t = ((cfg10.win 2).blk t).view.read (Elt Ideal)
      (Cert.Mp.addT (R := 151552) (V c (Pipeline.arrRef spec10 0)) (V c (Pipeline.arrRef spec10 1))) := by
  show (cfg10.win 2).cut (grid10.coords t) ((dat10 V c).after 2 t) = _
  rw [after10_2]
  unfold out10_2
  rw [View.canon_unit_zero add10_origin]
  simp only [View.ld_unit_zero (S := S4096x128) add10_origin]
  obtain ⟨-, -, -, -, e0, e1⟩ := add10_index t
  funext j
  obtain ⟨r, k, rfl⟩ : ∃ (r : Fin 4096) (k : Fin 128), j = ix2 r k := ⟨j 0, j 1, eq_ix2 j⟩
  show k10_pay1 (iblk10 V c 0 t) (iblk10 V c 1 t) (ix2 r k)
    = Cert.Mp.addT (R := 151552) (V c (Pipeline.arrRef spec10 0)) (V c (Pipeline.arrRef spec10 1)) (((cfg10.win 2).blk t).view.emb (ix2 r k))
  refine (add10_payload (iblk10 V c 0 t) (iblk10 V c 1 t) r k).trans ?_
  unfold Cert.Mp.addT
  have h0 : ((((cfg10.win 2).blk t).view.emb (ix2 r k)) 0).val = t.val * 4096 + r.val := by
    show win10_2.index t (0 : Fin 2) * 4096 + 1 * r.val = _; rw [e0]; omega
  have h1 : ((((cfg10.win 2).blk t).view.emb (ix2 r k)) 1).val = k.val := by
    show win10_2.index t (1 : Fin 2) * 128 + 1 * k.val = _; rw [e1]; omega
  rw [add10_left_block V c t r k _ h0 h1, add10_right_block V c t r k _ h0 h1]

/-- An index of the table is in point `t`'s block iff each coordinate is in the block's range on its axis. -/
theorem add10_mem_block (t : Fin cfg10.N) (i : S151552x128.Idx) :
    i ∈ ((cfg10.win 2).blk t).view.set ↔ ∀ a : Fin 2, win10_2.index t a * S4096x128.size a ≤ (i a).val
      ∧ (i a).val < win10_2.index t a * S4096x128.size a + S4096x128.size a := by
  show i ∈ ((View.whole main_v88).slice (win10_2.rect t)).set ↔ _
  rw [View.set_slice_whole, Rect.mem_set_unit]
  exact Iff.rfl

/-- Row `r` of the table lies in the block of point `r / 4096`: the 37 blocks cover the table. -/
theorem add10_cover (i : S151552x128.Idx) :
    ∃ t : Fin cfg10.N, (cfg10.win 2).flush t = true ∧ i ∈ ((cfg10.win 2).blk t).view.set := by
  have hrow : (i 0).val < 151552 := (i 0).isLt
  have hlane : (i 1).val < 128 := (i 1).isLt
  have hN : cfg10.N = 37 := N_10
  let t : Fin cfg10.N := ⟨(i 0).val / 4096, by rw [hN]; omega⟩
  obtain ⟨-, -, -, -, e0, e1⟩ := add10_index t
  have ht : t.val = (i 0).val / 4096 := rfl
  refine ⟨t, flush10_2 t, ?_⟩
  rw [add10_mem_block]
  intro a
  match a with
  | ⟨0, _⟩ =>
    show win10_2.index t (0 : Fin 2) * 4096 ≤ (i 0).val ∧ (i 0).val < win10_2.index t (0 : Fin 2) * 4096 + 4096
    rw [e0, ht]; omega
  | ⟨1, _⟩ =>
    show win10_2.index t (1 : Fin 2) * 128 ≤ (i 1).val ∧ (i 1).val < win10_2.index t (1 : Fin 2) * 128 + 128
    rw [e1]; omega

/-- THE TABLE after the region: the entrywise sum of the two input tables. -/
theorem add10 (c : Dev nD) : (Gen.dat10 (F := Ideal) V c).arrAt 2 cfg10.N
    = Cert.Mp.addT (R := 151552) (V c (Pipeline.arrRef spec10 0)) (V c (Pipeline.arrRef spec10 1)) :=
  (dat10 (F := Ideal) V c).arrAt_eq_of_cover 2 _ (fun t _ => add10_flushed V c t) add10_cover

end Cert.KernelIdeal.RegionValue

end
-- ==== Proof.RegionScale11.lean ====
/-
  Edge scaling, region 11 of the message-passing program: the output table after the region is, as ONE function of
  the two input arrays, every lane of edge message `e` times that edge's weight (`Cert.Mp.edgeScale`).

  The region walks 100 blocks of 6000 rows.  At block `t` the body multiplies the message block by the weight
  block broadcast along the lanes; block `t` of each of the three arrays starts at row `6000 · t`, so what is
  written back at `t` is block `t` of `edgeScale`; row `r` lies in block `r / 6000`, so the blocks cover the table.
-/
import proofs.«141111_j5652176961768_1_alg».proof.Proof.Gen.KernelIdeal.Frame
import proofs.«141111_j5652176961768_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body's rectangles start at the origin. -/
theorem scale11_origin : (![0, 0] : Fin 2 → Nat) = fun _ => 0 := funext fun a => by fin_cases a <;> rfl

/-- A column `[a, 1]` broadcast along the lanes to `[a, b]` reads, at `(p, q)`, the column's entry `p`. -/
theorem scale11_column_broadcast {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The body's product at row `r`, lane `k` of a block: the message entry times the row's weight. -/
theorem scale11_payload (x0 : Vec Ideal S6000x128 .f32) (x1 : Vec Ideal S6000x1 .f32) (r : Fin 6000) (k : Fin 128) :
    k11_pay1 x0 x1 (ix2 r k) = x0 (ix2 r k) * x1 (ix2 r (0 : Fin 1)) := by
  unfold k11_pay1
  rw [mulf_apply, shapeCast_self, shapeCast_self]
  exact congrArg (x0 (ix2 r k) * ·) (scale11_column_broadcast x1 broadcasts_S6000x1_S6000x128 r k)

/-- The printed index maps, decided once over the 100 grid points: block `t` of each window is block row `t`,
    block column 0. -/
theorem scale11_index : ∀ t : Fin cfg11.N, win11_0.index t (0 : Fin 2) = t.val ∧ win11_0.index t (1 : Fin 2) = 0
    ∧ win11_1.index t (0 : Fin 2) = t.val ∧ win11_1.index t (1 : Fin 2) = 0
    ∧ win11_2.index t (0 : Fin 2) = t.val ∧ win11_2.index t (1 : Fin 2) = 0 :=
  (by decide +kernel : ∀ t : Fin grid11.N, _)

/-- The message window's block at point `t` is rows `6000 t … 6000 t + 5999` of the message table. -/
theorem scale11_msg_block (c : Dev nD) (t : Fin cfg11.N) (r : Fin 6000) (k : Fin 128) (i : S600000x128.Idx)
    (hi0 : (i 0).val = t.val * 6000 + r.val) (hi1 : (i 1).val = k.val) :
    (iblk11 (F := Ideal) V c 0 t : Vec Ideal S6000x128 .f32) (ix2 r k)
      = (V c (Pipeline.arrRef spec11 0) : S600000x128.Idx → EReal) i := by
  obtain ⟨e0, e1, -⟩ := scale11_index t
  show (V c (Pipeline.arrRef spec11 0) : S600000x128.Idx → EReal) (((cfg11.win 0).blk t).view.emb (ix2 r k)) = _
  refine congrArg (V c (Pipeline.arrRef spec11 0) : S600000x128.Idx → EReal) (funext fun a => Fin.ext ?_)
  match a with
  | ⟨0, _⟩ => show win11_0.index t (0 : Fin 2) * 6000 + 1 * r.val = (i 0).val; rw [e0, hi0]; omega
  | ⟨1, _⟩ => show win11_0.index t (1 : Fin 2) * 128 + 1 * k.val = (i 1).val; rw [e1, hi1]; omega

/-- The weight window's block at point `t` is entries `6000 t … 6000 t + 5999` of the weight column. -/
theorem scale11_weight_block (c : Dev nD) (t : Fin cfg11.N) (r : Fin 6000) (i : S600000x1.Idx)
    (hi0 : (i 0).val = t.val * 6000 + r.val) :
    (iblk11 (F := Ideal) V c 1 t : Vec Ideal S6000x1 .f32) (ix2 r (0 : Fin 1))
      = (V c (Pipeline.arrRef spec11 1) : S600000x1.Idx → EReal) i := by
  obtain ⟨-, -, e0, e1, -⟩ := scale11_index t
  show (V c (Pipeline.arrRef spec11 1) : S600000x1.Idx → EReal) (((cfg11.win 1).blk t).view.emb (ix2 r (0 : Fin 1))) = _
  refine congrArg (V c (Pipeline.arrRef spec11 1) : S600000x1.Idx → EReal) (funext fun a => Fin.ext ?_)
  match a with
  | ⟨0, _⟩ => show win11_1.index t (0 : Fin 2) * 6000 + 1 * r.val = (i 0).val; rw [e0, hi0]; omega
  | ⟨1, _⟩ => show win11_1.index t (1 : Fin 2) * 1 + 1 * 0 = (i 1).val; have hlane : (i 1).val < 1 := (i 1).isLt; rw [e1]; omega

/-- WHAT POINT `t` WRITES BACK is block `t` of the scaled table. -/
theorem scale11_flushed (c : Dev nD) (t : Fin cfg11.N) :
    (dat11 (F := Ideal) V c).flushed 2 t = ((cfg11.win 2).blk t).view.read (Elt Ideal)
      (Cert.Mp.edgeScale (E := 600000) (V c (Pipeline.arrRef spec11 0)) (V c (Pipeline.arrRef spec11 1))) := by
  show (cfg11.win 2).cut (grid11.coords t) ((dat11 V c).after 2 t) = _
  rw [after11_2]
  unfold out11_2
  rw [View.canon_unit_zero scale11_origin]
  simp only [View.ld_unit_zero (S := S6000x128) scale11_origin, View.ld_unit_zero (S := S6000x1) scale11_origin]
  obtain ⟨-, -, -, -, e0, e1⟩ := scale11_index t
  funext j
  obtain ⟨r, k, rfl⟩ : ∃ (r : Fin 6000) (k : Fin 128), j = ix2 r k := ⟨j 0, j 1, eq_ix2 j⟩
  show k11_pay1 (iblk11 V c 0 t) (iblk11 V c 1 t) (ix2 r k)
    = Cert.Mp.edgeScale (E := 600000) (V c (Pipeline.arrRef spec11 0)) (V c (Pipeline.arrRef spec11 1)) (((cfg11.win 2).blk t).view.emb (ix2 r k))
  refine (scale11_payload (iblk11 V c 0 t) (iblk11 V c 1 t) r k).trans ?_
  unfold Cert.Mp.edgeScale
  have h0 : ((((cfg11.win 2).blk t).view.emb (ix2 r k)) 0).val = t.val * 6000 + r.val := by
    show win11_2.index t (0 : Fin 2) * 6000 + 1 * r.val = _; rw [e0]; omega
  have h1 : ((((cfg11.win 2).blk t).view.emb (ix2 r k)) 1).val = k.val := by
    show win11_2.index t (1 : Fin 2) * 128 + 1 * k.val = _; rw [e1]; omega
  rw [scale11_msg_block V c t r k _ h0 h1, scale11_weight_block V c t r (ix2 ((((cfg11.win 2).blk t).view.emb (ix2 r k)) 0) 0) h0]

/-- An index of the table is in point `t`'s block iff each coordinate is in the block's range on its axis. -/
theorem scale11_mem_block (t : Fin cfg11.N) (i : S600000x128.Idx) :
    i ∈ ((cfg11.win 2).blk t).view.set ↔ ∀ a : Fin 2, win11_2.index t a * S6000x128.size a ≤ (i a).val
      ∧ (i a).val < win11_2.index t a * S6000x128.size a + S6000x128.size a := by
  show i ∈ ((View.whole main_v100).slice (win11_2.rect t)).set ↔ _
  rw [View.set_slice_whole, Rect.mem_set_unit]
  exact Iff.rfl

/-- Row `r` of the table lies in the block of point `r / 6000`: the 100 blocks cover the table. -/
theorem scale11_cover (i : S600000x128.Idx) :
    ∃ t : Fin cfg11.N, (cfg11.win 2).flush t = true ∧ i ∈ ((cfg11.win 2).blk t).view.set := by
  have hrow : (i 0).val < 600000 := (i 0).isLt
  have hlane : (i 1).val < 128 := (i 1).isLt
  have hN : cfg11.N = 100 := N_11
  let t : Fin cfg11.N := ⟨(i 0).val / 6000, by rw [hN]; omega⟩
  obtain ⟨-, -, -, -, e0, e1⟩ := scale11_index t
  have ht : t.val = (i 0).val / 6000 := rfl
  refine ⟨t, flush11_2 t, ?_⟩
  rw [scale11_mem_block]
  intro a
  match a with
  | ⟨0, _⟩ =>
    show win11_2.index t (0 : Fin 2) * 6000 ≤ (i 0).val ∧ (i 0).val < win11_2.index t (0 : Fin 2) * 6000 + 6000
    rw [e0, ht]; omega
  | ⟨1, _⟩ =>
    show win11_2.index t (1 : Fin 2) * 128 ≤ (i 1).val ∧ (i 1).val < win11_2.index t (1 : Fin 2) * 128 + 128
    rw [e1]; omega

/-- THE TABLE after the region: every lane of each edge message times the edge's weight. -/
theorem scale11 (c : Dev nD) : (Gen.dat11 (F := Ideal) V c).arrAt 2 cfg11.N
    = Cert.Mp.edgeScale (E := 600000) (V c (Pipeline.arrRef spec11 0)) (V c (Pipeline.arrRef spec11 1)) :=
  (dat11 (F := Ideal) V c).arrAt_eq_of_cover 2 _ (fun t _ => scale11_flushed V c t) scale11_cover

end Cert.KernelIdeal.RegionValue

end
-- ==== Proof.RegionAdd12.lean ====
/-
  Elementwise addition, region 12 of the message-passing program: the output table after the region is, as ONE
  function of the two input tables, their entrywise sum.

  The region walks 37 blocks of 4096 rows.  At block `t` the body adds the two input blocks; block `t` of each of
  the three tables starts at row `4096 · t`, so what is written back at `t` is block `t` of the sum; row `r` lies in
  block `r / 4096`, so the blocks cover the table.
-/
import proofs.«141111_j5652176961768_1_alg».proof.Proof.Gen.KernelIdeal.Frame
import proofs.«141111_j5652176961768_1_alg».proof.Proof.Spec
import proofs.«141111_j5652176961768_1_alg».proof.Proof.KDefs
import Idealize.ShloMosaic.Lib.Pipeline.Value
import Idealize.ShloMosaic.Lib.ValueIdx
import Idealize.ShloMosaic.Lib.ValueLayout

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body's rectangles start at the origin. -/
theorem add12_origin : (![0, 0] : Fin 2 → Nat) = fun _ => 0 := funext fun a => by fin_cases a <;> rfl

/-- The body's sum at row `r`, lane `k` of a block: the two entries added. -/
theorem add12_payload (x0 x1 : Vec Ideal S4096x128 .f32) (r : Fin 4096) (k : Fin 128) :
    k12_pay1 x0 x1 (ix2 r k) = x0 (ix2 r k) + x1 (ix2 r k) := by
  unfold k12_pay1
  rw [addf_apply, shapeCast_self, shapeCast_self]

/-- The printed index maps, decided once over the 37 grid points: block `t` of each window is block row `t`,
    block column 0. -/
theorem add12_index : ∀ t : Fin cfg12.N, win12_0.index t (0 : Fin 2) = t.val ∧ win12_0.index t (1 : Fin 2) = 0
    ∧ win12_1.index t (0 : Fin 2) = t.val ∧ win12_1.index t (1 : Fin 2) = 0
    ∧ win12_2.index t (0 : Fin 2) = t.val ∧ win12_2.index t (1 : Fin 2) = 0 :=
  (by decide +kernel : ∀ t : Fin grid12.N, _)

/-- The first input window's block at point `t` is rows `4096 t … 4096 t + 4095` of the first table. -/
theorem add12_left_block (c : Dev nD) (t : Fin cfg12.N) (r : Fin 4096) (k : Fin 128) (i : S151552x128.Idx)
    (hi0 : (i 0).val = t.val * 4096 + r.val) (hi1 : (i 1).val = k.val) :
    (iblk12 (F := Ideal) V c 0 t : Vec Ideal S4096x128 .f32) (ix2 r k)
      = (V c (Pipeline.arrRef spec12 0) : S151552x128.Idx → EReal) i := by
  obtain ⟨e0, e1, -⟩ := add12_index t
  show (V c (Pipeline.arrRef spec12 0) : S151552x128.Idx → EReal) (((cfg12.win 0).blk t).view.emb (ix2 r k)) = _
  refine congrArg (V c (Pipeline.arrRef spec12 0) : S151552x128.Idx → EReal) (funext fun a => Fin.ext ?_)
  match a with
  | ⟨0, _⟩ => show win12_0.index t (0 : Fin 2) * 4096 + 1 * r.val = (i 0).val; rw [e0, hi0]; omega
  | ⟨1, _⟩ => show win12_0.index t (1 : Fin 2) * 128 + 1 * k.val = (i 1).val; rw [e1, hi1]; omega

/-- The second input window's block at point `t` is rows `4096 t … 4096 t + 4095` of the second table. -/
theorem add12_right_block (c : Dev nD) (t : Fin cfg12.N) (r : Fin 4096) (k : Fin 128) (i : S151552x128.Idx)
    (hi0 : (i 0).val = t.val * 4096 + r.val) (hi1 : (i 1).val = k.val) :
    (iblk12 (F := Ideal) V c 1 t : Vec Ideal S4096x128 .f32) (ix2 r k)
      = (V c (Pipeline.arrRef spec12 1) : S151552x128.Idx → EReal) i := by
  obtain ⟨-, -, e0, e1, -⟩ := add12_index t
  show (V c (Pipeline.arrRef spec12 1) : S151552x128.Idx → EReal) (((cfg12.win 1).blk t).view.emb (ix2 r k)) = _
  refine congrArg (V c (Pipeline.arrRef spec12 1) : S151552x128.Idx → EReal) (funext fun a => Fin.ext ?_)
  match a with
  | ⟨0, _⟩ => show win12_1.index t (0 : Fin 2) * 4096 + 1 * r.val = (i 0).val; rw [e0, hi0]; omega
  | ⟨1, _⟩ => show win12_1.index t (1 : Fin 2) * 128 + 1 * k.val = (i 1).val; rw [e1, hi1]; omega

/-- WHAT POINT `t` WRITES BACK is block `t` of the entrywise sum. -/
theorem add12_flushed (c : Dev nD) (t : Fin cfg12.N) :
    (dat12 (F := Ideal) V c).flushed 2 t = ((cfg12.win 2).blk t).view.read (Elt Ideal)
      (Cert.Mp.addT (R := 151552) (V c (Pipeline.arrRef spec12 0)) (V c (Pipeline.arrRef spec12 1))) := by
  show (cfg12.win 2).cut (grid12.coords t) ((dat12 V c).after 2 t) = _
  rw [after12_2]
  unfold out12_2
  rw [View.canon_unit_zero add12_origin]
  simp only [View.ld_unit_zero (S := S4096x128) add12_origin]
  obtain ⟨-, -, -, -, e0, e1⟩ := add12_index t
  funext j
  obtain ⟨r, k, rfl⟩ : ∃ (r : Fin 4096) (k : Fin 128), j = ix2 r k := ⟨j 0, j 1, eq_ix2 j⟩
  show k12_pay1 (iblk12 V c 0 t) (iblk12 V c 1 t) (ix2 r k)
    = Cert.Mp.addT (R := 151552) (V c (Pipeline.arrRef spec12 0)) (V c (Pipeline.arrRef spec12 1)) (((cfg12.win 2).blk t).view.emb (ix2 r k))
  refine (add12_payload (iblk12 V c 0 t) (iblk12 V c 1 t) r k).trans ?_
  unfold Cert.Mp.addT
  have h0 : ((((cfg12.win 2).blk t).view.emb (ix2 r k)) 0).val = t.val * 4096 + r.val := by
    show win12_2.index t (0 : Fin 2) * 4096 + 1 * r.val = _; rw [e0]; omega
  have h1 : ((((cfg12.win 2).blk t).view.emb (ix2 r k)) 1).val = k.val := by
    show win12_2.index t (1 : Fin 2) * 128 + 1 * k.val = _; rw [e1]; omega
  rw [add12_left_block V c t r k _ h0 h1, add12_right_block V c t r k _ h0 h1]

/-- An index of the table is in point `t`'s block iff each coordinate is in the block's range on its axis. -/
theorem add12_mem_block (t : Fin cfg12.N) (i : S151552x128.Idx) :
    i ∈ ((cfg12.win 2).blk t).view.set ↔ ∀ a : Fin 2, win12_2.index t a * S4096x128.size a ≤ (i a).val
      ∧ (i a).val < win12_2.index t a * S4096x128.size a + S4096x128.size a := by
  show i ∈ ((View.whole main_v104).slice (win12_2.rect t)).set ↔ _
  rw [View.set_slice_whole, Rect.mem_set_unit]
  exact Iff.rfl

/-- Row `r` of the table lies in the block of point `r / 4096`: the 37 blocks cover the table. -/
theorem add12_cover (i : S151552x128.Idx) :
    ∃ t : Fin cfg12.N, (cfg12.win 2).flush t = true ∧ i ∈ ((cfg12.win 2).blk t).view.set := by
  have hrow : (i 0).val < 151552 := (i 0).isLt
  have hlane : (i 1).val < 128 := (i 1).isLt
  have hN : cfg12.N = 37 := N_12
  let t : Fin cfg12.N := ⟨(i 0).val / 4096, by rw [hN]; omega⟩
  obtain ⟨-, -, -, -, e0, e1⟩ := add12_index t
  have ht : t.val = (i 0).val / 4096 := rfl
  refine ⟨t, flush12_2 t, ?_⟩
  rw [add12_mem_block]
  intro a
  match a with
  | ⟨0, _⟩ =>
    show win12_2.index t (0 : Fin 2) * 4096 ≤ (i 0).val ∧ (i 0).val < win12_2.index t (0 : Fin 2) * 4096 + 4096
    rw [e0, ht]; omega
  | ⟨1, _⟩ =>
    show win12_2.index t (1 : Fin 2) * 128 ≤ (i 1).val ∧ (i 1).val < win12_2.index t (1 : Fin 2) * 128 + 128
    rw [e1]; omega

/-- THE TABLE after the region: the entrywise sum of the two input tables. -/
theorem add12 (c : Dev nD) : (Gen.dat12 (F := Ideal) V c).arrAt 2 cfg12.N
    = Cert.Mp.addT (R := 151552) (V c (Pipeline.arrRef spec12 0)) (V c (Pipeline.arrRef spec12 1)) :=
  (dat12 (F := Ideal) V c).arrAt_eq_of_cover 2 _ (fun t _ => add12_flushed V c t) add12_cover

end Cert.KernelIdeal.RegionValue

end
-- ==== Proof.RegionFin2.lean ====
/-
  REGION 13 (the double finalize), read as one whole-array function: after the region its output array is
  `Cert.Mp.fin2 g1 t1 g2 t2 l` of the five input arrays as the region finds them — the sum of the two weighted mean rows
  `t1 r · (g1 r · 1/3) + t2 r · (g2 r · 1/3)`, divided by the larger of its Euclidean norm and the floor, plus the residual row.

  * `pay13_apply`: the body's stored value at row `p`, lane `q` of a block of 4096 rows.
  * `fin2_row`: the normalization looks at one row only, so a block's row that is row `i0` of the arrays gives
    `fin2` at row `i0` (a block holds whole rows: all 128 lanes).
  * `idx13`, `iblk13_W_apply`: at grid point `t` every window's block is rows `t · 4096 … t · 4096 + 4095`.
  * `flushed13_eq`, `mem_blk13`, `cover13`, `fin2_13`: point `t` writes back block `t` of `fin2`; the 37 blocks cover
    the 151552 rows (row `r` is in block `r / 4096`); so the array ends holding `fin2`.
-/
import proofs.«141111_j5652176961768_1_alg».proof.Proof.RegionFinRow

noncomputable section

namespace Cert.KernelIdeal.RegionValue

open Idealize.ShloMosaic Idealize.ShloMosaic.TcCoe Idealize.ShloMosaic.ValueIdx Idealize.SL.Sem
open Idealize.ShloMosaic.Pipeline (Dat)
open Cert.KernelIdeal Cert.KernelIdeal.Gen Cert.Mp

variable (V : (c : Dev nD) → (b : Ref sig .tc) → Buf (Elt Ideal) ((c : Thread nD τ).loc b))

/-- Region 13's stored value at row `p`, lane `q` of a block: the sum of the two weighted mean rows `t1 · (g1 · 1/3)` and
    `t2 · (g2 · 1/3)`, normalized, plus the residual. -/
theorem pay13_apply (y0 y1 : Vec Ideal S4096x128 .f32) (y2 y3 : Vec Ideal S4096x1 .f32) (y4 : Vec Ideal S4096x128 .f32)
    (p : Fin 4096) (q : Fin 128) :
    k13_pay1 (F := Ideal) y0 y1 y2 y3 y4 (ix2 p q)
      = normalize (fun r k => y2 (ix2 r 0) * (y0 (ix2 r k) * ((1 / 3 : ℝ) : EReal)) + y3 (ix2 r 0) * (y1 (ix2 r k) * ((1 / 3 : ℝ) : EReal))) p q
        + y4 (ix2 p q) := by
  unfold k13_pay1
  simp only [shapeCast_self]
  refine (normalizeTail_apply _ _ _ _ _ _ _ p q).trans ?_
  refine congrArg (· + y4 (ix2 p q)) (normalize_congr (fun k => ?_) q)
  show broadcastTo S4096x128 y2 _ (ix2 p k) * (y0 (ix2 p k) * Named.named (F := Ideal) Cert.KernelIdeal.κ "inv_3" (φ := .f32) 0x3EAAAAAB#32)
      + broadcastTo S4096x128 y3 _ (ix2 p k) * (y1 (ix2 p k) * Named.named (F := Ideal) Cert.KernelIdeal.κ "inv_3" (φ := .f32) 0x3EAAAAAB#32) = _
  rw [broadcastTo_a1_ab_apply, broadcastTo_a1_ab_apply, inv_3]

/-- Row `p` of the five input blocks being row `i0` of the five arrays, the block's normalized row plus residual is
    `fin2` of the arrays at row `i0`: the normalization looks at one row only. -/
theorem fin2_row (g1 g2 l : Tab 151552) (t1 t2 : Col 151552) (b0 b2 b4 : Vec Ideal S4096x128 .f32) (b1 b3 : Vec Ideal S4096x1 .f32)
    (p : Fin 4096) (i0 : Fin 151552) (h0 : ∀ k : Fin 128, b0 (ix2 p k) = g1 (ix2 i0 k)) (h1 : b1 (ix2 p 0) = t1 (ix2 i0 0))
    (h2 : ∀ k : Fin 128, b2 (ix2 p k) = g2 (ix2 i0 k)) (h3 : b3 (ix2 p 0) = t2 (ix2 i0 0))
    (h4 : ∀ k : Fin 128, b4 (ix2 p k) = l (ix2 i0 k)) (q : Fin 128) :
    normalize (fun r k => b1 (ix2 r 0) * (b0 (ix2 r k) * ((1 / 3 : ℝ) : EReal)) + b3 (ix2 r 0) * (b2 (ix2 r k) * ((1 / 3 : ℝ) : EReal))) p q
        + b4 (ix2 p q) = fin2 g1 t1 g2 t2 l (ix2 i0 q) := by
  show _ = normalize (fun r k => agg g1 t1 r k + agg g2 t2 r k) i0 q + l (ix2 i0 q)
  rw [h4 q, normalize_congr (a' := fun r k => agg g1 t1 r k + agg g2 t2 r k) (r' := i0) (fun k => ?_) q]
  show b1 (ix2 p 0) * (b0 (ix2 p k) * _) + b3 (ix2 p 0) * (b2 (ix2 p k) * _)
    = t1 (ix2 i0 0) * (g1 (ix2 i0 k) * _) + t2 (ix2 i0 0) * (g2 (ix2 i0 k) * _)
  rw [h0 k, h1, h2 k, h3]

theorem hz13 : (![0, 0] : Fin 2 → Nat) = fun _ => 0 := funext fun a => by fin_cases a <;> rfl

/-- The printed index maps, decided over the 37 grid points: every window's block at point `t` is block `t` along
    the rows and the only block along the lanes. -/
theorem idx13 : ∀ t : Fin cfg13.N,
    win13_0.index t (0 : Fin 2) = t.val ∧ win13_0.index t (1 : Fin 2) = 0
    ∧ win13_1.index t (0 : Fin 2) = t.val ∧ win13_1.index t (1 : Fin 2) = 0
    ∧ win13_2.index t (0 : Fin 2) = t.val ∧ win13_2.index t (1 : Fin 2) = 0
    ∧ win13_3.index t (0 : Fin 2) = t.val ∧ win13_3.index t (1 : Fin 2) = 0
    ∧ win13_4.index t (0 : Fin 2) = t.val ∧ win13_4.index t (1 : Fin 2) = 0
    ∧ win13_5.index t (0 : Fin 2) = t.val ∧ win13_5.index t (1 : Fin 2) = 0 :=
  (by decide +kernel : ∀ t : Fin grid13.N, _)

/-- Row `p` of window 0's block at point `t` is row `t · 4096 + p` of its array. -/
theorem iblk13_0_apply (c : Dev nD) (t : Fin cfg13.N) (p : Fin 4096) (k : Fin 128) (i0 : Fin 151552)
    (hi : i0.val = t.val * 4096 + p.val) :
    (iblk13 (F := Ideal) V c 0 t : Vec Ideal S4096x128 .f32) (ix2 p k) = (V c (Pipeline.arrRef spec13 0) : Tab 151552) (ix2 i0 k) := by
  obtain ⟨e0, e1, -⟩ := idx13 t
  show V c (Pipeline.arrRef spec13 0) (((cfg13.win 0).blk t).view.emb (ix2 p k)) = V c (Pipeline.arrRef spec13 0) (ix2 i0 k)
  refine congrArg _ (funext fun a => Fin.ext ?_)
  match a with
  | ⟨0, _⟩ => show win13_0.index t (0 : Fin 2) * 4096 + 1 * p.val = i0.val; omega
  | ⟨1, _⟩ => show win13_0.index t (1 : Fin 2) * 128 + 1 * k.val = k.val; omega

/-- Entry `p` of window 1's block at point `t` is entry `t · 4096 + p` of its column. -/
theorem iblk13_1_apply (c : Dev nD) (t : Fin cfg13.N) (p : Fin 4096) (i0 : Fin 151552)
    (hi : i0.val = t.val * 4096 + p.val) :
    (iblk13 (F := Ideal) V c 1 t : Vec Ideal S4096x1 .f32) (ix2 p 0) = (V c (Pipeline.arrRef spec13 1) : Col 151552) (ix2 i0 0) := by
  obtain ⟨-, -, e0, e1, -⟩ := idx13 t
  show V c (Pipeline.arrRef spec13 1) (((cfg13.win 1).blk t).view.emb (ix2 p 0)) = V c (Pipeline.arrRef spec13 1) (ix2 i0 0)
  refine congrArg _ (funext fun a => Fin.ext ?_)
  match a with
  | ⟨0, _⟩ => show win13_1.index t (0 : Fin 2) * 4096 + 1 * p.val = i0.val; omega
  | ⟨1, _⟩ => show win13_1.index t (1 : Fin 2) * 1 + 1 * 0 = 0; omega

/-- Row `p` of window 2's block at point `t` is row `t · 4096 + p` of its array. -/
theorem iblk13_2_apply (c : Dev nD) (t : Fin cfg13.N) (p : Fin 4096) (k : Fin 128) (i0 : Fin 151552)
    (hi : i0.val = t.val * 4096 + p.val) :
    (iblk13 (F := Ideal) V c 2 t : Vec Ideal S4096x128 .f32) (ix2 p k) = (V c (Pipeline.arrRef spec13 2) : Tab 151552) (ix2 i0 k) := by
  obtain ⟨-, -, -, -, e0, e1, -⟩ := idx13 t
  show V c (Pipeline.arrRef spec13 2) (((cfg13.win 2).blk t).view.emb (ix2 p k)) = V c (Pipeline.arrRef spec13 2) (ix2 i0 k)
  refine congrArg _ (funext fun a => Fin.ext ?_)
  match a with
  | ⟨0, _⟩ => show win13_2.index t (0 : Fin 2) * 4096 + 1 * p.val = i0.val; omega
  | ⟨1, _⟩ => show win13_2.index t (1 : Fin 2) * 128 + 1 * k.val = k.val; omega

/-- Entry `p` of window 3's block at point `t` is entry `t · 4096 + p` of its column. -/
theorem iblk13_3_apply (c : Dev nD) (t : Fin cfg13.N) (p : Fin 4096) (i0 : Fin 151552)
    (hi : i0.val = t.val * 4096 + p.val) :
    (iblk13 (F := Ideal) V c 3 t : Vec Ideal S4096x1 .f32) (ix2 p 0) = (V c (Pipeline.arrRef spec13 3) : Col 151552) (ix2 i0 0) := by
  obtain ⟨-, -, -, -, -, -, e0, e1, -⟩ := idx13 t
  show V c (Pipeline.arrRef spec13 3) (((cfg13.win 3).blk t).view.emb (ix2 p 0)) = V c (Pipeline.arrRef spec13 3) (ix2 i0 0)
  refine congrArg _ (funext fun a => Fin.ext ?_)
  match a with
  | ⟨0, _⟩ => show win13_3.index t (0 : Fin 2) * 4096 + 1 * p.val = i0.val; omega
  | ⟨1, _⟩ => show win13_3.index t (1 : Fin 2) * 1 + 1 * 0 = 0; omega

/-- Row `p` of window 4's block at point `t` is row `t · 4096 + p` of its array. -/
theorem iblk13_4_apply (c : Dev nD) (t : Fin cfg13.N) (p : Fin 4096) (k : Fin 128) (i0 : Fin 151552)
    (hi : i0.val = t.val * 4096 + p.val) :
    (iblk13 (F := Ideal) V c 4 t : Vec Ideal S4096x128 .f32) (ix2 p k) = (V c (Pipeline.arrRef spec13 4) : Tab 151552) (ix2 i0 k) := by
  obtain ⟨-, -, -, -, -, -, -, -, e0, e1, -⟩ := idx13 t
  show V c (Pipeline.arrRef spec13 4) (((cfg13.win 4).blk t).view.emb (ix2 p k)) = V c (Pipeline.arrRef spec13 4) (ix2 i0 k)
  refine congrArg _ (funext fun a => Fin.ext ?_)
  match a with
  | ⟨0, _⟩ => show win13_4.index t (0 : Fin 2) * 4096 + 1 * p.val = i0.val; omega
  | ⟨1, _⟩ => show win13_4.index t (1 : Fin 2) * 128 + 1 * k.val = k.val; omega

/-- WHAT POINT `t` WRITES BACK is block `t` of `fin2` of the five input arrays as the region finds them. -/
theorem flushed13_eq (c : Dev nD) (t : Fin cfg13.N) :
    (dat13 (F := Ideal) V c).flushed 5 t = ((cfg13.win 5).blk t).view.read (Elt Ideal)
      (fin2 (V c (Pipeline.arrRef spec13 0) : Tab 151552) (V c (Pipeline.arrRef spec13 1) : Col 151552)
        (V c (Pipeline.arrRef spec13 2) : Tab 151552) (V c (Pipeline.arrRef spec13 3) : Col 151552) (V c (Pipeline.arrRef spec13 4) : Tab 151552)) := by
  show (cfg13.win 5).cut (grid13.coords t) ((dat13 V c).after 5 t) = _
  rw [after13_5]
  unfold out13_5
  rw [View.canon_unit_zero hz13]
  simp only [View.ld_unit_zero (S := S4096x128) hz13, View.ld_unit_zero (S := S4096x1) hz13]
  have hN : cfg13.N = 37 := N_13
  have ht : t.val < 37 := hN ▸ t.isLt
  obtain ⟨-, -, -, -, -, -, -, -, -, -, e0, e1⟩ := idx13 t
  funext j
  obtain ⟨p, q, rfl⟩ : ∃ (p : Fin 4096) (q : Fin 128), j = ix2 p q := ⟨j 0, j 1, eq_ix2 j⟩
  have hemb : ((cfg13.win 5).blk t).view.emb (ix2 p q) = ix2 (⟨t.val * 4096 + p.val, by have := p.isLt; omega⟩ : Fin 151552) q := by
    funext a; apply Fin.ext
    match a with
    | ⟨0, _⟩ => show win13_5.index t (0 : Fin 2) * 4096 + 1 * p.val = t.val * 4096 + p.val; omega
    | ⟨1, _⟩ => show win13_5.index t (1 : Fin 2) * 128 + 1 * q.val = q.val; omega
  show k13_pay1 (iblk13 V c 0 t) (iblk13 V c 2 t) (iblk13 V c 1 t) (iblk13 V c 3 t) (iblk13 V c 4 t) (ix2 p q)
    = fin2 _ _ _ _ _ (((cfg13.win 5).blk t).view.emb (ix2 p q))
  rw [hemb]
  exact (pay13_apply (iblk13 V c 0 t) (iblk13 V c 2 t) (iblk13 V c 1 t) (iblk13 V c 3 t) (iblk13 V c 4 t) p q).trans
    (fin2_row _ _ _ _ _ _ _ _ _ _ p _ (fun k => iblk13_0_apply V c t p k _ rfl) (iblk13_1_apply V c t p _ rfl)
      (fun k => iblk13_2_apply V c t p k _ rfl) (iblk13_3_apply V c t p _ rfl) (fun k => iblk13_4_apply V c t p k _ rfl) q)

/-- An index of the output array is in point `t`'s block iff each coordinate is in the block's range on its axis. -/
theorem mem_blk13 (t : Fin cfg13.N) (i : S151552x128.Idx) :
    i ∈ ((cfg13.win 5).blk t).view.set ↔ ∀ a : Fin 2, win13_5.index t a * S4096x128.size a ≤ (i a).val ∧ (i a).val < win13_5.index t a * S4096x128.size a + S4096x128.size a := by
  show i ∈ ((View.whole main_v105).slice (win13_5.rect t)).set ↔ _
  rw [View.set_slice_whole, Rect.mem_set_unit]
  exact Iff.rfl

/-- Every row of the output array is in some point's block: row `r` in that of point `r / 4096` (37 · 4096 = 151552). -/
theorem cover13 (i : S151552x128.Idx) : ∃ t : Fin cfg13.N, (cfg13.win 5).flush t = true ∧ i ∈ ((cfg13.win 5).blk t).view.set := by
  have hi0 : (i 0).val < 151552 := (i 0).isLt
  have hi1 : (i 1).val < 128 := (i 1).isLt
  have hN : cfg13.N = 37 := N_13
  let t : Fin cfg13.N := ⟨(i 0).val / 4096, by rw [hN]; omega⟩
  obtain ⟨-, -, -, -, -, -, -, -, -, -, e0, e1⟩ := idx13 t
  have ht : t.val = (i 0).val / 4096 := rfl
  refine ⟨t, flush13_5 t, ?_⟩
  rw [mem_blk13]
  intro a
  match a with
  | ⟨0, _⟩ => show win13_5.index t (0 : Fin 2) * 4096 ≤ (i 0).val ∧ (i 0).val < win13_5.index t (0 : Fin 2) * 4096 + 4096; omega
  | ⟨1, _⟩ => show win13_5.index t (1 : Fin 2) * 128 ≤ (i 1).val ∧ (i 1).val < win13_5.index t (1 : Fin 2) * 128 + 128; omega

/-- THE OUTPUT ARRAY after region 13: `fin2` of the five input arrays as the region finds them. -/
theorem fin2_13 (c : Dev nD) : (dat13 (F := Ideal) V c).arrAt 5 cfg13.N
    = fin2 (V c (Pipeline.arrRef spec13 0) : Tab 151552) (V c (Pipeline.arrRef spec13 1) : Col 151552)
        (V c (Pipeline.arrRef spec13 2) : Tab 151552) (V c (Pipeline.arrRef spec13 3) : Col 151552) (V c (Pipeline.arrRef spec13 4) : Tab 151552) :=
  (dat13 V c).arrAt_eq_of_cover 5 _ (fun t _ => flushed13_eq V c t) cover13

end Cert.KernelIdeal.RegionValue

end
-- ==== Proof.KRun.lean ====
/-
  The idealized kernel's run with EVERY buffer named: from any memory with zero counters every weakly fair execution of
  the program terminates without a fault, and at the end each TensorCore buffer that is not scoped to a region holds
  the contents the segment-by-segment fold assigns it (host stretches applied in order, each region's arrays at what
  its write-backs leave). The frame statement keeps only the argument arrays out of this; the value statement needs
  the result buffer as well, so the launch is stated once more with the whole reading as its post.
-/
import proofs.«141111_j5652176961768_1_alg».proof.Proof.Gen.KernelIdeal.Frame

set_option maxRecDepth 16384

noncomputable section

namespace Cert.KernelIdeal.RunAll

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every unscoped buffer of every core ends at the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W35 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W35 m ρ c b)
    (hfin := fun c s' => by
      iintro ⟨⟨Hh, -⟩, HSI⟩
      unfold StableHlo.held
      imodintro
      iapply (pointsTo_read_all (Pipeline.ucRefs τ sig) (fun b => (((c : Thread nD τ)).1, b)) (W35 m ρ c) s')
      isplitl [Hh] <;> iassumption)
    (hQ := fun s h c => h c)

/-- The same reading at one TensorCore reference that no region scopes. -/
theorem run_ref (b : Ref sig .tc) (hb : ¬ (Proc.devRef .tc b : DevRef τ sig).isScoped) :
    θ_run defs (onTc (τ := τ) (main (F := F))) ⟨m, fun _ => 0, ρ⟩ (fun r => ∀ c : Dev nD,
      r.2.mem ((c.tc : Thread nD τ).loc b) = W35 m ρ c (Proc.devRef .tc b)) :=
  (θ_run defs _ _).mono (fun _ h c => h c _ (mem_uc b hb)) (run_all m ρ)

end Cert.KernelIdeal.RunAll

end
-- ==== Proof.KOps.lean ====
/-
  Each kernel region read as ONE whole-array operation. A region leaves its input arrays as it found them and its
  output array at a function of the input arrays; every other buffer keeps its contents. That is exactly what a
  host operation writing the output from the inputs does, so the contents after a region are the contents before it
  with that one operation applied, and the fold of buffer contents through the program, up to the last region's
  entry, is the fold of ONE list of operations from the launch memory.
-/
import proofs.«141111_j5652176961768_1_alg».proof.Proof.Gen.KernelIdeal.Frame
import proofs.«141111_j5652176961768_1_alg».proof.Proof.Spec
import proofs.«141111_j5652176961768_1_alg».proof.Proof.KDefs
import Idealize.ShloMosaic.Lib.StableHlo.Run

set_option maxRecDepth 16384

noncomputable section

namespace Cert.KernelIdeal.AsOps

open Cert.KernelIdeal Cert.KernelIdeal.Gen
open Idealize.ShloMosaic Idealize.ShloMosaic.TcCoe Idealize.SL.Sem Idealize.ShloMosaic.StableHlo
open Idealize.ShloMosaic.Pipeline (Dat Cfg Window)

/-- Contents after two lines run one after the other are the contents after their concatenation. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Contents after a line of one operation. -/
theorem after_single {τ : Topo} {sig : RefSig} {Val : EltTy → Type} (op : HloOp τ sig Val) (V : Valuation τ sig Val) :
    after [op] V = op.result V := rfl

/-- A region whose output window `wo` ends at what the operation `op` writes there, whose other windows end as
    they were entered, and which `op` writes nowhere else, leaves the contents `op` leaves. -/
theorem withArrays_eq_result {Val : EltTy → Type} {gr W : Nat} (win : Fin W → Pipeline.WinSpec sig gr) (hinj : Function.Injective (Pipeline.arrRef win))
    (c : Dev nD) (V : Valuation τ sig Val) (A : (w : Fin W) → Buf Val ((win w).arr.view.loc (c.tc : Thread nD τ)))
    (op : HloOp τ sig Val) (wo : Fin W)
    (hw : op.writes = {Proc.devRef .tc (Pipeline.arrRef win wo)})
    (hout : A wo = op.result V (Proc.devRef .tc (Pipeline.arrRef win wo)))
    (hin : ∀ w, w ≠ wo → A w = V (Proc.devRef .tc (Pipeline.arrRef win w))) :
    Pipeline.withArrays win c V A = op.result V := by
  funext b
  by_cases h : ∃ w, Proc.devRef .tc (Pipeline.arrRef win w) = b
  · obtain ⟨w, rfl⟩ := h
    rw [Pipeline.withArrays_arr win hinj c V A w]
    by_cases hwo : w = wo
    · subst hwo; exact hout
    · rw [hin w hwo, op.result_of_not_mem V (by
        rw [hw, Finset.mem_singleton]; exact fun e => hwo (hinj (Proc.devRef_injective _ e)))]
  · unfold Pipeline.withArrays
    rw [dif_neg h, op.result_of_not_mem V (by rw [hw, Finset.mem_singleton]; exact fun e => h ⟨wo, e.symm⟩)]

set_option maxHeartbeats 8000000 in
/-- What each region computes, as a whole-array function of its input arrays at any entry contents: the regions'
    value lemmas, gathered. -/
structure RegionValues : Prop where
  /-- Region 0: the gathered rows, each lane times its edge's weight. -/
  s0 : ∀ (V : (c : Dev nD) → (b : Ref sig .tc) → Buf (Elt Ideal) ((c : Thread nD τ).loc b)) (c : Dev nD), (dat0 (F := Ideal) V c).arrAt 2 cfg0.N = Cert.Mp.edgeScale (E := 600000) (V c (Pipeline.arrRef spec0 0)) (V c (Pipeline.arrRef spec0 1))
  /-- Region 1: the sum of its two tables, entry by entry. -/
  a1 : ∀ (V : (c : Dev nD) → (b : Ref sig .tc) → Buf (Elt Ideal) ((c : Thread nD τ).loc b)) (c : Dev nD), (dat1 (F := Ideal) V c).arrAt 2 cfg1.N = Cert.Mp.addT (R := 151552) (V c (Pipeline.arrRef spec1 0)) (V c (Pipeline.arrRef spec1 1))
  /-- Region 2: the gathered rows, each lane times its edge's weight. -/
  s2 : ∀ (V : (c : Dev nD) → (b : Ref sig .tc) → Buf (Elt Ideal) ((c : Thread nD τ).loc b)) (c : Dev nD), (dat2 (F := Ideal) V c).arrAt 2 cfg2.N = Cert.Mp.edgeScale (E := 600000) (V c (Pipeline.arrRef spec2 0)) (V c (Pipeline.arrRef spec2 1))
  /-- Region 3: the sum of its two tables, entry by entry. -/
  a3 : ∀ (V : (c : Dev nD) → (b : Ref sig .tc) → Buf (Elt Ideal) ((c : Thread nD τ).loc b)) (c : Dev nD), (dat3 (F := Ideal) V c).arrAt 2 cfg3.N = Cert.Mp.addT (R := 151552) (V c (Pipeline.arrRef spec3 0)) (V c (Pipeline.arrRef spec3 1))
  /-- Region 4: one aggregation, normalized, plus the residual. -/
  f4 : ∀ (V : (c : Dev nD) → (b : Ref sig .tc) → Buf (Elt Ideal) ((c : Thread nD τ).loc b)) (c : Dev nD), (dat4 (F := Ideal) V c).arrAt 3 cfg4.N = Cert.Mp.fin1 (R := 151552) (V c (Pipeline.arrRef spec4 0)) (V c (Pipeline.arrRef spec4 1)) (V c (Pipeline.arrRef spec4 2))
  /-- Region 5: the gathered rows, each lane times its edge's weight. -/
  s5 : ∀ (V : (c : Dev nD) → (b : Ref sig .tc) → Buf (Elt Ideal) ((c : Thread nD τ).loc b)) (c : Dev nD), (dat5 (F := Ideal) V c).arrAt 2 cfg5.N = Cert.Mp.edgeScale (E := 600000) (V c (Pipeline.arrRef spec5 0)) (V c (Pipeline.arrRef spec5 1))
  /-- Region 6: the sum of its two tables, entry by entry. -/
  a6 : ∀ (V : (c : Dev nD) → (b : Ref sig .tc) → Buf (Elt Ideal) ((c : Thread nD τ).loc b)) (c : Dev nD), (dat6 (F := Ideal) V c).arrAt 2 cfg6.N = Cert.Mp.addT (R := 151552) (V c (Pipeline.arrRef spec6 0)) (V c (Pipeline.arrRef spec6 1))
  /-- Region 7: the gathered rows, each lane times its edge's weight. -/
  s7 : ∀ (V : (c : Dev nD) → (b : Ref sig .tc) → Buf (Elt Ideal) ((c : Thread nD τ).loc b)) (c : Dev nD), (dat7 (F := Ideal) V c).arrAt 2 cfg7.N = Cert.Mp.edgeScale (E := 600000) (V c (Pipeline.arrRef spec7 0)) (V c (Pipeline.arrRef spec7 1))
  /-- Region 8: the sum of its two tables, entry by entry. -/
  a8 : ∀ (V : (c : Dev nD) → (b : Ref sig .tc) → Buf (Elt Ideal) ((c : Thread nD τ).loc b)) (c : Dev nD), (dat8 (F := Ideal) V c).arrAt 2 cfg8.N = Cert.Mp.addT (R := 151552) (V c (Pipeline.arrRef spec8 0)) (V c (Pipeline.arrRef spec8 1))
  /-- Region 9: the gathered rows, each lane times its edge's weight. -/
  s9 : ∀ (V : (c : Dev nD) → (b : Ref sig .tc) → Buf (Elt Ideal) ((c : Thread nD τ).loc b)) (c : Dev nD), (dat9 (F := Ideal) V c).arrAt 2 cfg9.N = Cert.Mp.edgeScale (E := 600000) (V c (Pipeline.arrRef spec9 0)) (V c (Pipeline.arrRef spec9 1))
  /-- Region 10: the sum of its two tables, entry by entry. -/
  a10 : ∀ (V : (c : Dev nD) → (b : Ref sig .tc) → Buf (Elt Ideal) ((c : Thread nD τ).loc b)) (c : Dev nD), (dat10 (F := Ideal) V c).arrAt 2 cfg10.N = Cert.Mp.addT (R := 151552) (V c (Pipeline.arrRef spec10 0)) (V c (Pipeline.arrRef spec10 1))
  /-- Region 11: the gathered rows, each lane times its edge's weight. -/
  s11 : ∀ (V : (c : Dev nD) → (b : Ref sig .tc) → Buf (Elt Ideal) ((c : Thread nD τ).loc b)) (c : Dev nD), (dat11 (F := Ideal) V c).arrAt 2 cfg11.N = Cert.Mp.edgeScale (E := 600000) (V c (Pipeline.arrRef spec11 0)) (V c (Pipeline.arrRef spec11 1))
  /-- Region 12: the sum of its two tables, entry by entry. -/
  a12 : ∀ (V : (c : Dev nD) → (b : Ref sig .tc) → Buf (Elt Ideal) ((c : Thread nD τ).loc b)) (c : Dev nD), (dat12 (F := Ideal) V c).arrAt 2 cfg12.N = Cert.Mp.addT (R := 151552) (V c (Pipeline.arrRef spec12 0)) (V c (Pipeline.arrRef spec12 1))
  /-- Region 13: the sum of two aggregations, normalized, plus the residual. -/
  f13 : ∀ (V : (c : Dev nD) → (b : Ref sig .tc) → Buf (Elt Ideal) ((c : Thread nD τ).loc b)) (c : Dev nD), (dat13 (F := Ideal) V c).arrAt 5 cfg13.N = Cert.Mp.fin2 (R := 151552) (V c (Pipeline.arrRef spec13 0)) (V c (Pipeline.arrRef spec13 1)) (V c (Pipeline.arrRef spec13 2)) (V c (Pipeline.arrRef spec13 3)) (V c (Pipeline.arrRef spec13 4))

/-! ## The regions as operations -/

abbrev rop0 : HloOp τ sig (Elt Ideal) := StableHlo.binary main_v15 main_v16 main_v17 (fun xg s => Cert.Mp.edgeScale xg s)
abbrev rop1 : HloOp τ sig (Elt Ideal) := StableHlo.binary main_v0 main_v20 main_v21 (fun a b => Cert.Mp.addT a b)
abbrev rop2 : HloOp τ sig (Elt Ideal) := StableHlo.binary main_v31 main_v32 main_v33 (fun xg s => Cert.Mp.edgeScale xg s)
abbrev rop3 : HloOp τ sig (Elt Ideal) := StableHlo.binary main_v21 main_v36 main_v37 (fun a b => Cert.Mp.addT a b)
abbrev rop4 : HloOp τ sig (Elt Ideal) := StableHlo.ternary main_v37 main_v1 main_v0 main_v38 (fun g t l => Cert.Mp.fin1 g t l)
abbrev rop5 : HloOp τ sig (Elt Ideal) := StableHlo.binary main_v49 main_v50 main_v51 (fun xg s => Cert.Mp.edgeScale xg s)
abbrev rop6 : HloOp τ sig (Elt Ideal) := StableHlo.binary main_v0 main_v54 main_v55 (fun a b => Cert.Mp.addT a b)
abbrev rop7 : HloOp τ sig (Elt Ideal) := StableHlo.binary main_v65 main_v66 main_v67 (fun xg s => Cert.Mp.edgeScale xg s)
abbrev rop8 : HloOp τ sig (Elt Ideal) := StableHlo.binary main_v55 main_v70 main_v71 (fun a b => Cert.Mp.addT a b)
abbrev rop9 : HloOp τ sig (Elt Ideal) := StableHlo.binary main_v82 main_v83 main_v84 (fun xg s => Cert.Mp.edgeScale xg s)
abbrev rop10 : HloOp τ sig (Elt Ideal) := StableHlo.binary main_v38 main_v87 main_v88 (fun a b => Cert.Mp.addT a b)
abbrev rop11 : HloOp τ sig (Elt Ideal) := StableHlo.binary main_v98 main_v99 main_v100 (fun xg s => Cert.Mp.edgeScale xg s)
abbrev rop12 : HloOp τ sig (Elt Ideal) := StableHlo.binary main_v88 main_v103 main_v104 (fun a b => Cert.Mp.addT a b)

variable (m : (ℓ : Loc nD τ sig) → Buf (Elt Ideal) ℓ) (ρ : Dev nD → PrngReg) (H : RegionValues)

include H in
theorem W10_eq (c : Dev nD) : W10 m ρ c = rop0.result (W9 m ρ c) := by
  unfold W10
  refine withArrays_eq_result spec0 launch0.win.arr_inj c _ _ rop0 2 (binary_writes ..) ?_ ?_
  · rw [H.s0 (V9 m ρ) c]
    exact (binary_result main_v15 main_v16 main_v17 _ _ _ _ (W9 m ρ c)).symm
  · intro w hw
    match w, hw with
    | ⟨0, _⟩, _ => exact ((dat0 (F := Ideal) (V9 m ρ) c).arrAt_in 0 rfl cfg0.N).trans (A_eq0 (V9 m ρ) c 0)
    | ⟨1, _⟩, _ => exact ((dat0 (F := Ideal) (V9 m ρ) c).arrAt_in 1 rfl cfg0.N).trans (A_eq0 (V9 m ρ) c 1)
    | ⟨2, _⟩, hw => exact absurd rfl hw

include H in
theorem W12_eq (c : Dev nD) : W12 m ρ c = rop1.result (W11 m ρ c) := by
  unfold W12
  refine withArrays_eq_result spec1 launch1.win.arr_inj c _ _ rop1 2 (binary_writes ..) ?_ ?_
  · rw [H.a1 (V11 m ρ) c]
    exact (binary_result main_v0 main_v20 main_v21 _ _ _ _ (W11 m ρ c)).symm
  · intro w hw
    match w, hw with
    | ⟨0, _⟩, _ => exact ((dat1 (F := Ideal) (V11 m ρ) c).arrAt_in 0 rfl cfg1.N).trans (A_eq1 (V11 m ρ) c 0)
    | ⟨1, _⟩, _ => exact ((dat1 (F := Ideal) (V11 m ρ) c).arrAt_in 1 rfl cfg1.N).trans (A_eq1 (V11 m ρ) c 1)
    | ⟨2, _⟩, hw => exact absurd rfl hw

include H in
theorem W14_eq (c : Dev nD) : W14 m ρ c = rop2.result (W13 m ρ c) := by
  unfold W14
  refine withArrays_eq_result spec2 launch2.win.arr_inj c _ _ rop2 2 (binary_writes ..) ?_ ?_
  · rw [H.s2 (V13 m ρ) c]
    exact (binary_result main_v31 main_v32 main_v33 _ _ _ _ (W13 m ρ c)).symm
  · intro w hw
    match w, hw with
    | ⟨0, _⟩, _ => exact ((dat2 (F := Ideal) (V13 m ρ) c).arrAt_in 0 rfl cfg2.N).trans (A_eq2 (V13 m ρ) c 0)
    | ⟨1, _⟩, _ => exact ((dat2 (F := Ideal) (V13 m ρ) c).arrAt_in 1 rfl cfg2.N).trans (A_eq2 (V13 m ρ) c 1)
    | ⟨2, _⟩, hw => exact absurd rfl hw

include H in
theorem W16_eq (c : Dev nD) : W16 m ρ c = rop3.result (W15 m ρ c) := by
  unfold W16
  refine withArrays_eq_result spec3 launch3.win.arr_inj c _ _ rop3 2 (binary_writes ..) ?_ ?_
  · rw [H.a3 (V15 m ρ) c]
    exact (binary_result main_v21 main_v36 main_v37 _ _ _ _ (W15 m ρ c)).symm
  · intro w hw
    match w, hw with
    | ⟨0, _⟩, _ => exact ((dat3 (F := Ideal) (V15 m ρ) c).arrAt_in 0 rfl cfg3.N).trans (A_eq3 (V15 m ρ) c 0)
    | ⟨1, _⟩, _ => exact ((dat3 (F := Ideal) (V15 m ρ) c).arrAt_in 1 rfl cfg3.N).trans (A_eq3 (V15 m ρ) c 1)
    | ⟨2, _⟩, hw => exact absurd rfl hw

include H in
theorem W17_eq (c : Dev nD) : W17 m ρ c = rop4.result (W16 m ρ c) := by
  unfold W17
  refine withArrays_eq_result spec4 launch4.win.arr_inj c _ _ rop4 3 (ternary_writes ..) ?_ ?_
  · rw [H.f4 (V16 m ρ) c]
    exact (ternary_result main_v37 main_v1 main_v0 main_v38 _ _ _ _ _ (W16 m ρ c)).symm
  · intro w hw
    match w, hw with
    | ⟨0, _⟩, _ => exact ((dat4 (F := Ideal) (V16 m ρ) c).arrAt_in 0 rfl cfg4.N).trans (A_eq4 (V16 m ρ) c 0)
    | ⟨1, _⟩, _ => exact ((dat4 (F := Ideal) (V16 m ρ) c).arrAt_in 1 rfl cfg4.N).trans (A_eq4 (V16 m ρ) c 1)
    | ⟨2, _⟩, _ => exact ((dat4 (F := Ideal) (V16 m ρ) c).arrAt_in 2 rfl cfg4.N).trans (A_eq4 (V16 m ρ) c 2)
    | ⟨3, _⟩, hw => exact absurd rfl hw

include H in
theorem W19_eq (c : Dev nD) : W19 m ρ c = rop5.result (W18 m ρ c) := by
  unfold W19
  refine withArrays_eq_result spec5 launch5.win.arr_inj c _ _ rop5 2 (binary_writes ..) ?_ ?_
  · rw [H.s5 (V18 m ρ) c]
    exact (binary_result main_v49 main_v50 main_v51 _ _ _ _ (W18 m ρ c)).symm
  · intro w hw
    match w, hw with
    | ⟨0, _⟩, _ => exact ((dat5 (F := Ideal) (V18 m ρ) c).arrAt_in 0 rfl cfg5.N).trans (A_eq5 (V18 m ρ) c 0)
    | ⟨1, _⟩, _ => exact ((dat5 (F := Ideal) (V18 m ρ) c).arrAt_in 1 rfl cfg5.N).trans (A_eq5 (V18 m ρ) c 1)
    | ⟨2, _⟩, hw => exact absurd rfl hw

include H in
theorem W21_eq (c : Dev nD) : W21 m ρ c = rop6.result (W20 m ρ c) := by
  unfold W21
  refine withArrays_eq_result spec6 launch6.win.arr_inj c _ _ rop6 2 (binary_writes ..) ?_ ?_
  · rw [H.a6 (V20 m ρ) c]
    exact (binary_result main_v0 main_v54 main_v55 _ _ _ _ (W20 m ρ c)).symm
  · intro w hw
    match w, hw with
    | ⟨0, _⟩, _ => exact ((dat6 (F := Ideal) (V20 m ρ) c).arrAt_in 0 rfl cfg6.N).trans (A_eq6 (V20 m ρ) c 0)
    | ⟨1, _⟩, _ => exact ((dat6 (F := Ideal) (V20 m ρ) c).arrAt_in 1 rfl cfg6.N).trans (A_eq6 (V20 m ρ) c 1)
    | ⟨2, _⟩, hw => exact absurd rfl hw

include H in
theorem W23_eq (c : Dev nD) : W23 m ρ c = rop7.result (W22 m ρ c) := by
  unfold W23
  refine withArrays_eq_result spec7 launch7.win.arr_inj c _ _ rop7 2 (binary_writes ..) ?_ ?_
  · rw [H.s7 (V22 m ρ) c]
    exact (binary_result main_v65 main_v66 main_v67 _ _ _ _ (W22 m ρ c)).symm
  · intro w hw
    match w, hw with
    | ⟨0, _⟩, _ => exact ((dat7 (F := Ideal) (V22 m ρ) c).arrAt_in 0 rfl cfg7.N).trans (A_eq7 (V22 m ρ) c 0)
    | ⟨1, _⟩, _ => exact ((dat7 (F := Ideal) (V22 m ρ) c).arrAt_in 1 rfl cfg7.N).trans (A_eq7 (V22 m ρ) c 1)
    | ⟨2, _⟩, hw => exact absurd rfl hw

include H in
theorem W25_eq (c : Dev nD) : W25 m ρ c = rop8.result (W24 m ρ c) := by
  unfold W25
  refine withArrays_eq_result spec8 launch8.win.arr_inj c _ _ rop8 2 (binary_writes ..) ?_ ?_
  · rw [H.a8 (V24 m ρ) c]
    exact (binary_result main_v55 main_v70 main_v71 _ _ _ _ (W24 m ρ c)).symm
  · intro w hw
    match w, hw with
    | ⟨0, _⟩, _ => exact ((dat8 (F := Ideal) (V24 m ρ) c).arrAt_in 0 rfl cfg8.N).trans (A_eq8 (V24 m ρ) c 0)
    | ⟨1, _⟩, _ => exact ((dat8 (F := Ideal) (V24 m ρ) c).arrAt_in 1 rfl cfg8.N).trans (A_eq8 (V24 m ρ) c 1)
    | ⟨2, _⟩, hw => exact absurd rfl hw

include H in
theorem W27_eq (c : Dev nD) : W27 m ρ c = rop9.result (W26 m ρ c) := by
  unfold W27
  refine withArrays_eq_result spec9 launch9.win.arr_inj c _ _ rop9 2 (binary_writes ..) ?_ ?_
  · rw [H.s9 (V26 m ρ) c]
    exact (binary_result main_v82 main_v83 main_v84 _ _ _ _ (W26 m ρ c)).symm
  · intro w hw
    match w, hw with
    | ⟨0, _⟩, _ => exact ((dat9 (F := Ideal) (V26 m ρ) c).arrAt_in 0 rfl cfg9.N).trans (A_eq9 (V26 m ρ) c 0)
    | ⟨1, _⟩, _ => exact ((dat9 (F := Ideal) (V26 m ρ) c).arrAt_in 1 rfl cfg9.N).trans (A_eq9 (V26 m ρ) c 1)
    | ⟨2, _⟩, hw => exact absurd rfl hw

include H in
theorem W29_eq (c : Dev nD) : W29 m ρ c = rop10.result (W28 m ρ c) := by
  unfold W29
  refine withArrays_eq_result spec10 launch10.win.arr_inj c _ _ rop10 2 (binary_writes ..) ?_ ?_
  · rw [H.a10 (V28 m ρ) c]
    exact (binary_result main_v38 main_v87 main_v88 _ _ _ _ (W28 m ρ c)).symm
  · intro w hw
    match w, hw with
    | ⟨0, _⟩, _ => exact ((dat10 (F := Ideal) (V28 m ρ) c).arrAt_in 0 rfl cfg10.N).trans (A_eq10 (V28 m ρ) c 0)
    | ⟨1, _⟩, _ => exact ((dat10 (F := Ideal) (V28 m ρ) c).arrAt_in 1 rfl cfg10.N).trans (A_eq10 (V28 m ρ) c 1)
    | ⟨2, _⟩, hw => exact absurd rfl hw

include H in
theorem W31_eq (c : Dev nD) : W31 m ρ c = rop11.result (W30 m ρ c) := by
  unfold W31
  refine withArrays_eq_result spec11 launch11.win.arr_inj c _ _ rop11 2 (binary_writes ..) ?_ ?_
  · rw [H.s11 (V30 m ρ) c]
    exact (binary_result main_v98 main_v99 main_v100 _ _ _ _ (W30 m ρ c)).symm
  · intro w hw
    match w, hw with
    | ⟨0, _⟩, _ => exact ((dat11 (F := Ideal) (V30 m ρ) c).arrAt_in 0 rfl cfg11.N).trans (A_eq11 (V30 m ρ) c 0)
    | ⟨1, _⟩, _ => exact ((dat11 (F := Ideal) (V30 m ρ) c).arrAt_in 1 rfl cfg11.N).trans (A_eq11 (V30 m ρ) c 1)
    | ⟨2, _⟩, hw => exact absurd rfl hw

include H in
theorem W33_eq (c : Dev nD) : W33 m ρ c = rop12.result (W32 m ρ c) := by
  unfold W33
  refine withArrays_eq_result spec12 launch12.win.arr_inj c _ _ rop12 2 (binary_writes ..) ?_ ?_
  · rw [H.a12 (V32 m ρ) c]
    exact (binary_result main_v88 main_v103 main_v104 _ _ _ _ (W32 m ρ c)).symm
  · intro w hw
    match w, hw with
    | ⟨0, _⟩, _ => exact ((dat12 (F := Ideal) (V32 m ρ) c).arrAt_in 0 rfl cfg12.N).trans (A_eq12 (V32 m ρ) c 0)
    | ⟨1, _⟩, _ => exact ((dat12 (F := Ideal) (V32 m ρ) c).arrAt_in 1 rfl cfg12.N).trans (A_eq12 (V32 m ρ) c 1)
    | ⟨2, _⟩, hw => exact absurd rfl hw

/-! ## One list of operations -/

/-- Every host operation and every region but the last, in program order. -/
abbrev opsAll : List (HloOp τ sig (Elt Ideal)) :=
  hostOps0 ++ hostOps0_1 ++ hostOps0_2 ++ hostOps0_3 ++ hostOps0_4 ++ hostOps0_5 ++ hostOps0_6 ++ hostOps0_7 ++ hostOps0_8 ++ [rop0] ++ hostOps1 ++ [rop1] ++ hostOps2 ++ [rop2] ++ hostOps3 ++ [rop3] ++ [rop4] ++ hostOps5 ++ [rop5] ++ hostOps6 ++ [rop6] ++ hostOps7 ++ [rop7] ++ hostOps8 ++ [rop8] ++ hostOps9 ++ [rop9] ++ hostOps10 ++ [rop10] ++ hostOps11 ++ [rop11] ++ hostOps12 ++ [rop12]

include H in
/-- The contents on entry to the last region are the launch memory after that one list. -/
theorem W33_flat (c : Dev nD) : W33 m ρ c = after opsAll (W0 m ρ c) := by
  rw [W33_eq m ρ H c]; dsimp only [W32]
  rw [W31_eq m ρ H c]; dsimp only [W30]
  rw [W29_eq m ρ H c]; dsimp only [W28]
  rw [W27_eq m ρ H c]; dsimp only [W26]
  rw [W25_eq m ρ H c]; dsimp only [W24]
  rw [W23_eq m ρ H c]; dsimp only [W22]
  rw [W21_eq m ρ H c]; dsimp only [W20]
  rw [W19_eq m ρ H c]; dsimp only [W18]
  rw [W17_eq m ρ H c]
  rw [W16_eq m ρ H c]; dsimp only [W15]
  rw [W14_eq m ρ H c]; dsimp only [W13]
  rw [W12_eq m ρ H c]; dsimp only [W11]
  rw [W10_eq m ρ H c]; dsimp only [W9, W8, W7, W6, W5, W4, W3, W2, W1]
  simp only [opsAll, after_append, after_single]

end Cert.KernelIdeal.AsOps

end
-- ==== Proof.KVal.lean ====
/-
  The idealized kernel's result buffer holds the composed function of the argument arrays: the fold of buffer
  contents through the program, read at the last region's inputs, then through the last region and the final slice.
-/
import proofs.«141111_j5652176961768_1_alg».proof.Proof.KRun
import proofs.«141111_j5652176961768_1_alg».proof.Proof.KOps
import proofs.«141111_j5652176961768_1_alg».proof.Proof.KDefs

set_option maxRecDepth 16384

noncomputable section

namespace Cert.KernelIdeal.KVal

open Cert.KernelIdeal Cert.KernelIdeal.Gen Cert.KernelIdeal.AsOps
open Idealize.ShloMosaic Idealize.ShloMosaic.TcCoe Idealize.SL.Sem Idealize.ShloMosaic.StableHlo

variable (m : (ℓ : Loc nD τ sig) → Buf (Elt Ideal) ℓ) (ρ : Dev nD → PrngReg) (H : RegionValues)

set_option maxHeartbeats 64800000 in
include H in
/-- The last region's five input arrays, on entry to it. -/
theorem entry13 (c : Dev nD) :
    W33 m ρ c (Proc.devRef .tc main_v71) = gAll (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg10))
    ∧ W33 m ρ c (Proc.devRef .tc main_v2) = padC (m ((c.tc : Thread nD τ).loc main_arg8))
    ∧ W33 m ρ c (Proc.devRef .tc main_v104) = gAux (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg10))
    ∧ W33 m ρ c (Proc.devRef .tc main_v3) = padC (m ((c.tc : Thread nD τ).loc main_arg9))
    ∧ W33 m ρ c (Proc.devRef .tc main_v38) = curAux (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) (m ((c.tc : Thread nD τ).loc main_arg10)) := by
  rw [W33_flat m ρ H c]
  simp only [opsAll, hostOps0, hostOps0_1, hostOps0_2, hostOps0_3, hostOps0_4, hostOps0_5, hostOps0_6, hostOps0_7, hostOps0_8, hostOps1, hostOps2, hostOps3, hostOps5, hostOps6, hostOps7, hostOps8, hostOps9, hostOps10, hostOps11, hostOps12, List.cons_append, List.nil_append, List.append_nil, List.append_assoc]
  refine ⟨?_, ?_, ?_, ?_, ?_⟩ <;> after_results_simp <;> rfl

include H in
/-- The result buffer at the end of the fold: the last region's output, sliced to its first 150002 rows. -/
theorem result_eq (c : Dev nD) :
    W35 m ρ c (Proc.devRef .tc main_v106) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  obtain ⟨h71, h2, h104, h3, h38⟩ := entry13 m ρ H c
  show after hostOps14 (W34 m ρ c) (Proc.devRef .tc main_v106) = _
  simp only [hostOps14]
  after_results
  rw [show W34 m ρ c (Proc.devRef .tc main_v105) = (dat13 (F := Ideal) (V33 m ρ) c).arrAt 5 cfg13.N from W34_arr m ρ c 5]
  rw [H.f13 (V33 m ρ) c]
  unfold out curBuy
  rw [← h71, ← h2, ← h104, ← h3, ← h38]

include H in
/-- The idealized kernel's run: it terminates without a fault, its result is `out` of the argument arrays as
    launched, and the argument arrays end unchanged. -/
theorem run : θ_run defs (onTc (τ := τ) (main (F := Ideal))) ⟨m, fun _ => 0, ρ⟩ (fun r => ∀ c : Dev nD,
      r.2.mem ((c.tc : Thread nD τ).loc main_v106) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_v106 (by decide))).trans (result_eq m ρ H c),
     (h c _ (mem_uc main_arg0 (by decide))).trans (W35_main_arg0 m ρ c),
     (h c _ (mem_uc main_arg1 (by decide))).trans (W35_main_arg1 m ρ c),
     (h c _ (mem_uc main_arg2 (by decide))).trans (W35_main_arg2 m ρ c),
     (h c _ (mem_uc main_arg3 (by decide))).trans (W35_main_arg3 m ρ c),
     (h c _ (mem_uc main_arg4 (by decide))).trans (W35_main_arg4 m ρ c),
     (h c _ (mem_uc main_arg5 (by decide))).trans (W35_main_arg5 m ρ c),
     (h c _ (mem_uc main_arg6 (by decide))).trans (W35_main_arg6 m ρ c),
     (h c _ (mem_uc main_arg7 (by decide))).trans (W35_main_arg7 m ρ c),
     (h c _ (mem_uc main_arg8 (by decide))).trans (W35_main_arg8 m ρ c),
     (h c _ (mem_uc main_arg9 (by decide))).trans (W35_main_arg9 m ρ c),
     (h c _ (mem_uc main_arg10 (by decide))).trans (W35_main_arg10 m ρ c)⟩)
    (Cert.KernelIdeal.RunAll.run_all m ρ)

end Cert.KernelIdeal.KVal

end
-- ==== Proof.ColsRange.lean ====
/-
  The index range of the two column tables, read out of the precondition.

  The precondition is a conjunction of eight "for all entries" statements. Six say a float argument is finite; the
  last two say that every entry `v` of the integer arrays `cols_aux` and `cols_buy` satisfies `0 ≤ v` and
  `v < 150002`, both comparisons signed. A conjunction that holds gives each conjunct; a "for all entries"
  that holds gives the statement at any one entry; a signed comparison that holds is the inequality between the
  words' signed readings. Every step is pointwise: nothing is evaluated over the 600000 entries.
-/
import proofs.«141111_j5652176961768_1_alg».proof.Defs
import proofs.«141111_j5652176961768_1_alg».proof.Proof.Gen.Pre_finite_inputs
import Idealize.ShloMosaic.Lib.ReduceAll
import Idealize.ShloMosaic.Lib.ValueIdx

noncomputable section

namespace Cert.Proof.ColsRange

open Idealize.ShloMosaic Idealize.ShloMosaic.TcCoe Idealize.SL.Sem Idealize.ShloMosaic.ValueIdx

/-- The scalar shape has one index. -/
instance scalar_idx_subsingleton : Subsingleton Cert.Pre_finite_inputs.S_.Idx := ⟨fun a b => funext fun d => d.elim0⟩

/-- The signed readings of the two literals the entries are compared with. -/
theorem toInt_zero : (0#32 : BitVec 32).toInt = 0 := by decide
theorem toInt_bound : (150002#32 : BitVec 32).toInt = 150002 := by decide

/-- One entry's two comparisons, read back: `0 ≤ v` and `v < 150002` signed. -/
theorem entry_range (v z b : BitVec 32) (hz : z = 0#32) (hb : b = 150002#32)
    (h : IntOp.andi (IntOp.cmpi .sge v z) (IntOp.cmpi .slt v b) = 1#1) : 0 ≤ v.toInt ∧ v.toInt < 150002 := by
  subst hz hb
  obtain ⟨h0, h1⟩ := IntOp.andi_eq_one.1 h
  have h0' := IntOp.cmpi_sge.1 h0
  have h1' := IntOp.cmpi_slt.1 h1
  rw [toInt_zero] at h0'
  rw [toInt_bound] at h1'
  exact ⟨h0', h1'⟩

open Cert.Pre_finite_inputs in
/-- The precondition's function, all ones, puts every entry of its third and sixth arguments in `[0, 150002)`. -/
theorem fn_cols [hPre_finite_inputs : Cert.Pre_finite_inputs.Facts]
    (a0 : FVec Ideal S150002x128 .f32) (a1 a2 : IVec S600000 32) (a3 : FVec Ideal S600000 .f32)
    (a4 a5 : IVec S600000 32) (a6 : FVec Ideal S600000 .f32) (a7 a8 a9 : FVec Ideal S150002x1 .f32)
    (a10 : IVec S6x600000 1)
    (h : fn (F := Ideal) a0 a1 a2 a3 a4 a5 a6 a7 a8 a9 a10 = fun _ => 1#1) (e : Fin 600000) :
    (0 ≤ (a2 (ix1 e)).toInt ∧ (a2 (ix1 e)).toInt < 150002)
      ∧ (0 ≤ (a5 (ix1 e)).toInt ∧ (a5 (ix1 e)).toInt < 150002) := by
  have h0 := congrFun h ix0
  dsimp only [fn, fn_part1, fn_part2] at h0
  change IntOp.andi _ _ = 1#1 at h0
  obtain ⟨h1, hbuy⟩ := IntOp.andi_eq_one.1 h0
  change IntOp.andi _ _ = 1#1 at h1
  obtain ⟨-, haux⟩ := IntOp.andi_eq_one.1 h1
  have ea := Host.reduce_andi_all _ _ _ _ _ haux (ix1 e)
  have eb := Host.reduce_andi_all _ _ _ _ _ hbuy (ix1 e)
  exact ⟨entry_range _ _ _ rfl rfl ea, entry_range _ _ _ rfl rfl eb⟩

/-- Every entry of `cols_aux` lies in `[0, 150002)`. -/
theorem cols_aux_range [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (e : Fin 600000) :
    0 ≤ ((m ((c.tc : Thread Cert.KernelIdeal.nD Cert.KernelIdeal.τ).loc Cert.KernelIdeal.main_arg2)) (ix1 e)).toInt ∧ ((m ((c.tc : Thread Cert.KernelIdeal.nD Cert.KernelIdeal.τ).loc Cert.KernelIdeal.main_arg2)) (ix1 e)).toInt < 150002 :=
  (fn_cols _ _ _ _ _ _ _ _ _ _ _ (h c) e).1

/-- Every entry of `cols_buy` lies in `[0, 150002)`. -/
theorem cols_buy_range [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (e : Fin 600000) :
    0 ≤ ((m ((c.tc : Thread Cert.KernelIdeal.nD Cert.KernelIdeal.τ).loc Cert.KernelIdeal.main_arg5)) (ix1 e)).toInt ∧ ((m ((c.tc : Thread Cert.KernelIdeal.nD Cert.KernelIdeal.τ).loc Cert.KernelIdeal.main_arg5)) (ix1 e)).toInt < 150002 :=
  (fn_cols _ _ _ _ _ _ _ _ _ _ _ (h c) e).2

end Cert.Proof.ColsRange

end
-- ==== Proof.RefFinal.lean ====
/-
  The reference's two normalization stretches, each read as one formula of the specification.

  After its aggregations the reference divides the aggregated table by the literal 3, multiplies every lane of a row
  by the row's transform weight, divides the row by the larger of its Euclidean norm (the square root of the row
  sum of the squares) and the floor, and adds the residual table. Read index by index this is the specification's
  `fin1` (one aggregation) and `fin2` (the sum of two). Two laws join the two spellings, and neither needs
  finiteness: on every extended real the quotient by the real 3 is the product with 1/3, and the row sum's initial
  value is 0.
-/
import proofs.«141111_j5652176961768_1_alg».proof.Proof.Gen.ReferenceIdeal.Read
import proofs.«141111_j5652176961768_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.ValueIdx

/-! ## The literal 3 -/

/-- The single-precision word `0x40400000` denotes the real 3. -/
theorem ofBits_three : Ideal.ofBits .f32 0x40400000#32 = ((3 : ℝ) : EReal) := by
  simp [Ideal.ofBits, Ideal.ieee, -EReal.coe_mul]; norm_num

/-- On every extended real the quotient by the literal 3 is the product with 1/3. -/
theorem div_three (x : EReal) : Ideal.div x (Ideal.ofBits .f32 0x40400000#32) = x * ((1 / 3 : ℝ) : EReal) := by
  rw [ofBits_three, Ideal.div_coe (by norm_num : (3 : ℝ) ≠ 0)]

/-! ## The composed index maps, by coordinates -/

/-- Broadcasting a column along the lanes reads row `p` of the column. -/
theorem idx_v38 (p : Fin 150002) (q : Fin 128) : Read.idx_main_v38 (ix2 p q) = ix2 p (0 : Fin 1) :=
  funext fun a => Fin.ext (by match a with | ⟨0, _⟩ => rfl | ⟨1, _⟩ => rfl)
theorem idx_v43 (p : Fin 150002) (q : Fin 128) : Read.idx_main_v43 (ix2 p q) = ix2 p (0 : Fin 1) :=
  funext fun a => Fin.ext (by match a with | ⟨0, _⟩ => rfl | ⟨1, _⟩ => rfl)
/-- The kept axis of the row sum is the row. -/
theorem idx_call0_v2 (p : Fin 150002) : Read.idx_main_call0_v2 (ix2 p (0 : Fin 1)) = ix1 p :=
  funext fun a => Fin.ext (by match a with | ⟨0, _⟩ => rfl)
/-- Term `k` of row `p`'s sum is lane `k` of row `p`. -/
theorem idx_call0_v1 (p : Fin 150002) (k : Fin 128) : Read.idx_main_call0_v1 (ix1 p) k = ix2 p k :=
  funext fun a => Fin.ext (by match a with | ⟨0, _⟩ => rfl | ⟨1, _⟩ => rfl)

/-! ## One aggregation -/

/-- The weighted mean row: lane `k` of row `p` of the scaled table is the specification's `agg`. -/
theorem v39_eq (x0 : (⟨S150002x128, .f32⟩ : BufTy).Contents (Elt Ideal)) (x1 x2 : (⟨S600000, .i32⟩ : BufTy).Contents (Elt Ideal)) (x3 : (⟨S600000, .f32⟩ : BufTy).Contents (Elt Ideal)) (x7 : (⟨S150002x1, .f32⟩ : BufTy).Contents (Elt Ideal)) (x10 : (⟨S6x600000, .i1⟩ : BufTy).Contents (Elt Ideal)) (p : Fin 150002) (k : Fin 128) :
    Read.val_main_v39 (F := Ideal) x0 x1 x2 x3 x7 x10 (ix2 p k)
      = Cert.Mp.agg (Read.val_main_v35 (F := Ideal) x0 x1 x2 x3 x10) x7 p k := by
  rw [Read.val_main_v39_apply, Read.val_main_v38_apply, Read.val_main_v37_apply, Read.val_main_v36_apply,
    Read.val_main_cst_4_apply]
  simp only [idx_v38, Ideal.mulf_def, Ideal.hostDivf_def, Ideal.ofBits_def, div_three]
  rfl

/-- The first normalization stretch is `fin1` of the aggregated table, the transform weights and the residual. -/
theorem ref_fin1 (x0 : (⟨S150002x128, .f32⟩ : BufTy).Contents (Elt Ideal)) (x1 x2 : (⟨S600000, .i32⟩ : BufTy).Contents (Elt Ideal)) (x3 : (⟨S600000, .f32⟩ : BufTy).Contents (Elt Ideal)) (x7 : (⟨S150002x1, .f32⟩ : BufTy).Contents (Elt Ideal)) (x10 : (⟨S6x600000, .i1⟩ : BufTy).Contents (Elt Ideal)) :
    Read.val_main_v45 (F := Ideal) x0 x1 x2 x3 x7 x10
      = Cert.Mp.fin1 (Read.val_main_v35 (F := Ideal) x0 x1 x2 x3 x10) x7 x0 := by
  funext i
  obtain ⟨p, q, rfl⟩ : ∃ (p : Fin 150002) (q : Fin 128), i = ix2 p q := ⟨i 0, i 1, eq_ix2 i⟩
  rw [Read.val_main_v45_apply, Read.val_main_v44_apply, Read.val_main_v43_apply, Read.val_main_v42_apply,
    Read.val_main_v41_apply, Read.val_main_cst_5_apply, Read.val_main_v40_apply, Read.val_main_call0_v2_apply,
    Read.val_main_call0_v1_apply, Read.val_main_call0_cst_apply]
  simp only [idx_v43, idx_call0_v2, idx_call0_v1, Read.val_main_call0_v0_apply, v39_eq, Ideal.addf_def,
    Ideal.mulf_def, Ideal.hostDivf_def, Ideal.maximumf_def, Ideal.hostUnary_sqrt_def, Ideal.ofBits_def,
    Ideal.ofBits_zero_f32, zero_add]
  rfl

/-! ## The sum of two aggregations -/

theorem idx_v120 (p : Fin 150002) (q : Fin 128) : Read.idx_main_v120 (ix2 p q) = ix2 p (0 : Fin 1) :=
  funext fun a => Fin.ext (by match a with | ⟨0, _⟩ => rfl | ⟨1, _⟩ => rfl)
theorem idx_v122 (p : Fin 150002) (q : Fin 128) : Read.idx_main_v122 (ix2 p q) = ix2 p (0 : Fin 1) :=
  funext fun a => Fin.ext (by match a with | ⟨0, _⟩ => rfl | ⟨1, _⟩ => rfl)
theorem idx_v128 (p : Fin 150002) (q : Fin 128) : Read.idx_main_v128 (ix2 p q) = ix2 p (0 : Fin 1) :=
  funext fun a => Fin.ext (by match a with | ⟨0, _⟩ => rfl | ⟨1, _⟩ => rfl)
theorem idx_call1_v2 (p : Fin 150002) : Read.idx_main_call1_v2 (ix2 p (0 : Fin 1)) = ix1 p :=
  funext fun a => Fin.ext (by match a with | ⟨0, _⟩ => rfl)
theorem idx_call1_v1 (p : Fin 150002) (k : Fin 128) : Read.idx_main_call1_v1 (ix1 p) k = ix2 p k :=
  funext fun a => Fin.ext (by match a with | ⟨0, _⟩ => rfl | ⟨1, _⟩ => rfl)

/-- Lane `k` of row `p` of the sum of the two scaled tables is the sum of the two `agg`s. -/
theorem v124_eq (x0 : (⟨S150002x128, .f32⟩ : BufTy).Contents (Elt Ideal)) (x1 x2 : (⟨S600000, .i32⟩ : BufTy).Contents (Elt Ideal)) (x3 : (⟨S600000, .f32⟩ : BufTy).Contents (Elt Ideal)) (x4 x5 : (⟨S600000, .i32⟩ : BufTy).Contents (Elt Ideal)) (x6 : (⟨S600000, .f32⟩ : BufTy).Contents (Elt Ideal)) (x7 x8 x9 : (⟨S150002x1, .f32⟩ : BufTy).Contents (Elt Ideal)) (x10 : (⟨S6x600000, .i1⟩ : BufTy).Contents (Elt Ideal)) (p : Fin 150002) (k : Fin 128) :
    Read.val_main_v124 (F := Ideal) x0 x1 x2 x3 x4 x5 x6 x7 x8 x9 x10 (ix2 p k)
      = Cert.Mp.agg (Read.val_main_v80 (F := Ideal) x0 x4 x5 x6 x10) x8 p k
        + Cert.Mp.agg (Read.val_main_v117 (F := Ideal) x0 x1 x2 x3 x4 x5 x6 x7 x10) x9 p k := by
  rw [Read.val_main_v124_apply, Read.val_main_v121_apply, Read.val_main_v120_apply, Read.val_main_v82_apply,
    Read.val_main_v81_apply, Read.val_main_cst_12_apply, Read.val_main_v123_apply, Read.val_main_v122_apply,
    Read.val_main_v119_apply, Read.val_main_v118_apply, Read.val_main_cst_19_apply]
  simp only [idx_v120, idx_v122, Ideal.addf_def, Ideal.mulf_def, Ideal.hostDivf_def, Ideal.ofBits_def, div_three]
  rfl

/-- The second normalization stretch is `fin2` of the two aggregated tables, their transform weights, and the first
    stretch's result as the residual. -/
theorem ref_fin2 (x0 : (⟨S150002x128, .f32⟩ : BufTy).Contents (Elt Ideal)) (x1 x2 : (⟨S600000, .i32⟩ : BufTy).Contents (Elt Ideal)) (x3 : (⟨S600000, .f32⟩ : BufTy).Contents (Elt Ideal)) (x4 x5 : (⟨S600000, .i32⟩ : BufTy).Contents (Elt Ideal)) (x6 : (⟨S600000, .f32⟩ : BufTy).Contents (Elt Ideal)) (x7 x8 x9 : (⟨S150002x1, .f32⟩ : BufTy).Contents (Elt Ideal)) (x10 : (⟨S6x600000, .i1⟩ : BufTy).Contents (Elt Ideal)) :
    Read.val_main_v130 (F := Ideal) x0 x1 x2 x3 x4 x5 x6 x7 x8 x9 x10
      = Cert.Mp.fin2 (Read.val_main_v80 (F := Ideal) x0 x4 x5 x6 x10) x8
          (Read.val_main_v117 (F := Ideal) x0 x1 x2 x3 x4 x5 x6 x7 x10) x9
          (Read.val_main_v45 (F := Ideal) x0 x1 x2 x3 x7 x10) := by
  funext i
  obtain ⟨p, q, rfl⟩ : ∃ (p : Fin 150002) (q : Fin 128), i = ix2 p q := ⟨i 0, i 1, eq_ix2 i⟩
  rw [Read.val_main_v130_apply, Read.val_main_v129_apply, Read.val_main_v128_apply, Read.val_main_v127_apply,
    Read.val_main_v126_apply, Read.val_main_cst_20_apply, Read.val_main_v125_apply, Read.val_main_call1_v2_apply,
    Read.val_main_call1_v1_apply, Read.val_main_call1_cst_apply]
  simp only [idx_v128, idx_call1_v2, idx_call1_v1, Read.val_main_call1_v0_apply, v124_eq, Ideal.addf_def,
    Ideal.mulf_def, Ideal.hostDivf_def, Ideal.maximumf_def, Ideal.hostUnary_sqrt_def, Ideal.ofBits_def,
    Ideal.ofBits_zero_f32, zero_add]
  rfl

end Cert.ReferenceIdeal.RefValue

end
-- ==== Proof.LayoutGather.lean ====
/-
  A row gather read at an index, and what it does to two tables that hold the same leading rows.

  The operand is a table of N rows of 128 lanes, the start indices one signed 32-bit word per result row,
  the result one table row per start index. Result element (e, k) is the operand at (clamp(idx e), k), where
  the start index is read signed and clamped into [0, N - 1]. When the start index already lies in
  [0, 150002) the clamp does nothing at either extent, 150002 or 151552, so gathering from a long table whose
  first 150002 rows are those of a short table gives the same rows as gathering from the short table.
-/
import proofs.«141111_j5652176961768_1_alg».proof.KernelIdeal
import proofs.«141111_j5652176961768_1_alg».proof.ReferenceIdeal
import proofs.«141111_j5652176961768_1_alg».proof.Proof.Spec
import Idealize.ShloMosaic.Lib.ValueIdx
import Idealize.ShloMosaic.Lib.Pipeline.Value
import Idealize.ShloMosaic.PureOps.Ideal.Laws

noncomputable section

namespace Cert.Mp.Layout

open Idealize.ShloMosaic Idealize.ShloMosaic.ValueIdx

/-- The dimension numbers of a row gather: operand [N, 128], start indices [E, 1], result [E, 128]; the
    row axis is collapsed and indexed, the lane axis is the one offset axis. -/
def rowDims (N E : Nat)
    (wf : GatherDims.WF ⟨2, ![N, 128]⟩ ⟨2, ![E, 1]⟩ ⟨2, ![E, 128]⟩ [1] [0] [] [0] [] 1 ![1, 128]) :
    GatherDims ⟨2, ![N, 128]⟩ ⟨2, ![E, 1]⟩ ⟨2, ![E, 128]⟩ where
  offsetDims := [1]
  collapsedSliceDims := [0]
  operandBatchingDims := []
  startIndicesBatchingDims := []
  startIndexMap := [0]
  indexVectorDim := 1
  sliceSizes := ![1, 128]
  wf := wf

section
variable {N E w : Nat}
  (wf : GatherDims.WF ⟨2, ![N, 128]⟩ ⟨2, ![E, 1]⟩ ⟨2, ![E, 128]⟩ [1] [0] [] [0] [] 1 ![1, 128])
  (idx : IVec ⟨2, ![E, 1]⟩ w) (j : (⟨2, ![E, 128]⟩ : Shape).Idx)

/-- On the row axis the operand index is the start index of the result's row, read signed and clamped so that
    the one-row slice fits. -/
theorem rowDims_operandIdx_row :
    ((rowDims N E wf).operandIdx j idx (0 : Fin 2)).val = min (idx (ix2 (j 0) 0)).toInt.toNat (N - 1) := by
  show (rowDims N E wf).start j idx 0 + (rowDims N E wf).batchCoord j 0 + (rowDims N E wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims N E wf).startIndexMap from List.mem_singleton.mpr rfl)]
  have hsi : (rowDims N E wf).siIdx j ⟨List.idxOf (0 : Fin 2) (rowDims N E wf).startIndexMap,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- On the lane axis the operand index is the result's lane. -/
theorem rowDims_operandIdx_lane :
    ((rowDims N E wf).operandIdx j idx (1 : Fin 2)).val = (j 1).val := by
  show (rowDims N E wf).start j idx 1 + (rowDims N E wf).batchCoord j 1 + (rowDims N E wf).offCoord j 1 = _
  rw [GatherDims.batchCoord_eq_zero _ _ _ List.not_mem_nil]
  unfold GatherDims.start
  rw [dif_neg (show (1 : Fin 2) ∉ (rowDims N E wf).startIndexMap from (by decide : (1 : Fin 2) ∉ [(0 : Fin 2)]))]
  unfold GatherDims.offCoord
  rw [dif_pos (show (1 : Fin 2) ∈ (rowDims N E wf).sKept from (by decide : (1 : Fin 2) ∈ (List.finRange 2).filter (· ∉ [(0 : Fin 2)] ++ [])))]
  simp only [Nat.add_zero, Nat.zero_add]
  rfl

/-- THE ROW GATHER READ AT (e, k): the operand's row at the start index of e, read signed and clamped into
    [0, N - 1], lane k. -/
theorem gather_row_apply {α : Type} (hN : 0 < N) (x : (⟨2, ![N, 128]⟩ : Shape).Idx → α) :
    Host.gather (rowDims N E wf) x idx j
      = x (ix2 (⟨min (idx (ix2 (j 0) 0)).toInt.toNat (N - 1), by omega⟩ : Fin N) (j 1)) := by
  unfold Host.gather
  congr 1
  funext a
  refine Fin.ext ?_
  match a with
  | ⟨0, _⟩ => exact rowDims_operandIdx_row wf idx j
  | ⟨1, _⟩ => exact rowDims_operandIdx_lane wf idx j

end

section
variable [Cert.KernelIdeal.Facts₀]

/-- The gather from the long table (151552 rows) read at (e, k). -/
theorem gather_long_apply {α : Type} (X : Cert.KernelIdeal.S151552x128.Idx → α)
    (idx : Cert.KernelIdeal.S600000x1.Idx → BitVec 32) (j : Cert.KernelIdeal.S600000x128.Idx) :
    Host.gather Cert.KernelIdeal.gather_S151552x128_S600000x1_S600000x128_1_0_n_n_0_1_1128 X idx j
      = X (ix2 (⟨min (idx (ix2 (j 0) 0)).toInt.toNat 151551, by omega⟩ : Fin 151552) (j 1)) :=
  gather_row_apply (N := 151552) (E := 600000)
    Cert.KernelIdeal.Facts₀.gather_S151552x128_S600000x1_S600000x128_1_0_n_n_0_1_1128_wf idx j (by omega) X

end

section
variable [Cert.ReferenceIdeal.Facts₀]

/-- The gather from the short table (150002 rows) read at (e, k). -/
theorem gather_short_apply {α : Type} (Y : Cert.ReferenceIdeal.S150002x128.Idx → α)
    (idx : Cert.ReferenceIdeal.S600000x1.Idx → BitVec 32) (j : Cert.ReferenceIdeal.S600000x128.Idx) :
    Host.gather Cert.ReferenceIdeal.gather_S150002x128_S600000x1_S600000x128_1_0_n_n_0_1_1128 Y idx j
      = Y (ix2 (⟨min (idx (ix2 (j 0) 0)).toInt.toNat 150001, by omega⟩ : Fin 150002) (j 1)) :=
  gather_row_apply (N := 150002) (E := 600000)
    Cert.ReferenceIdeal.Facts₀.gather_S150002x128_S600000x1_S600000x128_1_0_n_n_0_1_1128_wf idx j (by omega) Y

end

section
variable [Cert.KernelIdeal.Facts₀] [Cert.ReferenceIdeal.Facts₀]

/-- GATHERING CARRIES AGREEMENT: when every start index lies in [0, 150002) and the two index arrays are equal,
    the rows gathered from a long table are the rows gathered from the short table it agrees with: neither
    clamp moves an index that is already a row of the short table. -/
theorem gather_agree {X : Tab 151552} {Y : Tab 150002} (h : Agree X Y)
    (iK iR : Cert.KernelIdeal.S600000x1.Idx → BitVec 32)
    (hi : ∀ e : Fin 600000, iK (ix2 e 0) = iR (ix2 e 0) ∧ 0 ≤ (iR (ix2 e 0)).toInt ∧ (iR (ix2 e 0)).toInt < 150002) :
    Host.gather Cert.KernelIdeal.gather_S151552x128_S600000x1_S600000x128_1_0_n_n_0_1_1128 X iK = Host.gather Cert.ReferenceIdeal.gather_S150002x128_S600000x1_S600000x128_1_0_n_n_0_1_1128 Y iR := by
  funext j
  rw [gather_long_apply, gather_short_apply]
  obtain ⟨he, h0, h1⟩ := hi (j 0)
  have key : ∀ (a : Fin 151552) (b : Fin 150002), a.val = b.val → X (ix2 a (j 1)) = Y (ix2 b (j 1)) := by
    intro a b hab
    have hab' : a = up b := Fin.ext hab
    rw [hab']; exact h b (j 1)
  refine key _ _ ?_
  show min (iK (ix2 (j 0) 0)).toInt.toNat 151551 = min (iR (ix2 (j 0) 0)).toInt.toNat 150001
  rw [he]; omega

end

end Cert.Mp.Layout

end
-- ==== Proof.LayoutScatter.lean ====
/-
  An accumulating row scatter into a zero table, and why its first 150002 rows do not depend on whether the
  table has 150002 or 151552 rows.

  The operand is a table of N rows of 128 lanes, the scatter indices one signed 32-bit word per update row,
  the updates one table row per index. Update (e, k') is added to element (r, k) of the operand exactly when
  the index of e, read signed (not clamped), is r and k' = k; an index outside [0, N) is dropped. For a row
  r < 150002 the condition "the index of e is r" does not mention N, so the updates summed into row r are the
  same at both extents; updates landing in rows 150002 ... 151551 of the long table touch no compared row.
-/
import proofs.«141111_j5652176961768_1_alg».proof.KernelIdeal
import proofs.«141111_j5652176961768_1_alg».proof.ReferenceIdeal
import proofs.«141111_j5652176961768_1_alg».proof.Proof.Spec
import Idealize.ShloMosaic.Lib.ValueIdx
import Idealize.ShloMosaic.Lib.Pipeline.Value
import Idealize.ShloMosaic.PureOps.Ideal.Laws

noncomputable section

namespace Cert.Mp.Layout

open Idealize.ShloMosaic Idealize.ShloMosaic.ValueIdx

/-- The dimension numbers of a row scatter: operand [N, 128], scatter indices [E, 1], updates [E, 128]; the
    row axis is inserted and indexed, the lane axis is the one window axis. -/
def rowScatter (N E : Nat) (wf : ScatterDims.WF ⟨2, ![N, 128]⟩ ⟨2, ![E, 1]⟩ ⟨2, ![E, 128]⟩ [1] [0] [0] 1) :
    ScatterDims ⟨2, ![N, 128]⟩ ⟨2, ![E, 1]⟩ ⟨2, ![E, 128]⟩ where
  updateWindowDims := [1]
  insertedWindowDims := [0]
  scatterDimsToOperandDims := [0]
  indexVectorDim := 1
  wf := wf

section
variable {N E w : Nat} (wf : ScatterDims.WF ⟨2, ![N, 128]⟩ ⟨2, ![E, 1]⟩ ⟨2, ![E, 128]⟩ [1] [0] [0] 1)
  (idx : IVec ⟨2, ![E, 1]⟩ w) (j : (⟨2, ![E, 128]⟩ : Shape).Idx)

/-- On the row axis an update starts at its scatter index, read signed. -/
theorem rowScatter_start_row :
    (rowScatter N E wf).start j idx (0 : Fin 2) = (idx (ix2 (j 0) 0)).toInt := by
  unfold ScatterDims.start
  rw [dif_pos (show (0 : Fin 2) ∈ (rowScatter N E wf).scatterDimsToOperandDims from List.mem_singleton.mpr rfl)]
  have hsi : (rowScatter N E wf).siIdx j ⟨List.idxOf (0 : Fin 2) (rowScatter N E wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- On the lane axis an update starts at lane 0. -/
theorem rowScatter_start_lane : (rowScatter N E wf).start j idx (1 : Fin 2) = 0 := by
  unfold ScatterDims.start
  rw [dif_neg (show (1 : Fin 2) ∉ (rowScatter N E wf).scatterDimsToOperandDims from (by decide : (1 : Fin 2) ∉ [(0 : Fin 2)]))]

/-- The row axis is inserted: no window coordinate. -/
theorem rowScatter_window_row : (rowScatter N E wf).window j (0 : Fin 2) = 0 := by
  unfold ScatterDims.window
  rw [dif_neg (show (0 : Fin 2) ∉ (rowScatter N E wf).sKept from (by decide : (0 : Fin 2) ∉ (List.finRange 2).filter (· ∉ [(0 : Fin 2)])))]

/-- The lane axis carries the update's lane. -/
theorem rowScatter_window_lane : (rowScatter N E wf).window j (1 : Fin 2) = (j 1).val := by
  unfold ScatterDims.window
  rw [dif_pos (show (1 : Fin 2) ∈ (rowScatter N E wf).sKept from (by decide : (1 : Fin 2) ∈ (List.finRange 2).filter (· ∉ [(0 : Fin 2)])))]
  rfl

/-- WHERE AN UPDATE LANDS: update (e, k') lands on element (r, k) of the operand exactly when the scatter
    index of e, read signed, is r and k' = k. (An index outside [0, N) lands nowhere.) -/
theorem rowScatter_resultIdx?_eq_some_iff (r : Fin N) (k : Fin 128) :
    (rowScatter N E wf).resultIdx? j idx = some (ix2 r k)
      ↔ (idx (ix2 (j 0) 0)).toInt = (r.val : Int) ∧ (j 1).val = k.val := by
  unfold ScatterDims.resultIdx?
  split
  · rename_i h
    rw [Option.some.injEq]
    constructor
    · intro he
      have h0 := congrArg (fun f => (f (0 : Fin 2)).val) he
      have h1 := congrArg (fun f => (f (1 : Fin 2)).val) he
      simp only [rowScatter_start_row, rowScatter_start_lane, rowScatter_window_row, rowScatter_window_lane] at h0 h1
      have hr := (h 0).1
      rw [rowScatter_start_row, rowScatter_window_row] at hr
      change ((idx (ix2 (j 0) 0)).toInt + ((0 : Nat) : Int)).toNat = r.val at h0
      change ((0 : Int) + (((j 1).val : Nat) : Int)).toNat = k.val at h1
      constructor <;> omega
    · rintro ⟨h0, h1⟩
      funext a
      refine Fin.ext ?_
      match a with
      | ⟨0, _⟩ =>
        show ((rowScatter N E wf).start j idx 0 + ((rowScatter N E wf).window j 0 : Nat)).toNat = r.val
        rw [rowScatter_start_row, rowScatter_window_row]; omega
      | ⟨1, _⟩ =>
        show ((rowScatter N E wf).start j idx 1 + ((rowScatter N E wf).window j 1 : Nat)).toNat = k.val
        rw [rowScatter_start_lane, rowScatter_window_lane]; omega
  · rename_i h
    constructor
    · intro he; exact absurd he (by simp)
    · rintro ⟨h0, h1⟩
      exfalso; apply h
      intro a
      match a with
      | ⟨0, _⟩ =>
        show 0 ≤ (rowScatter N E wf).start j idx 0 + ((rowScatter N E wf).window j 0 : Nat)
          ∧ (rowScatter N E wf).start j idx 0 + ((rowScatter N E wf).window j 0 : Nat) < (N : Int)
        rw [rowScatter_start_row, rowScatter_window_row]
        have := r.isLt; omega
      | ⟨1, _⟩ =>
        show 0 ≤ (rowScatter N E wf).start j idx 1 + ((rowScatter N E wf).window j 1 : Nat)
          ∧ (rowScatter N E wf).start j idx 1 + ((rowScatter N E wf).window j 1 : Nat) < (128 : Int)
        rw [rowScatter_start_lane, rowScatter_window_lane]
        have := (j 1).isLt
        have : (j 1).val < 128 := this
        omega

end

/-- At exact extended reals the accumulating scatter, read at an element: the operand's element plus the sum of
    the updates that land on it. -/
theorem scatterAdd_ideal_apply {s si u : Shape} {w : Nat} {φ : FTy} (d : ScatterDims s si u) (x : FVec Ideal s φ)
    (idx : IVec si w) (upd : FVec Ideal u φ) (i : s.Idx) :
    Host.scatterAdd (F := Ideal) d x idx upd i
      = x i + ∑ j ∈ Finset.univ.filter (fun j => d.resultIdx? j idx = some i), upd j := rfl

/-- A broadcast constant reads as the constant everywhere. -/
theorem broadcast_constant_apply {t : Shape} {φ : FTy} (b : BitVec φ.bits)
    (h : (⟨0, ![]⟩ : Shape).BroadcastsInDim t ![]) (i : t.Idx) :
    broadcastInDim t ![] h (constant (F := Ideal) ⟨0, ![]⟩ φ b) i = FloatOps.ofBits φ b := rfl

section
variable [Cert.KernelIdeal.Facts₀] [Cert.ReferenceIdeal.Facts₀]

/-- SCATTER-ADDING INTO ZERO CARRIES AGREEMENT, for any indices and any updates: the long result's first
    150002 rows are the short result. Both start from the zero table, and row r < 150002 receives the same
    updates at both extents. -/
theorem scatter_agree (idx : Cert.KernelIdeal.S600000x1.Idx → BitVec 32) (U : Tab 600000) :
    Agree
      (Host.scatterAdd (F := Ideal) Cert.KernelIdeal.scatter_S151552x128_S600000x1_S600000x128_1_0_0_1
        (broadcastInDim Cert.KernelIdeal.S151552x128 ![] Cert.KernelIdeal.Facts₀.bcast_S_S151552x128
          (constant (F := Ideal) Cert.KernelIdeal.S_ .f32 0x00000000#32)) idx U)
      (Host.scatterAdd (F := Ideal) Cert.ReferenceIdeal.scatter_S150002x128_S600000x1_S600000x128_1_0_0_1
        (broadcastInDim Cert.ReferenceIdeal.S150002x128 ![] Cert.ReferenceIdeal.Facts₀.bcast_S_S150002x128
          (constant (F := Ideal) Cert.ReferenceIdeal.S_ .f32 0x00000000#32)) idx U) := by
  intro r k
  rw [scatterAdd_ideal_apply, scatterAdd_ideal_apply, broadcast_constant_apply, broadcast_constant_apply]
  refine congrArg (FloatOps.ofBits (F := Ideal) .f32 0x00000000#32 + ·) ?_
  refine Finset.sum_congr (Finset.filter_congr fun j _ => ?_) (fun _ _ => rfl)
  exact (rowScatter_resultIdx?_eq_some_iff (N := 151552) (E := 600000)
      Cert.KernelIdeal.Facts₀.scatter_S151552x128_S600000x1_S600000x128_1_0_0_1_wf idx j (up r) k).trans
    (rowScatter_resultIdx?_eq_some_iff (N := 150002) (E := 600000)
      Cert.ReferenceIdeal.Facts₀.scatter_S150002x128_S600000x1_S600000x128_1_0_0_1_wf idx j r k).symm

end

end Cert.Mp.Layout

end
-- ==== Proof.LayoutPad.lean ====
/-
  The remaining layout steps between a table of 150002 rows and its zero-padded copy of 151552 rows.

  * Padding adds rows after the last one only, so the padded table's first 150002 rows are the original table
    (and likewise for a column).
  * Cutting the first 150002 rows out of a long table that agrees with a short table gives the short table.
  * The index arrays: an index that is not negative is not below zero, so the "wrap a negative index" step
    (add the extent when the index is below zero) keeps it, whatever extent would have been added.
-/
import proofs.«141111_j5652176961768_1_alg».proof.KernelIdeal
import proofs.«141111_j5652176961768_1_alg».proof.ReferenceIdeal
import proofs.«141111_j5652176961768_1_alg».proof.Proof.Spec
import Idealize.ShloMosaic.Lib.ValueIdx
import Idealize.ShloMosaic.Lib.Pipeline.Value
import Idealize.ShloMosaic.PureOps.Ideal.Laws

noncomputable section

namespace Cert.Mp.Layout

open Idealize.ShloMosaic Idealize.ShloMosaic.ValueIdx

/-- Padding 1550 rows after the last: row r < 150002 of the padded array is row r of the original. -/
theorem pad_rows_apply {α : Type} {C : Nat} (x : (⟨2, ![150002, C]⟩ : Shape).Idx → α)
    (v : (⟨0, ![]⟩ : Shape).Idx → α)
    (h : (⟨2, ![150002, C]⟩ : Shape).Pads ![0, 0] ![1550, 0] ![0, 0] ⟨2, ![151552, C]⟩)
    (hu : 0 < (⟨0, ![]⟩ : Shape).numel) (r : Fin 150002) (c : Fin C) :
    pad ⟨2, ![151552, C]⟩ ![0, 0] ![1550, 0] ![0, 0] x v h hu (ix2 (up r) c) = x (ix2 r c) := by
  unfold pad
  dsimp only
  split
  · refine congrArg x (funext fun a => Fin.ext ?_)
    match a with
    | ⟨0, _⟩ => show (r.val - 0) / (0 + 1) = r.val; omega
    | ⟨1, _⟩ => show (c.val - 0) / (0 + 1) = c.val; omega
  · rename_i hin
    exfalso; apply hin
    intro a
    match a with
    | ⟨0, _⟩ =>
      show 0 ≤ r.val ∧ (r.val - 0) % (0 + 1) = 0 ∧ (r.val - 0) / (0 + 1) < 150002
      have := r.isLt; omega
    | ⟨1, _⟩ =>
      show 0 ≤ c.val ∧ (c.val - 0) % (0 + 1) = 0 ∧ (c.val - 0) / (0 + 1) < C
      have := c.isLt; omega

/-- The index chain of a gather: a start index that is not negative passes the wrap step unchanged. -/
theorem index_chain_apply (h0 : (⟨0, ![]⟩ : Shape).BroadcastsInDim ⟨1, ![600000]⟩ ![])
    (h1 : (⟨1, ![600000]⟩ : Shape).BroadcastsInDim ⟨2, ![600000, 1]⟩ ![0]) (k : BitVec 32)
    (cols : (⟨1, ![600000]⟩ : Shape).Idx → BitVec 32) (e : Fin 600000) (hc : 0 ≤ (cols (ix1 e)).toInt) :
    broadcastInDim ⟨2, ![600000, 1]⟩ ![0] h1
        (select (cmpi .slt cols (broadcastInDim ⟨1, ![600000]⟩ ![] h0 (constantI ⟨0, ![]⟩ 32 0#32)))
          (addi cols (broadcastInDim ⟨1, ![600000]⟩ ![] h0 (constantI ⟨0, ![]⟩ 32 k))) cols) (ix2 e 0)
      = cols (ix1 e) := by
  rw [broadcastInDim_apply ![0] h1 _ (ix2 e 0) (ix1 e) (fun a => match a with
    | ⟨0, _⟩ => by
      show e.val = if (600000 : Nat) = 1 then 0 else e.val
      rw [if_neg (by omega)])]
  show Scalar.select (IntOp.cmpi .slt (cols (ix1 e)) 0#32) _ (cols (ix1 e)) = cols (ix1 e)
  have hb : IntOp.cmpi .slt (cols (ix1 e)) 0#32 = 0#1 := by
    show BitVec.ofBool ((cols (ix1 e)).slt 0#32) = 0#1
    have hs : (cols (ix1 e)).slt 0#32 = false := by
      unfold BitVec.slt
      have hz : (0#32 : BitVec 32).toInt = 0 := by decide
      rw [hz]
      exact decide_eq_false (by omega)
    rw [hs]; rfl
  rw [hb, select_zero]

section
variable [Cert.KernelIdeal.Facts₀]

/-- PADDING CARRIES AGREEMENT (tables): the padded table's first 150002 rows are the table. -/
theorem pad_agree (x : Tab 150002) (v : Cert.KernelIdeal.S_.Idx → EReal) :
    Agree (pad Cert.KernelIdeal.S151552x128 ![0, 0] ![1550, 0] ![0, 0] x v
      Cert.KernelIdeal.Facts₀.pads_S150002x128_S151552x128_015500_000 Cert.KernelIdeal.Facts₀.h_S_) x :=
  fun r k => pad_rows_apply x v _ _ r k

/-- PADDING CARRIES AGREEMENT (columns): the padded column's first 150002 entries are the column. -/
theorem pad_agreeCol (x : Col 150002) (v : Cert.KernelIdeal.S_.Idx → EReal) :
    AgreeCol (pad Cert.KernelIdeal.S151552x1 ![0, 0] ![1550, 0] ![0, 0] x v
      Cert.KernelIdeal.Facts₀.pads_S150002x1_S151552x1_015500_000 Cert.KernelIdeal.Facts₀.h_S_) x :=
  fun r => pad_rows_apply x v _ _ r 0

/-- CUTTING THE LEADING ROWS: the first 150002 rows of a long table that agrees with a short one are the
    short one. -/
theorem slice_of_agree {X : Tab 151552} {Y : Tab 150002} (h : Agree X Y) :
    extractStridedSlice Cert.KernelIdeal.S150002x128 ![0, 0] X
      Cert.KernelIdeal.Facts₀.slices_S151552x128_S150002x128_0_0 = Y := by
  funext i
  refine (extractStridedSlice_apply ![0, 0] X Cert.KernelIdeal.Facts₀.slices_S151552x128_S150002x128_0_0 i
    (ix2 (up (i 0)) (i 1)) (fun a => match a with
      | ⟨0, _⟩ => by show (i 0).val = 0 + (i 0).val; omega
      | ⟨1, _⟩ => by show (i 1).val = 0 + (i 1).val; omega)).trans ?_
  exact (h (i 0) (i 1)).trans (congrArg Y (eq_ix2 i).symm)

/-- The kernel's index chain (negative indices would be wrapped by 151552): a non-negative column index
    reaches the gather unchanged. -/
theorem index_chain_long (cols : Cert.KernelIdeal.S600000.Idx → BitVec 32)
    (hc : ∀ e : Fin 600000, 0 ≤ (cols (ix1 e)).toInt ∧ (cols (ix1 e)).toInt < 150002) (e : Fin 600000) :
    broadcastInDim Cert.KernelIdeal.S600000x1 ![0] Cert.KernelIdeal.Facts₀.bcast_S600000_S600000x1_0
        (select (cmpi .slt cols (broadcastInDim Cert.KernelIdeal.S600000 ![] Cert.KernelIdeal.Facts₀.bcast_S_S600000
            (constantI Cert.KernelIdeal.S_ 32 0#32)))
          (addi cols (broadcastInDim Cert.KernelIdeal.S600000 ![] Cert.KernelIdeal.Facts₀.bcast_S_S600000
            (constantI Cert.KernelIdeal.S_ 32 151552#32))) cols) (ix2 e 0)
      = cols (ix1 e) :=
  index_chain_apply _ _ _ cols e (hc e).1

end

section
variable [Cert.ReferenceIdeal.Facts₀]

/-- The reference's index chain (negative indices would be wrapped by 150002): likewise. -/
theorem index_chain_short (cols : Cert.ReferenceIdeal.S600000.Idx → BitVec 32)
    (hc : ∀ e : Fin 600000, 0 ≤ (cols (ix1 e)).toInt ∧ (cols (ix1 e)).toInt < 150002) (e : Fin 600000) :
    broadcastInDim Cert.ReferenceIdeal.S600000x1 ![0] Cert.ReferenceIdeal.Facts₀.bcast_S600000_S600000x1_0
        (select (cmpi .slt cols (broadcastInDim Cert.ReferenceIdeal.S600000 ![] Cert.ReferenceIdeal.Facts₀.bcast_S_S600000
            (constantI Cert.ReferenceIdeal.S_ 32 0#32)))
          (addi cols (broadcastInDim Cert.ReferenceIdeal.S600000 ![] Cert.ReferenceIdeal.Facts₀.bcast_S_S600000
            (constantI Cert.ReferenceIdeal.S_ 32 150002#32))) cols) (ix2 e 0)
      = cols (ix1 e) :=
  index_chain_apply _ _ _ cols e (hc e).1

end

end Cert.Mp.Layout

end
-- ==== Proof.Bridge.lean ====
/-
  The idealized kernel's result is the reference's result.

  The kernel works on tables padded with zero rows to 151552 rows; the reference on the 150002 rows themselves.
  Two tables AGREE when the long one's first 150002 rows are the short one. Agreement is carried forward by every
  stage: gathering rows at indices below 150002 (neither table's clamp moves such an index), scaling each gathered
  row by its edge's weight (the two programs multiply in opposite orders: commutativity), adding the rows into a
  zero table (a row below 150002 receives the same updates at both lengths), adding tables entry by entry, and the
  two normalizations (row by row). The kernel returns the first 150002 rows of its last table, which are therefore
  the reference's last table.
-/
import proofs.«141111_j5652176961768_1_alg».proof.Proof.KDefs
import proofs.«141111_j5652176961768_1_alg».proof.Proof.RefFinal
import proofs.«141111_j5652176961768_1_alg».proof.Proof.Gen.ReferenceIdeal.Read
import proofs.«141111_j5652176961768_1_alg».proof.Proof.Spec
import proofs.«141111_j5652176961768_1_alg».proof.Proof.LayoutGather
import proofs.«141111_j5652176961768_1_alg».proof.Proof.LayoutScatter
import proofs.«141111_j5652176961768_1_alg».proof.Proof.LayoutPad
import Idealize.ShloMosaic.Lib.ValueIdx
import Idealize.ShloMosaic.Lib.Pipeline.Value
import Idealize.ShloMosaic.Lib.Affine
import Idealize.ShloMosaic.PureOps.Ideal.Laws

noncomputable section

namespace Cert.Proof.Bridge

open Cert.Mp Cert.Mp.Layout Idealize.ShloMosaic Idealize.ShloMosaic.ValueIdx

/-! ## The reference's sparse product, named -/

/-- The reference's source indices as its gather takes them: a negative index moved up by 150002, as a column. -/
def ridx (cols : Cert.KernelIdeal.KVal.IE) : Cert.ReferenceIdeal.S600000x1.Idx → BitVec 32 :=
  broadcastInDim Cert.ReferenceIdeal.S600000x1 ![0] Cert.ReferenceIdeal.Facts₀.bcast_S600000_S600000x1_0
    (select (cmpi .slt cols (broadcastInDim Cert.ReferenceIdeal.S600000 ![] Cert.ReferenceIdeal.Facts₀.bcast_S_S600000 (constantI Cert.ReferenceIdeal.S_ 32 0#32)))
      (addi cols (broadcastInDim Cert.ReferenceIdeal.S600000 ![] Cert.ReferenceIdeal.Facts₀.bcast_S_S600000 (constantI Cert.ReferenceIdeal.S_ 32 150002#32))) cols)

/-- The reference's scaling of the gathered rows: the weight, broadcast along the lanes, times the row. -/
def rscale (w : Cert.KernelIdeal.KVal.FE) (G : Tab 600000) : Tab 600000 :=
  mulf (F := Ideal) (broadcastInDim Cert.ReferenceIdeal.S600000x128 ![0, 1] Cert.ReferenceIdeal.Facts₀.bcast_S600000x1_S600000x128_0_1
    (broadcastInDim Cert.ReferenceIdeal.S600000x1 ![0] Cert.ReferenceIdeal.Facts₀.bcast_S600000_S600000x1_0 w)) G

/-- The reference's sparse product: gather, scale, add into a zero table of 150002 rows. -/
def rspmm (Y : Tab 150002) (rows cols : Cert.KernelIdeal.KVal.IE) (w : Cert.KernelIdeal.KVal.FE) : Tab 150002 :=
  Host.scatterAdd (F := Ideal) Cert.ReferenceIdeal.scatter_S150002x128_S600000x1_S600000x128_1_0_0_1
    (broadcastInDim Cert.ReferenceIdeal.S150002x128 ![] Cert.ReferenceIdeal.Facts₀.bcast_S_S150002x128 (constant (F := Ideal) Cert.ReferenceIdeal.S_ .f32 0x00000000#32))
    (broadcastInDim Cert.ReferenceIdeal.S600000x1 ![0] Cert.ReferenceIdeal.Facts₀.bcast_S600000_S600000x1_0 rows)
    (rscale w (Host.gather Cert.ReferenceIdeal.gather_S150002x128_S600000x1_S600000x128_1_0_n_n_0_1_1128 Y (ridx cols)))

/-- The reference's three-layer sum. -/
def rgcn (Y : Tab 150002) (rows cols : Cert.KernelIdeal.KVal.IE) (w1 w2 : Cert.KernelIdeal.KVal.FE) : Tab 150002 :=
  addT (addT Y (rspmm Y rows cols w1)) (rspmm (rspmm Y rows cols w1) rows cols w2)

/-! ## Scaling: the two orders of the product -/

/-- Lane `k` of edge `e`: the row entry times the weight on one side, the weight times the row entry on the other. -/
theorem scale_eq (G : Tab 600000) (v : Cert.KernelIdeal.KVal.FE) : Cert.Mp.edgeScale G (Cert.KernelIdeal.KVal.colw v) = rscale v G := by
  funext i
  obtain ⟨e, k, rfl⟩ : ∃ (e : Fin 600000) (k : Fin 128), i = ix2 e k := ⟨i 0, i 1, eq_ix2 i⟩
  have hL : Cert.KernelIdeal.KVal.colw v (ix2 e (0 : Fin 1)) = v (ix1 e) := by
    unfold Cert.KernelIdeal.KVal.colw
    exact shapeCast_apply v _ (ix2 e (0 : Fin 1)) (ix1 e)
      (by rewrite [Shape.rowMajor_val_two, Shape.rowMajor_val_one]; show e.val = e.val * 1 + 0; omega)
  have hR : broadcastInDim Cert.ReferenceIdeal.S600000x128 ![0, 1] Cert.ReferenceIdeal.Facts₀.bcast_S600000x1_S600000x128_0_1
      (broadcastInDim Cert.ReferenceIdeal.S600000x1 ![0] Cert.ReferenceIdeal.Facts₀.bcast_S600000_S600000x1_0 v) (ix2 e k) = v (ix1 e) := by
    refine (broadcastInDim_apply _ _ _ (ix2 e k) (ix2 e (0 : Fin 1)) (fun a => match a with
      | ⟨0, _⟩ => by show e.val = if (600000 : Nat) = 1 then 0 else e.val; rw [if_neg (by decide)]
      | ⟨1, _⟩ => by show 0 = if (1 : Nat) = 1 then 0 else k.val; rw [if_pos rfl])).trans ?_
    exact broadcastInDim_apply _ _ v (ix2 e (0 : Fin 1)) (ix1 e) (fun a => match a with
      | ⟨0, _⟩ => by show e.val = if (600000 : Nat) = 1 then 0 else e.val; rw [if_neg (by decide)])
  show G (ix2 e k) * Cert.KernelIdeal.KVal.colw v (ix2 e (0 : Fin 1)) = _
  unfold rscale
  rw [mulf_apply, hR, hL, mul_comm]

/-! ## The six weight vectors are the reference's -/

theorem w00_eq (v : Cert.KernelIdeal.KVal.FE) (msk : Cert.KernelIdeal.KVal.ME) : Cert.KernelIdeal.KVal.w00 v msk = Cert.ReferenceIdeal.Read.val_main_v4 (F := Ideal) v msk := rfl
theorem w01_eq (v : Cert.KernelIdeal.KVal.FE) (msk : Cert.KernelIdeal.KVal.ME) : Cert.KernelIdeal.KVal.w01 v msk = Cert.ReferenceIdeal.Read.val_main_v21 (F := Ideal) v msk := rfl
theorem w20_eq (v : Cert.KernelIdeal.KVal.FE) (msk : Cert.KernelIdeal.KVal.ME) : Cert.KernelIdeal.KVal.w20 v msk = Cert.ReferenceIdeal.Read.val_main_v49 (F := Ideal) v msk := rfl
theorem w21_eq (v : Cert.KernelIdeal.KVal.FE) (msk : Cert.KernelIdeal.KVal.ME) : Cert.KernelIdeal.KVal.w21 v msk = Cert.ReferenceIdeal.Read.val_main_v66 (F := Ideal) v msk := rfl
theorem w40_eq (v : Cert.KernelIdeal.KVal.FE) (msk : Cert.KernelIdeal.KVal.ME) : Cert.KernelIdeal.KVal.w40 v msk = Cert.ReferenceIdeal.Read.val_main_v86 (F := Ideal) v msk := rfl
theorem w41_eq (v : Cert.KernelIdeal.KVal.FE) (msk : Cert.KernelIdeal.KVal.ME) : Cert.KernelIdeal.KVal.w41 v msk = Cert.ReferenceIdeal.Read.val_main_v103 (F := Ideal) v msk := rfl

/-! ## The index columns -/

/-- A nonnegative word is kept by "if negative, move up". -/
theorem keep_nonneg (x y : BitVec 32) (h0 : 0 ≤ x.toInt) : Scalar.select (IntOp.cmpi .slt x 0#32) y x = x := by
  have hc : IntOp.cmpi .slt x 0#32 = 0#1 := eq_zero_of_ne_one (fun h1 => by
    have h := IntOp.cmpi_slt.1 h1
    rw [show (0#32 : BitVec 32).toInt = 0 from by decide] at h
    omega)
  rw [hc, select_zero]

/-- The kernel's index column reads the index itself where it is nonnegative. -/
theorem nidx_apply (cols : Cert.KernelIdeal.KVal.IE) (e : Fin 600000) (h0 : 0 ≤ (cols (ix1 e)).toInt) :
    Cert.KernelIdeal.KVal.nidx cols (ix2 e (0 : Fin 1)) = cols (ix1 e) := by
  unfold Cert.KernelIdeal.KVal.nidx
  refine (broadcastInDim_apply _ _ _ (ix2 e (0 : Fin 1)) (ix1 e) (fun a => match a with
    | ⟨0, _⟩ => by show e.val = if (600000 : Nat) = 1 then 0 else e.val; rw [if_neg (by decide)])).trans ?_
  exact keep_nonneg _ _ h0

/-- The reference's index column reads the index itself where it is nonnegative. -/
theorem ridx_apply (cols : Cert.KernelIdeal.KVal.IE) (e : Fin 600000) (h0 : 0 ≤ (cols (ix1 e)).toInt) :
    ridx cols (ix2 e (0 : Fin 1)) = cols (ix1 e) := by
  unfold ridx
  refine (broadcastInDim_apply _ _ _ (ix2 e (0 : Fin 1)) (ix1 e) (fun a => match a with
    | ⟨0, _⟩ => by show e.val = if (600000 : Nat) = 1 then 0 else e.val; rw [if_neg (by decide)])).trans ?_
  exact keep_nonneg _ _ h0

/-! ## One sparse product carries agreement -/

theorem spmm_agree {X : Tab 151552} {Y : Tab 150002} (h : Agree X Y) (rows cols : Cert.KernelIdeal.KVal.IE) (w : Cert.KernelIdeal.KVal.FE)
    (hc : ∀ e : Fin 600000, 0 ≤ (cols (ix1 e)).toInt ∧ (cols (ix1 e)).toInt < 150002) :
    Agree (Cert.KernelIdeal.KVal.spmm X rows cols w) (rspmm Y rows cols w) := by
  unfold Cert.KernelIdeal.KVal.spmm rspmm
  rw [gather_agree h (Cert.KernelIdeal.KVal.nidx cols) (ridx cols) (fun e => by
    rw [nidx_apply cols e (hc e).1, ridx_apply cols e (hc e).1]; exact ⟨rfl, hc e⟩), scale_eq]
  exact scatter_agree _ _

/-- The three-layer sum carries agreement. -/
theorem gcn_agree {X : Tab 151552} {Y : Tab 150002} (h : Agree X Y) (rows cols : Cert.KernelIdeal.KVal.IE) (w1 w2 : Cert.KernelIdeal.KVal.FE)
    (hc : ∀ e : Fin 600000, 0 ≤ (cols (ix1 e)).toInt ∧ (cols (ix1 e)).toInt < 150002) :
    Agree (Cert.KernelIdeal.KVal.gcn X rows cols w1 w2) (rgcn Y rows cols w1 w2) :=
  agree_addT (agree_addT h (spmm_agree h rows cols w1 hc)) (spmm_agree (spmm_agree h rows cols w1 hc) rows cols w2 hc)

/-! ## The reference's stages are these sums -/

theorem v35_eq (x0 : Cert.KernelIdeal.KVal.TN) (x1 x2 : Cert.KernelIdeal.KVal.IE) (x3 : Cert.KernelIdeal.KVal.FE) (x10 : Cert.KernelIdeal.KVal.ME) :
    Cert.ReferenceIdeal.Read.val_main_v35 (F := Ideal) x0 x1 x2 x3 x10
      = rgcn x0 x1 x2 (Cert.ReferenceIdeal.Read.val_main_v4 (F := Ideal) x3 x10) (Cert.ReferenceIdeal.Read.val_main_v21 (F := Ideal) x3 x10) := rfl

theorem v80_eq (x0 : Cert.KernelIdeal.KVal.TN) (x4 x5 : Cert.KernelIdeal.KVal.IE) (x6 : Cert.KernelIdeal.KVal.FE) (x10 : Cert.KernelIdeal.KVal.ME) :
    Cert.ReferenceIdeal.Read.val_main_v80 (F := Ideal) x0 x4 x5 x6 x10
      = rgcn x0 x4 x5 (Cert.ReferenceIdeal.Read.val_main_v49 (F := Ideal) x6 x10) (Cert.ReferenceIdeal.Read.val_main_v66 (F := Ideal) x6 x10) := rfl

theorem v117_eq (x0 : Cert.KernelIdeal.KVal.TN) (x1 x2 : Cert.KernelIdeal.KVal.IE) (x3 : Cert.KernelIdeal.KVal.FE) (x4 x5 : Cert.KernelIdeal.KVal.IE) (x6 : Cert.KernelIdeal.KVal.FE) (x7 : Cert.KernelIdeal.KVal.CN) (x10 : Cert.KernelIdeal.KVal.ME) :
    Cert.ReferenceIdeal.Read.val_main_v117 (F := Ideal) x0 x1 x2 x3 x4 x5 x6 x7 x10
      = rgcn (Cert.ReferenceIdeal.Read.val_main_v45 (F := Ideal) x0 x1 x2 x3 x7 x10) x4 x5
          (Cert.ReferenceIdeal.Read.val_main_v86 (F := Ideal) x6 x10) (Cert.ReferenceIdeal.Read.val_main_v103 (F := Ideal) x6 x10) := rfl

/-! ## The stages, in order -/

/-- The first behaviour's three-layer sum. -/
theorem gcn1_agree (x0 : Cert.KernelIdeal.KVal.TN) (x1 x2 : Cert.KernelIdeal.KVal.IE) (x3 : Cert.KernelIdeal.KVal.FE) (x10 : Cert.KernelIdeal.KVal.ME) (h2 : ∀ e : Fin 600000, 0 ≤ (x2 (ix1 e)).toInt ∧ (x2 (ix1 e)).toInt < 150002) :
    Agree (Cert.KernelIdeal.KVal.gcn (Cert.KernelIdeal.KVal.padT x0) x1 x2 (Cert.KernelIdeal.KVal.w00 x3 x10) (Cert.KernelIdeal.KVal.w01 x3 x10))
      (Cert.ReferenceIdeal.Read.val_main_v35 (F := Ideal) x0 x1 x2 x3 x10) := by
  rw [v35_eq, ← w00_eq, ← w01_eq]
  exact gcn_agree (pad_agree x0 _) x1 x2 _ _ h2

/-- The first behaviour's table. -/
theorem curAux_agree (x0 : Cert.KernelIdeal.KVal.TN) (x1 x2 : Cert.KernelIdeal.KVal.IE) (x3 : Cert.KernelIdeal.KVal.FE) (x7 : Cert.KernelIdeal.KVal.CN) (x10 : Cert.KernelIdeal.KVal.ME) (h2 : ∀ e : Fin 600000, 0 ≤ (x2 (ix1 e)).toInt ∧ (x2 (ix1 e)).toInt < 150002) :
    Agree (Cert.KernelIdeal.KVal.curAux x0 x1 x2 x3 x7 x10) (Cert.ReferenceIdeal.Read.val_main_v45 (F := Ideal) x0 x1 x2 x3 x7 x10) := by
  rw [Cert.ReferenceIdeal.RefValue.ref_fin1]
  exact agree_fin1 (gcn1_agree x0 x1 x2 x3 x10 h2) (pad_agreeCol x7 _) (pad_agree x0 _)

/-- The second behaviour's three-layer sum of the padded table. -/
theorem gAll_agree (x0 : Cert.KernelIdeal.KVal.TN) (x4 x5 : Cert.KernelIdeal.KVal.IE) (x6 : Cert.KernelIdeal.KVal.FE) (x10 : Cert.KernelIdeal.KVal.ME) (h5 : ∀ e : Fin 600000, 0 ≤ (x5 (ix1 e)).toInt ∧ (x5 (ix1 e)).toInt < 150002) :
    Agree (Cert.KernelIdeal.KVal.gAll x0 x4 x5 x6 x10) (Cert.ReferenceIdeal.Read.val_main_v80 (F := Ideal) x0 x4 x5 x6 x10) := by
  rw [v80_eq, ← w20_eq, ← w21_eq]
  exact gcn_agree (pad_agree x0 _) x4 x5 _ _ h5

/-- The second behaviour's three-layer sum of the first behaviour's table. -/
theorem gAux_agree (x0 : Cert.KernelIdeal.KVal.TN) (x1 x2 : Cert.KernelIdeal.KVal.IE) (x3 : Cert.KernelIdeal.KVal.FE) (x4 x5 : Cert.KernelIdeal.KVal.IE) (x6 : Cert.KernelIdeal.KVal.FE) (x7 : Cert.KernelIdeal.KVal.CN) (x10 : Cert.KernelIdeal.KVal.ME) (h2 : ∀ e : Fin 600000, 0 ≤ (x2 (ix1 e)).toInt ∧ (x2 (ix1 e)).toInt < 150002) (h5 : ∀ e : Fin 600000, 0 ≤ (x5 (ix1 e)).toInt ∧ (x5 (ix1 e)).toInt < 150002) :
    Agree (Cert.KernelIdeal.KVal.gAux x0 x1 x2 x3 x4 x5 x6 x7 x10)
      (Cert.ReferenceIdeal.Read.val_main_v117 (F := Ideal) x0 x1 x2 x3 x4 x5 x6 x7 x10) := by
  rw [v117_eq, ← w40_eq, ← w41_eq]
  exact gcn_agree (curAux_agree x0 x1 x2 x3 x7 x10 h2) x4 x5 _ _ h5

/-- The second behaviour's table. -/
theorem curBuy_agree (x0 : Cert.KernelIdeal.KVal.TN) (x1 x2 : Cert.KernelIdeal.KVal.IE) (x3 : Cert.KernelIdeal.KVal.FE) (x4 x5 : Cert.KernelIdeal.KVal.IE) (x6 : Cert.KernelIdeal.KVal.FE) (x7 x8 x9 : Cert.KernelIdeal.KVal.CN) (x10 : Cert.KernelIdeal.KVal.ME) (h2 : ∀ e : Fin 600000, 0 ≤ (x2 (ix1 e)).toInt ∧ (x2 (ix1 e)).toInt < 150002) (h5 : ∀ e : Fin 600000, 0 ≤ (x5 (ix1 e)).toInt ∧ (x5 (ix1 e)).toInt < 150002) :
    Agree (Cert.KernelIdeal.KVal.curBuy x0 x1 x2 x3 x4 x5 x6 x7 x8 x9 x10)
      (Cert.ReferenceIdeal.Read.val_main_v130 (F := Ideal) x0 x1 x2 x3 x4 x5 x6 x7 x8 x9 x10) := by
  rw [Cert.ReferenceIdeal.RefValue.ref_fin2]
  exact agree_fin2 (gAll_agree x0 x4 x5 x6 x10 h5) (pad_agreeCol x8 _) (gAux_agree x0 x1 x2 x3 x4 x5 x6 x7 x10 h2 h5)
    (pad_agreeCol x9 _) (curAux_agree x0 x1 x2 x3 x7 x10 h2)

/-- THE KERNEL'S RESULT IS THE REFERENCE'S: the first 150002 rows of the kernel's last table. -/
theorem out_eq_ref (x0 : Cert.KernelIdeal.KVal.TN) (x1 x2 : Cert.KernelIdeal.KVal.IE) (x3 : Cert.KernelIdeal.KVal.FE) (x4 x5 : Cert.KernelIdeal.KVal.IE) (x6 : Cert.KernelIdeal.KVal.FE) (x7 x8 x9 : Cert.KernelIdeal.KVal.CN) (x10 : Cert.KernelIdeal.KVal.ME)
    (h2 : ∀ e : Fin 600000, 0 ≤ (x2 (ix1 e)).toInt ∧ (x2 (ix1 e)).toInt < 150002)
    (h5 : ∀ e : Fin 600000, 0 ≤ (x5 (ix1 e)).toInt ∧ (x5 (ix1 e)).toInt < 150002) :
    Cert.KernelIdeal.KVal.out x0 x1 x2 x3 x4 x5 x6 x7 x8 x9 x10
      = Cert.ReferenceIdeal.Read.val_main_v130 (F := Ideal) x0 x1 x2 x3 x4 x5 x6 x7 x8 x9 x10 :=
  slice_of_agree (curBuy_agree x0 x1 x2 x3 x4 x5 x6 x7 x8 x9 x10 h2 h5)

end Cert.Proof.Bridge

end
-- ==== Proof.lean ====
/-
  The certificate's five claims for the message-passing program.

  FRAMES. Each program, run from a memory satisfying the precondition, terminates without a fault and leaves its
  argument arrays unchanged: for the two kernel programs this is the launch over the program's segments; for the
  reference, its run with the result forgotten.

  PRESERVES. The idealized kernel differs from the kernel in three places, all the same constant: the single-precision
  word nearest one third is read as exactly one third.

  ALGEBRAIC. Under the precondition — every float input finite, and every source index of both edge lists inside
  the node table — the idealized kernel and the idealized reference return the same table. The kernel works on tables
  padded with 1550 zero rows; the two programs agree on the first 150002 rows at every stage: the padded table
  against the table; a gather of source rows, whose indices stay inside the first 150002 rows; the edge scaling
  (a product, commuted); the scatter-add into destination rows, which for a row below 150002 sums the same
  updates whatever the table's length; the entrywise sums; the row-wise normalization, where the reference's
  quotient by three is the kernel's product with one third; and the final slice returns exactly those rows.
-/
import proofs.«141111_j5652176961768_1_alg».proof.Defs
import proofs.«141111_j5652176961768_1_alg».proof.Proof.Gen.Kernel
import proofs.«141111_j5652176961768_1_alg».proof.Proof.Gen.Kernel.Skeleton
import proofs.«141111_j5652176961768_1_alg».proof.Proof.Gen.Kernel.Launch
import proofs.«141111_j5652176961768_1_alg».proof.Proof.Gen.Kernel.Points
import proofs.«141111_j5652176961768_1_alg».proof.Proof.Gen.Kernel.Frame
import proofs.«141111_j5652176961768_1_alg».proof.Proof.Gen.KernelIdeal
import proofs.«141111_j5652176961768_1_alg».proof.Proof.Gen.KernelIdeal.Skeleton
import proofs.«141111_j5652176961768_1_alg».proof.Proof.Gen.KernelIdeal.Launch
import proofs.«141111_j5652176961768_1_alg».proof.Proof.Gen.KernelIdeal.Points
import proofs.«141111_j5652176961768_1_alg».proof.Proof.Gen.KernelIdeal.Frame
import proofs.«141111_j5652176961768_1_alg».proof.Proof.Gen.ReferenceIdeal
import proofs.«141111_j5652176961768_1_alg».proof.Proof.Gen.ReferenceIdeal.Run
import proofs.«141111_j5652176961768_1_alg».proof.Proof.Gen.ReferenceIdeal.Read
import proofs.«141111_j5652176961768_1_alg».proof.Proof.Gen.Pre_finite_inputs
import proofs.«141111_j5652176961768_1_alg».proof.Proof.RegionScale0
import proofs.«141111_j5652176961768_1_alg».proof.Proof.RegionAdd1
import proofs.«141111_j5652176961768_1_alg».proof.Proof.RegionScale2
import proofs.«141111_j5652176961768_1_alg».proof.Proof.RegionAdd3
import proofs.«141111_j5652176961768_1_alg».proof.Proof.RegionFin1
import proofs.«141111_j5652176961768_1_alg».proof.Proof.RegionScale5
import proofs.«141111_j5652176961768_1_alg».proof.Proof.RegionAdd6
import proofs.«141111_j5652176961768_1_alg».proof.Proof.RegionScale7
import proofs.«141111_j5652176961768_1_alg».proof.Proof.RegionAdd8
import proofs.«141111_j5652176961768_1_alg».proof.Proof.RegionScale9
import proofs.«141111_j5652176961768_1_alg».proof.Proof.RegionAdd10
import proofs.«141111_j5652176961768_1_alg».proof.Proof.RegionScale11
import proofs.«141111_j5652176961768_1_alg».proof.Proof.RegionAdd12
import proofs.«141111_j5652176961768_1_alg».proof.Proof.RegionFin2
import proofs.«141111_j5652176961768_1_alg».proof.Proof.KVal
import proofs.«141111_j5652176961768_1_alg».proof.Proof.ColsRange
import proofs.«141111_j5652176961768_1_alg».proof.Proof.Bridge
import Idealize.ShloMosaic.PureOps.IdealRules
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The named constant is one third at the ideal values, at each of its three sites. -/
theorem preserves : Cert.preserves_Kernel_KernelIdeal :=
  ⟨IdealRules.named_const.statement Cert.KernelIdeal.κ "inv_3" .f32 0x3EAAAAAB#32 ((1 / 3 : ℝ) : EReal) rfl,
   IdealRules.named_const.statement Cert.KernelIdeal.κ "inv_3" .f32 0x3EAAAAAB#32 ((1 / 3 : ℝ) : EReal) rfl,
   IdealRules.named_const.statement Cert.KernelIdeal.κ "inv_3" .f32 0x3EAAAAAB#32 ((1 / 3 : ℝ) : EReal) rfl⟩

/-- Every region's value, gathered. -/
theorem regionValues : Cert.KernelIdeal.AsOps.RegionValues :=
  ⟨fun V c => Cert.KernelIdeal.RegionValue.scale0 V c,
   fun V c => Cert.KernelIdeal.RegionValue.add1 V c,
   fun V c => Cert.KernelIdeal.RegionValue.scale2 V c,
   fun V c => Cert.KernelIdeal.RegionValue.add3 V c,
   fun V c => Cert.KernelIdeal.RegionValue.fin1_4 V c,
   fun V c => Cert.KernelIdeal.RegionValue.scale5 V c,
   fun V c => Cert.KernelIdeal.RegionValue.add6 V c,
   fun V c => Cert.KernelIdeal.RegionValue.scale7 V c,
   fun V c => Cert.KernelIdeal.RegionValue.add8 V c,
   fun V c => Cert.KernelIdeal.RegionValue.scale9 V c,
   fun V c => Cert.KernelIdeal.RegionValue.add10 V c,
   fun V c => Cert.KernelIdeal.RegionValue.scale11 V c,
   fun V c => Cert.KernelIdeal.RegionValue.add12 V c,
   fun V c => Cert.KernelIdeal.RegionValue.fin2_13 V c⟩

theorem algebraic : Cert.algebraic_KernelIdeal_ReferenceIdeal := by
  intro m ρ m' ρ' hpre hagree
  refine ⟨fun c => Cert.KernelIdeal.KVal.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.KernelIdeal.KVal.run m ρ regionValues, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v130_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2.1, (hagree c).2.2.2.2.2.2.2.2.2.1, (hagree c).2.2.2.2.2.2.2.2.2.2]
  exact (Cert.Proof.Bridge.out_eq_ref _ _ _ _ _ _ _ _ _ _ _
    (Cert.Proof.ColsRange.cols_aux_range m hpre c) (Cert.Proof.ColsRange.cols_buy_range m hpre c)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
